-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x296x32x32x32 : Shape := ⟨5, ![4, 296, 32, 32, 32]⟩
abbrev S120 : Shape := ⟨1, ![120]⟩
abbrev S64 : Shape := ⟨1, ![64]⟩
abbrev S_ : Shape := ⟨0, ![]⟩

class Facts : Prop where
  bcast_S_S4x296x32x32x32 : S_.BroadcastsInDim S4x296x32x32x32 (![] : Fin 0 → Fin S4x296x32x32x32.rank)
  reducesTo_S4x296x32x32x32_S_d0_1_2_3_4 : S4x296x32x32x32.ReducesTo [0, 1, 2, 3, 4] S_
  h_S_ : 0 < S_.numel
  bcast_S_S120 : S_.BroadcastsInDim S120 (![] : Fin 0 → Fin S120.rank)
  reducesTo_S120_S_d0 : S120.ReducesTo [0] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x296x32x32x32 .f32) (main_arg1 : FVec F S120 .f32) (main_arg2 : FVec F S64 .f32) : IVec S_ 1 :=
  let main_v0 : FVec F S4x296x32x32x32 .f32 := Host.absf main_arg0
  let main_cst : FVec F S_ .f32 := constant S_ .f32 0x7F800000#32
  let main_v1 : FVec F S4x296x32x32x32 .f32 := broadcastInDim S4x296x32x32x32 ![] bcast_S_S4x296x32x32x32 main_cst
  let main_v2 : IVec S4x296x32x32x32 1 := cmpf .olt main_v0 main_v1
  let main_c : IVec S_ 1 := constantI S_ 1 1#1
  let main_v3 : IVec S_ 1 := (fun x v => Host.reduce IntOp.andi x v reducesTo_S4x296x32x32x32_S_d0_1_2_3_4 h_S_) main_v2 main_c
  let main_v4 : FVec F S120 .f32 := Host.absf main_arg1
  let main_cst_0 : FVec F S_ .f32 := constant S_ .f32 0x7F800000#32
  let main_v5 : FVec F S120 .f32 := broadcastInDim S120 ![] bcast_S_S120 main_cst_0
  let main_v6 : IVec S120 1 := cmpf .olt main_v4 main_v5
  let main_c_1 : IVec S_ 1 := constantI S_ 1 1#1
  let main_v7 : IVec S_ 1 := (fun x v => Host.reduce IntOp.andi x v reducesTo_S120_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x296x32x32x32 : Shape := ⟨5, ![4, 296, 32, 32, 32]⟩
abbrev S120 : Shape := ⟨1, ![120]⟩
abbrev S64 : Shape := ⟨1, ![64]⟩
abbrev S4x296x32768 : Shape := ⟨3, ![4, 296, 32768]⟩
abbrev S4x4 : Shape := ⟨2, ![4, 4]⟩
abbrev S4x296x1024 : Shape := ⟨3, ![4, 296, 1024]⟩
abbrev S4x64x1024 : Shape := ⟨3, ![4, 64, 1024]⟩
abbrev S4x64 : Shape := ⟨2, ![4, 64]⟩
abbrev S4 : Shape := ⟨1, ![4]⟩
abbrev S4x1 : Shape := ⟨2, ![4, 1]⟩
abbrev S4x96x1024 : Shape := ⟨3, ![4, 96, 1024]⟩
abbrev S4x96 : Shape := ⟨2, ![4, 96]⟩
abbrev S4x80x1024 : Shape := ⟨3, ![4, 80, 1024]⟩
abbrev S4x80 : Shape := ⟨2, ![4, 80]⟩
abbrev S4x56x1024 : Shape := ⟨3, ![4, 56, 1024]⟩
abbrev S4x56 : Shape := ⟨2, ![4, 56]⟩
abbrev S64x1 : Shape := ⟨2, ![64, 1]⟩
abbrev S1x64 : Shape := ⟨2, ![1, 64]⟩
abbrev S32 : Shape := ⟨1, ![32]⟩
abbrev S32x3 : Shape := ⟨2, ![32, 3]⟩
abbrev S96 : Shape := ⟨1, ![96]⟩
abbrev S1x96 : Shape := ⟨2, ![1, 96]⟩
abbrev S_ : Shape := ⟨0, ![]⟩
abbrev S16 : Shape := ⟨1, ![16]⟩
abbrev S16x5 : Shape := ⟨2, ![16, 5]⟩
abbrev S80 : Shape := ⟨1, ![80]⟩
abbrev S1x80 : Shape := ⟨2, ![1, 80]⟩
abbrev S8 : Shape := ⟨1, ![8]⟩
abbrev S8x7 : Shape := ⟨2, ![8, 7]⟩
abbrev S56 : Shape := ⟨1, ![56]⟩
abbrev S1x56 : Shape := ⟨2, ![1, 56]⟩
abbrev S4x296 : Shape := ⟨2, ![4, 296]⟩
abbrev S4x296x1 : Shape := ⟨3, ![4, 296, 1]⟩

abbrev nBuf : Space → Nat
  | .hbm => 62
  | .vmem => 13
  | .smem => 0
  | _ => 0

abbrev bufTy : (tb : Table) → Fin (tcTables nBuf tb) → BufTy
  | .hbm, ⟨0, _⟩ => ⟨S4x296x32x32x32, .f32⟩
  | .hbm, ⟨1, _⟩ => ⟨S120, .f32⟩
  | .hbm, ⟨2, _⟩ => ⟨S64, .f32⟩
  | .hbm, ⟨3, _⟩ => ⟨S4x296x32768, .f32⟩
  | .hbm, ⟨4, _⟩ => ⟨S4x4, .f32⟩
  | .hbm, ⟨5, _⟩ => ⟨S4x4, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S4x1, .f32⟩
  | .hbm, ⟨10, _⟩ => ⟨S1x64, .f32⟩
  | .hbm, ⟨11, _⟩ => ⟨S4x64, .f32⟩
  | .hbm, ⟨12, _⟩ => ⟨S4x64, .f32⟩
  | .hbm, ⟨13, _⟩ => ⟨S4x64, .f32⟩
  | .hbm, ⟨14, _⟩ => ⟨S4x1, .f32⟩
  | .hbm, ⟨15, _⟩ => ⟨S4x64, .f32⟩
  | .hbm, ⟨16, _⟩ => ⟨S1x64, .f32⟩
  | .hbm, ⟨17, _⟩ => ⟨S4x64, .f32⟩
  | .hbm, ⟨18, _⟩ => ⟨S32, .f32⟩
  | .hbm, ⟨19, _⟩ => ⟨S32x3, .f32⟩
  | .hbm, ⟨20, _⟩ => ⟨S96, .f32⟩
  | .hbm, ⟨21, _⟩ => ⟨S4x1, .f32⟩
  | .hbm, ⟨22, _⟩ => ⟨S1x96, .f32⟩
  | .hbm, ⟨23, _⟩ => ⟨S4x96, .f32⟩
  | .hbm, ⟨24, _⟩ => ⟨S4x96, .f32⟩
  | .hbm, ⟨25, _⟩ => ⟨S4x96, .f32⟩
  | .hbm, ⟨26, _⟩ => ⟨S_, .f32⟩
  | .hbm, ⟨27, _⟩ => ⟨S4x96, .f32⟩
  | .hbm, ⟨28, _⟩ => ⟨S_, .f32⟩
  | .hbm, ⟨29, _⟩ => ⟨S4x96, .f32⟩
  | .hbm, ⟨30, _⟩ => ⟨S16, .f32⟩
  | .hbm, ⟨31, _⟩ => ⟨S16x5, .f32⟩
  | .hbm, ⟨32, _⟩ => ⟨S80, .f32⟩
  | .hbm, ⟨33, _⟩ => ⟨S4x1, .f32⟩
  | .hbm, ⟨34, _⟩ => ⟨S1x80, .f32⟩
  | .hbm, ⟨35, _⟩ => ⟨S4x80, .f32⟩
  | .hbm, ⟨36, _⟩ => ⟨S4x80, .f32⟩
  | .hbm, ⟨37, _⟩ => ⟨S4x80, .f32⟩
  | .hbm, ⟨38, _⟩ => ⟨S_, .f32⟩
  | .hbm, ⟨39, _⟩ => ⟨S4x80, .f32⟩
  | .hbm, ⟨40, _⟩ => ⟨S_, .f32⟩
  | .hbm, ⟨41, _⟩ => ⟨S4x80, .f32⟩
  | .hbm, ⟨42, _⟩ => ⟨S8, .f32⟩
  | .hbm, ⟨43, _⟩ => ⟨S8x7, .f32⟩
  | .hbm, ⟨44, _⟩ => ⟨S56, .f32⟩
  | .hbm, ⟨45, _⟩ => ⟨S4x1, .f32⟩
  | .hbm, ⟨46, _⟩ => ⟨S1x56, .f32⟩
  | .hbm, ⟨47, _⟩ => ⟨S4x56, .f32⟩
  | .hbm, ⟨48, _⟩ => ⟨S4x56, .f32⟩
  | .hbm, ⟨49, _⟩ => ⟨S4x56, .f32⟩
  | .hbm, ⟨50, _⟩ => ⟨S_, .f32⟩
  | .hbm, ⟨51, _⟩ => ⟨S4x56, .f32⟩
  | .hbm, ⟨52, _⟩ => ⟨S_, .f32⟩
  | .hbm, ⟨53, _⟩ => ⟨S4x56, .f32⟩
  | .hbm, ⟨54, _⟩ => ⟨S4x296, .f32⟩
  | .hbm, ⟨55, _⟩ => ⟨S4x296, .f32⟩
  | .hbm, ⟨56, _⟩ => ⟨S4x296, .f32⟩
  | .hbm, ⟨57, _⟩ => ⟨S4x296x1, .f32⟩
  | .hbm, ⟨58, _⟩ => ⟨S4x296x1, .f32⟩
  | .hbm, ⟨59, _⟩ => ⟨S4x296x1, .f32⟩
  | .hbm, ⟨60, _⟩ => ⟨S4x296x32768, .f32⟩
  | .hbm, ⟨61, _⟩ => ⟨S4x296x32x32x32, .f32⟩
  | .local _ .vmem, ⟨0, _⟩ => ⟨S4x296x1024, .f32⟩
  | .local _ .vmem, ⟨1, _⟩ => ⟨S4x296x1024, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x296x1024, .f32⟩
  | .local _ .vmem, ⟨7, _⟩ => ⟨S4x296x1024, .f32⟩
  | .local _ .vmem, ⟨8, _⟩ => ⟨S4x296x1, .f32⟩
  | .local _ .vmem, ⟨9, _⟩ => ⟨S4x296x1, .f32⟩
  | .local _ .vmem, ⟨10, _⟩ => ⟨S4x296x1, .f32⟩
  | .local _ .vmem, ⟨11, _⟩ => ⟨S4x296x1024, .f32⟩
  | .local _ .vmem, ⟨12, _⟩ => ⟨S4x296x1024, .f32⟩
  | _, _ => ⟨S4x296x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v79 : BitVec 1 := Scalar.cmpi .eq arg0 c31_i32
  let v80 : BitVec 32 := Scalar.extui v79
  let c0_i32_53 : BitVec 32 := 0#32
  let v81 : BitVec 1 := Scalar.cmpi .ne v80 c0_i32_53
  v81

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x296x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S4x296x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x296x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x296x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x296x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x296x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x296x32x32x32_S4x296x32768 : S4x296x32x32x32.ShapeCasts S4x296x32768
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S4x296x1024_S4x64x1024_0_0_0 : ∀ a, (![0, 0, 0] : Fin 3 → Nat) a + S4x64x1024.size a ≤ S4x296x1024.size a
  h_S4x64x1024 : 0 < S4x64x1024.numel
  shapeCasts_S4x64x1024_S4x64x1024 : S4x64x1024.ShapeCasts S4x64x1024
  reduces_S4x64x1024_S4x64 : S4x64x1024.Reduces [2] S4x64
  reduces_S4x64_S4 : S4x64.Reduces [1] S4
  shapeCasts_S4_S4x1 : S4.ShapeCasts S4x1
  inb_S4x4_S4x1_0_0 : ∀ a, (![0, 0] : Fin 2 → Nat) a + S4x1.size a ≤ S4x4.size a
  h_S4x1 : 0 < S4x1.numel
  shapeCasts_S4x1_S4x1 : S4x1.ShapeCasts S4x1
  inb_S4x296x1024_S4x96x1024_0_64_0 : ∀ a, (![0, 64, 0] : Fin 3 → Nat) a + S4x96x1024.size a ≤ S4x296x1024.size a
  h_S4x96x1024 : 0 < S4x96x1024.numel
  shapeCasts_S4x96x1024_S4x96x1024 : S4x96x1024.ShapeCasts S4x96x1024
  reduces_S4x96x1024_S4x96 : S4x96x1024.Reduces [2] S4x96
  reduces_S4x96_S4 : S4x96.Reduces [1] S4
  inb_S4x4_S4x1_0_1 : ∀ a, (![0, 1] : Fin 2 → Nat) a + S4x1.size a ≤ S4x4.size a
  inb_S4x296x1024_S4x80x1024_0_160_0 : ∀ a, (![0, 160, 0] : Fin 3 → Nat) a + S4x80x1024.size a ≤ S4x296x1024.size a
  h_S4x80x1024 : 0 < S4x80x1024.numel
  shapeCasts_S4x80x1024_S4x80x1024 : S4x80x1024.ShapeCasts S4x80x1024
  reduces_S4x80x1024_S4x80 : S4x80x1024.Reduces [2] S4x80
  reduces_S4x80_S4 : S4x80.Reduces [1] S4
  inb_S4x4_S4x1_0_2 : ∀ a, (![0, 2] : Fin 2 → Nat) a + S4x1.size a ≤ S4x4.size a
  inb_S4x296x1024_S4x56x1024_0_240_0 : ∀ a, (![0, 240, 0] : Fin 3 → Nat) a + S4x56x1024.size a ≤ S4x296x1024.size a
  h_S4x56x1024 : 0 < S4x56x1024.numel
  shapeCasts_S4x56x1024_S4x56x1024 : S4x56x1024.ShapeCasts S4x56x1024
  reduces_S4x56x1024_S4x56 : S4x56x1024.Reduces [2] S4x56
  reduces_S4x56_S4 : S4x56.Reduces [1] S4
  inb_S4x4_S4x1_0_3 : ∀ a, (![0, 3] : Fin 2 → Nat) a + S4x1.size a ≤ S4x4.size a
  slices_S120_S64_0 : S120.Slices ![0] S64
  bcast_S64_S64x1_0 : S64.BroadcastsInDim S64x1 (![0] : Fin 1 → Fin S64x1.rank)
  shapeCasts_S64x1_S64 : S64x1.ShapeCasts S64
  slices_S4x4_S4x1_0_0 : S4x4.Slices ![0, 0] S4x1
  bcast_S64_S1x64_1 : S64.BroadcastsInDim S1x64 (![1] : Fin 1 → Fin S1x64.rank)
  bcast_S4x1_S4x64_0_1 : S4x1.BroadcastsInDim S4x64 (![0, 1] : Fin 2 → Fin S4x64.rank)
  bcast_S1x64_S4x64_0_1 : S1x64.BroadcastsInDim S4x64 (![0, 1] : Fin 2 → Fin S4x64.rank)
  slices_S120_S32_64 : S120.Slices ![64] S32
  bcast_S32_S32x3_0 : S32.BroadcastsInDim S32x3 (![0] : Fin 1 → Fin S32x3.rank)
  shapeCasts_S32x3_S96 : S32x3.ShapeCasts S96
  slices_S4x4_S4x1_0_1 : S4x4.Slices ![0, 1] S4x1
  bcast_S96_S1x96_1 : S96.BroadcastsInDim S1x96 (![1] : Fin 1 → Fin S1x96.rank)
  bcast_S4x1_S4x96_0_1 : S4x1.BroadcastsInDim S4x96 (![0, 1] : Fin 2 → Fin S4x96.rank)
  bcast_S1x96_S4x96_0_1 : S1x96.BroadcastsInDim S4x96 (![0, 1] : Fin 2 → Fin S4x96.rank)
  bcast_S_S4x96 : S_.BroadcastsInDim S4x96 (![] : Fin 0 → Fin S4x96.rank)
  slices_S120_S16_96 : S120.Slices ![96] S16
  bcast_S16_S16x5_0 : S16.BroadcastsInDim S16x5 (![0] : Fin 1 → Fin S16x5.rank)
  shapeCasts_S16x5_S80 : S16x5.ShapeCasts S80
  slices_S4x4_S4x1_0_2 : S4x4.Slices ![0, 2] S4x1
  bcast_S80_S1x80_1 : S80.BroadcastsInDim S1x80 (![1] : Fin 1 → Fin S1x80.rank)
  bcast_S4x1_S4x80_0_1 : S4x1.BroadcastsInDim S4x80 (![0, 1] : Fin 2 → Fin S4x80.rank)
  bcast_S1x80_S4x80_0_1 : S1x80.BroadcastsInDim S4x80 (![0, 1] : Fin 2 → Fin S4x80.rank)
  bcast_S_S4x80 : S_.BroadcastsInDim S4x80 (![] : Fin 0 → Fin S4x80.rank)
  slices_S120_S8_112 : S120.Slices ![112] S8
  bcast_S8_S8x7_0 : S8.BroadcastsInDim S8x7 (![0] : Fin 1 → Fin S8x7.rank)
  shapeCasts_S8x7_S56 : S8x7.ShapeCasts S56
  slices_S4x4_S4x1_0_3 : S4x4.Slices ![0, 3] S4x1
  bcast_S56_S1x56_1 : S56.BroadcastsInDim S1x56 (![1] : Fin 1 → Fin S1x56.rank)
  bcast_S4x1_S4x56_0_1 : S4x1.BroadcastsInDim S4x56 (![0, 1] : Fin 2 → Fin S4x56.rank)
  bcast_S1x56_S4x56_0_1 : S1x56.BroadcastsInDim S4x56 (![0, 1] : Fin 2 → Fin S4x56.rank)
  bcast_S_S4x56 : S_.BroadcastsInDim S4x56 (![] : Fin 0 → Fin S4x56.rank)
  concatenates_S4x64_S4x96_S4x80_S4x56_S4x296_d1 : Shape.Concatenates [S4x64, S4x96, S4x80, S4x56] S4x296 1
  bcast_S4x296_S4x296x1_0_1 : S4x296.BroadcastsInDim S4x296x1 (![0, 1] : Fin 2 → Fin S4x296x1.rank)
  inb_S4x296x1024_S4x296x1024_0_0_0 : ∀ a, (![0, 0, 0] : Fin 3 → Nat) a + S4x296x1024.size a ≤ S4x296x1024.size a
  h_S4x296x1024 : 0 < S4x296x1024.numel
  shapeCasts_S4x296x1024_S4x296x1024 : S4x296x1024.ShapeCasts S4x296x1024
  inb_S4x296x1_S4x296x1_0_0_0 : ∀ a, (![0, 0, 0] : Fin 3 → Nat) a + S4x296x1.size a ≤ S4x296x1.size a
  h_S4x296x1 : 0 < S4x296x1.numel
  shapeCasts_S4x296x1_S4x296x1 : S4x296x1.ShapeCasts S4x296x1
  broadcasts_S4x296x1_S4x296x1024 : S4x296x1.Broadcasts S4x296x1024
  shapeCasts_S4x296x32768_S4x296x32x32x32 : S4x296x32768.ShapeCasts S4x296x32x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x296x1024.size a ≤ S4x296x32768.size a
  hwx0_0 : ∀ i : grid0.Coords, EltTy.bits .f32 = 32 ∨ (Rect.block (s := S4x296x32768) S4x296x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4.size a ≤ S4x4.size a
  hwx0_1 : ∀ i : grid0.Coords, EltTy.bits .f32 = 32 ∨ (Rect.block (s := S4x4) S4x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4.size a ≤ S4x4.size a
  hwx0_2 : ∀ i : grid0.Coords, EltTy.bits .f32 = 32 ∨ (Rect.block (s := S4x4) S4x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x296x1024.size a ≤ S4x296x32768.size a
  hwx1_0 : ∀ i : grid1.Coords, EltTy.bits .f32 = 32 ∨ (Rect.block (s := S4x296x32768) S4x296x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x296x1.size a ≤ S4x296x1.size a
  hwx1_1 : ∀ i : grid1.Coords, EltTy.bits .f32 = 32 ∨ (Rect.block (s := S4x296x1) S4x296x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x296x1.size a ≤ S4x296x1.size a
  hwx1_2 : ∀ i : grid1.Coords, EltTy.bits .f32 = 32 ∨ (Rect.block (s := S4x296x1) S4x296x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x296x1.size a ≤ S4x296x1.size a
  hwx1_3 : ∀ i : grid1.Coords, EltTy.bits .f32 = 32 ∨ (Rect.block (s := S4x296x1) S4x296x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x296x1024.size a ≤ S4x296x32768.size a
  hwx1_4 : ∀ i : grid1.Coords, EltTy.bits .f32 = 32 ∨ (Rect.block (s := S4x296x32768) S4x296x1024.size (cc1_transform_4 i) (hinb1_4 i)).WholeWords (EltTy.packing .f32)

variable [Facts₀]

abbrev win0_0 : Pipeline.Window sig grid0 :=
  Pipeline.Window.ofSpec (Memref.whole main_v0) S4x296x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S4x4.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S4x4.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S4x296x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4x296x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4x296x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S4x296x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S4x296x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x296x32x32x32 : Shape := ⟨5, ![4, 296, 32, 32, 32]⟩
abbrev S120 : Shape := ⟨1, ![120]⟩
abbrev S64 : Shape := ⟨1, ![64]⟩
abbrev S4x64x32x32x32 : Shape := ⟨5, ![4, 64, 32, 32, 32]⟩
abbrev S4x64x1x32768 : Shape := ⟨4, ![4, 64, 1, 32768]⟩
abbrev S4x2097152 : Shape := ⟨2, ![4, 2097152]⟩
abbrev S_ : Shape := ⟨0, ![]⟩
abbrev S4 : Shape := ⟨1, ![4]⟩
abbrev S4x1x1x1 : Shape := ⟨4, ![4, 1, 1, 1]⟩
abbrev S4x64x32768 : Shape := ⟨3, ![4, 64, 32768]⟩
abbrev S1x64x1x1 : Shape := ⟨4, ![1, 64, 1, 1]⟩
abbrev S4x64x1x1 : Shape := ⟨4, ![4, 64, 1, 1]⟩
abbrev S4x96x32x32x32 : Shape := ⟨5, ![4, 96, 32, 32, 32]⟩
abbrev S4x32x3x32768 : Shape := ⟨4, ![4, 32, 3, 32768]⟩
abbrev S4x32x32768 : Shape := ⟨3, ![4, 32, 32768]⟩
abbrev S4x1048576 : Shape := ⟨2, ![4, 1048576]⟩
abbrev S32 : Shape := ⟨1, ![32]⟩
abbrev S1x32x1x1 : Shape := ⟨4, ![1, 32, 1, 1]⟩
abbrev S4x32x1x1 : Shape := ⟨4, ![4, 32, 1, 1]⟩
abbrev S4x80x32x32x32 : Shape := ⟨5, ![4, 80, 32, 32, 32]⟩
abbrev S4x16x5x32768 : Shape := ⟨4, ![4, 16, 5, 32768]⟩
abbrev S4x16x32768 : Shape := ⟨3, ![4, 16, 32768]⟩
abbrev S4x524288 : Shape := ⟨2, ![4, 524288]⟩
abbrev S16 : Shape := ⟨1, ![16]⟩
abbrev S1x16x1x1 : Shape := ⟨4, ![1, 16, 1, 1]⟩
abbrev S4x16x1x1 : Shape := ⟨4, ![4, 16, 1, 1]⟩
abbrev S4x56x32x32x32 : Shape := ⟨5, ![4, 56, 32, 32, 32]⟩
abbrev S4x8x7x32768 : Shape := ⟨4, ![4, 8, 7, 32768]⟩
abbrev S4x8x32768 : Shape := ⟨3, ![4, 8, 32768]⟩
abbrev S4x262144 : Shape := ⟨2, ![4, 262144]⟩
abbrev S8 : Shape := ⟨1, ![8]⟩
abbrev S1x8x1x1 : Shape := ⟨4, ![1, 8, 1, 1]⟩
abbrev S4x8x1x1 : Shape := ⟨4, ![4, 8, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S4x296x32x32x32, .f32⟩
  | .hbm, ⟨1, _⟩ => ⟨S120, .f32⟩
  | .hbm, ⟨2, _⟩ => ⟨S64, .f32⟩
  | .hbm, ⟨3, _⟩ => ⟨S4x64x32x32x32, .f32⟩
  | .hbm, ⟨4, _⟩ => ⟨S4x64x1x32768, .f32⟩
  | .hbm, ⟨5, _⟩ => ⟨S4x2097152, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4x1x1x1, .f32⟩
  | .hbm, ⟨12, _⟩ => ⟨S4x64x1x32768, .f32⟩
  | .hbm, ⟨13, _⟩ => ⟨S4x64x1x32768, .f32⟩
  | .hbm, ⟨14, _⟩ => ⟨S4x64x1x32768, .f32⟩
  | .hbm, ⟨15, _⟩ => ⟨S_, .f32⟩
  | .hbm, ⟨16, _⟩ => ⟨S4x64x32768, .f32⟩
  | .hbm, ⟨17, _⟩ => ⟨S4x2097152, .f32⟩
  | .hbm, ⟨18, _⟩ => ⟨S_, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4x1x1x1, .f32⟩
  | .hbm, ⟨30, _⟩ => ⟨S64, .f32⟩
  | .hbm, ⟨31, _⟩ => ⟨S1x64x1x1, .f32⟩
  | .hbm, ⟨32, _⟩ => ⟨S4x64x1x1, .f32⟩
  | .hbm, ⟨33, _⟩ => ⟨S4x64x1x1, .f32⟩
  | .hbm, ⟨34, _⟩ => ⟨S4x64x1x1, .f32⟩
  | .hbm, ⟨35, _⟩ => ⟨S4x64x1x32768, .f32⟩
  | .hbm, ⟨36, _⟩ => ⟨S4x64x1x32768, .f32⟩
  | .hbm, ⟨37, _⟩ => ⟨S1x64x1x1, .f32⟩
  | .hbm, ⟨38, _⟩ => ⟨S4x64x1x32768, .f32⟩
  | .hbm, ⟨39, _⟩ => ⟨S4x64x1x32768, .f32⟩
  | .hbm, ⟨40, _⟩ => ⟨S4x64x32x32x32, .f32⟩
  | .hbm, ⟨41, _⟩ => ⟨S4x96x32x32x32, .f32⟩
  | .hbm, ⟨42, _⟩ => ⟨S4x32x3x32768, .f32⟩
  | .hbm, ⟨43, _⟩ => ⟨S4x32x3x32768, .f32⟩
  | .hbm, ⟨44, _⟩ => ⟨S_, .f32⟩
  | .hbm, ⟨45, _⟩ => ⟨S4x32x32768, .f32⟩
  | .hbm, ⟨46, _⟩ => ⟨S4x1048576, .f32⟩
  | .hbm, ⟨47, _⟩ => ⟨S_, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4x1x1x1, .f32⟩
  | .hbm, ⟨59, _⟩ => ⟨S32, .f32⟩
  | .hbm, ⟨60, _⟩ => ⟨S1x32x1x1, .f32⟩
  | .hbm, ⟨61, _⟩ => ⟨S4x32x1x1, .f32⟩
  | .hbm, ⟨62, _⟩ => ⟨S4x32x1x1, .f32⟩
  | .hbm, ⟨63, _⟩ => ⟨S4x32x1x1, .f32⟩
  | .hbm, ⟨64, _⟩ => ⟨S4x32x3x32768, .f32⟩
  | .hbm, ⟨65, _⟩ => ⟨S4x32x3x32768, .f32⟩
  | .hbm, ⟨66, _⟩ => ⟨S4x96x32x32x32, .f32⟩
  | .hbm, ⟨67, _⟩ => ⟨S4x80x32x32x32, .f32⟩
  | .hbm, ⟨68, _⟩ => ⟨S4x16x5x32768, .f32⟩
  | .hbm, ⟨69, _⟩ => ⟨S4x16x5x32768, .f32⟩
  | .hbm, ⟨70, _⟩ => ⟨S_, .f32⟩
  | .hbm, ⟨71, _⟩ => ⟨S4x16x32768, .f32⟩
  | .hbm, ⟨72, _⟩ => ⟨S4x524288, .f32⟩
  | .hbm, ⟨73, _⟩ => ⟨S_, .f32⟩
  | .hbm, ⟨74, _⟩ => ⟨S4, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S_, .f32⟩
  | .hbm, ⟨82, _⟩ => ⟨S4, .f32⟩
  | .hbm, ⟨83, _⟩ => ⟨S4, .f32⟩
  | .hbm, ⟨84, _⟩ => ⟨S4x1x1x1, .f32⟩
  | .hbm, ⟨85, _⟩ => ⟨S16, .f32⟩
  | .hbm, ⟨86, _⟩ => ⟨S1x16x1x1, .f32⟩
  | .hbm, ⟨87, _⟩ => ⟨S4x16x1x1, .f32⟩
  | .hbm, ⟨88, _⟩ => ⟨S4x16x1x1, .f32⟩
  | .hbm, ⟨89, _⟩ => ⟨S4x16x1x1, .f32⟩
  | .hbm, ⟨90, _⟩ => ⟨S4x16x5x32768, .f32⟩
  | .hbm, ⟨91, _⟩ => ⟨S4x16x5x32768, .f32⟩
  | .hbm, ⟨92, _⟩ => ⟨S4x80x32x32x32, .f32⟩
  | .hbm, ⟨93, _⟩ => ⟨S4x56x32x32x32, .f32⟩
  | .hbm, ⟨94, _⟩ => ⟨S4x8x7x32768, .f32⟩
  | .hbm, ⟨95, _⟩ => ⟨S4x8x7x32768, .f32⟩
  | .hbm, ⟨96, _⟩ => ⟨S_, .f32⟩
  | .hbm, ⟨97, _⟩ => ⟨S4x8x32768, .f32⟩
  | .hbm, ⟨98, _⟩ => ⟨S4x262144, .f32⟩
  | .hbm, ⟨99, _⟩ => ⟨S_, .f32⟩
  | .hbm, ⟨100, _⟩ => ⟨S4, .f32⟩
  | .hbm, ⟨101, _⟩ => ⟨S_, .f32⟩
  | .hbm, ⟨102, _⟩ => ⟨S4, .f32⟩
  | .hbm, ⟨103, _⟩ => ⟨S4, .f32⟩
  | .hbm, ⟨104, _⟩ => ⟨S_, .f32⟩
  | .hbm, ⟨105, _⟩ => ⟨S4, .f32⟩
  | .hbm, ⟨106, _⟩ => ⟨S4, .f32⟩
  | .hbm, ⟨107, _⟩ => ⟨S_, .f32⟩
  | .hbm, ⟨108, _⟩ => ⟨S4, .f32⟩
  | .hbm, ⟨109, _⟩ => ⟨S4, .f32⟩
  | .hbm, ⟨110, _⟩ => ⟨S4x1x1x1, .f32⟩
  | .hbm, ⟨111, _⟩ => ⟨S8, .f32⟩
  | .hbm, ⟨112, _⟩ => ⟨S1x8x1x1, .f32⟩
  | .hbm, ⟨113, _⟩ => ⟨S4x8x1x1, .f32⟩
  | .hbm, ⟨114, _⟩ => ⟨S4x8x1x1, .f32⟩
  | .hbm, ⟨115, _⟩ => ⟨S4x8x1x1, .f32⟩
  | .hbm, ⟨116, _⟩ => ⟨S4x8x7x32768, .f32⟩
  | .hbm, ⟨117, _⟩ => ⟨S4x8x7x32768, .f32⟩
  | .hbm, ⟨118, _⟩ => ⟨S4x56x32x32x32, .f32⟩
  | .hbm, ⟨119, _⟩ => ⟨S4x296x32x32x32, .f32⟩
  | _, _ => ⟨S4x296x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_cst_14 : Ref sig .tc := ⟨.hbm, 78, rfl⟩
abbrev main_v60 : Ref sig .tc := ⟨.hbm, 79, rfl⟩
abbrev main_v61 : Ref sig .tc := ⟨.hbm, 80, rfl⟩
abbrev main_cst_15 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_16 : Ref sig .tc := ⟨.hbm, 96, rfl⟩
abbrev main_v76 : Ref sig .tc := ⟨.hbm, 97, rfl⟩
abbrev main_v77 : Ref sig .tc := ⟨.hbm, 98, rfl⟩
abbrev main_cst_17 : Ref sig .tc := ⟨.hbm, 99, rfl⟩
abbrev main_v78 : Ref sig .tc := ⟨.hbm, 100, rfl⟩
abbrev main_cst_18 : Ref sig .tc := ⟨.hbm, 101, rfl⟩
abbrev main_v79 : Ref sig .tc := ⟨.hbm, 102, rfl⟩
abbrev main_v80 : Ref sig .tc := ⟨.hbm, 103, rfl⟩
abbrev main_cst_19 : Ref sig .tc := ⟨.hbm, 104, rfl⟩
abbrev main_v81 : Ref sig .tc := ⟨.hbm, 105, rfl⟩
abbrev main_v82 : Ref sig .tc := ⟨.hbm, 106, rfl⟩
abbrev main_cst_20 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]

class Facts₀ : Prop where
  slices_S4x296x32x32x32_S4x64x32x32x32_0_0_0_0_0 : S4x296x32x32x32.Slices ![0, 0, 0, 0, 0] S4x64x32x32x32
  shapeCasts_S4x64x32x32x32_S4x64x1x32768 : S4x64x32x32x32.ShapeCasts S4x64x1x32768
  shapeCasts_S4x64x1x32768_S4x2097152 : S4x64x1x32768.ShapeCasts S4x2097152
  reducesTo_S4x2097152_S4_d1 : S4x2097152.ReducesTo [1] S4
  h_S_ : 0 < S_.numel
  bcast_S_S4 : S_.BroadcastsInDim S4 (![] : Fin 0 → Fin S4.rank)
  bcast_S4_S4x1x1x1_0 : S4.BroadcastsInDim S4x1x1x1 (![0] : Fin 1 → Fin S4x1x1x1.rank)
  bcast_S4x1x1x1_S4x64x1x32768_0_1_2_3 : S4x1x1x1.BroadcastsInDim S4x64x1x32768 (![0, 1, 2, 3] : Fin 4 → Fin S4x64x1x32768.rank)
  reducesTo_S4x64x1x32768_S4x64x32768_d2 : S4x64x1x32768.ReducesTo [2] S4x64x32768
  shapeCasts_S4x64x32768_S4x2097152 : S4x64x32768.ShapeCasts S4x2097152
  slices_S120_S64_0 : S120.Slices ![0] S64
  bcast_S64_S1x64x1x1_1 : S64.BroadcastsInDim S1x64x1x1 (![1] : Fin 1 → Fin S1x64x1x1.rank)
  bcast_S4x1x1x1_S4x64x1x1_0_1_2_3 : S4x1x1x1.BroadcastsInDim S4x64x1x1 (![0, 1, 2, 3] : Fin 4 → Fin S4x64x1x1.rank)
  bcast_S1x64x1x1_S4x64x1x1_0_1_2_3 : S1x64x1x1.BroadcastsInDim S4x64x1x1 (![0, 1, 2, 3] : Fin 4 → Fin S4x64x1x1.rank)
  bcast_S4x64x1x1_S4x64x1x32768_0_1_2_3 : S4x64x1x1.BroadcastsInDim S4x64x1x32768 (![0, 1, 2, 3] : Fin 4 → Fin S4x64x1x32768.rank)
  bcast_S1x64x1x1_S4x64x1x32768_0_1_2_3 : S1x64x1x1.BroadcastsInDim S4x64x1x32768 (![0, 1, 2, 3] : Fin 4 → Fin S4x64x1x32768.rank)
  shapeCasts_S4x64x1x32768_S4x64x32x32x32 : S4x64x1x32768.ShapeCasts S4x64x32x32x32
  slices_S4x296x32x32x32_S4x96x32x32x32_0_64_0_0_0 : S4x296x32x32x32.Slices ![0, 64, 0, 0, 0] S4x96x32x32x32
  shapeCasts_S4x96x32x32x32_S4x32x3x32768 : S4x96x32x32x32.ShapeCasts S4x32x3x32768
  reducesTo_S4x32x3x32768_S4x32x32768_d2 : S4x32x3x32768.ReducesTo [2] S4x32x32768
  shapeCasts_S4x32x32768_S4x1048576 : S4x32x32768.ShapeCasts S4x1048576
  reducesTo_S4x1048576_S4_d1 : S4x1048576.ReducesTo [1] S4
  slices_S120_S32_64 : S120.Slices ![64] S32
  bcast_S32_S1x32x1x1_1 : S32.BroadcastsInDim S1x32x1x1 (![1] : Fin 1 → Fin S1x32x1x1.rank)
  bcast_S4x1x1x1_S4x32x1x1_0_1_2_3 : S4x1x1x1.BroadcastsInDim S4x32x1x1 (![0, 1, 2, 3] : Fin 4 → Fin S4x32x1x1.rank)
  bcast_S1x32x1x1_S4x32x1x1_0_1_2_3 : S1x32x1x1.BroadcastsInDim S4x32x1x1 (![0, 1, 2, 3] : Fin 4 → Fin S4x32x1x1.rank)
  bcast_S4x32x1x1_S4x32x3x32768_0_1_2_3 : S4x32x1x1.BroadcastsInDim S4x32x3x32768 (![0, 1, 2, 3] : Fin 4 → Fin S4x32x3x32768.rank)
  shapeCasts_S4x32x3x32768_S4x96x32x32x32 : S4x32x3x32768.ShapeCasts S4x96x32x32x32
  slices_S4x296x32x32x32_S4x80x32x32x32_0_160_0_0_0 : S4x296x32x32x32.Slices ![0, 160, 0, 0, 0] S4x80x32x32x32
  shapeCasts_S4x80x32x32x32_S4x16x5x32768 : S4x80x32x32x32.ShapeCasts S4x16x5x32768
  reducesTo_S4x16x5x32768_S4x16x32768_d2 : S4x16x5x32768.ReducesTo [2] S4x16x32768
  shapeCasts_S4x16x32768_S4x524288 : S4x16x32768.ShapeCasts S4x524288
  reducesTo_S4x524288_S4_d1 : S4x524288.ReducesTo [1] S4
  slices_S120_S16_96 : S120.Slices ![96] S16
  bcast_S16_S1x16x1x1_1 : S16.BroadcastsInDim S1x16x1x1 (![1] : Fin 1 → Fin S1x16x1x1.rank)
  bcast_S4x1x1x1_S4x16x1x1_0_1_2_3 : S4x1x1x1.BroadcastsInDim S4x16x1x1 (![0, 1, 2, 3] : Fin 4 → Fin S4x16x1x1.rank)
  bcast_S1x16x1x1_S4x16x1x1_0_1_2_3 : S1x16x1x1.BroadcastsInDim S4x16x1x1 (![0, 1, 2, 3] : Fin 4 → Fin S4x16x1x1.rank)
  bcast_S4x16x1x1_S4x16x5x32768_0_1_2_3 : S4x16x1x1.BroadcastsInDim S4x16x5x32768 (![0, 1, 2, 3] : Fin 4 → Fin S4x16x5x32768.rank)
  shapeCasts_S4x16x5x32768_S4x80x32x32x32 : S4x16x5x32768.ShapeCasts S4x80x32x32x32
  slices_S4x296x32x32x32_S4x56x32x32x32_0_240_0_0_0 : S4x296x32x32x32.Slices ![0, 240, 0, 0, 0] S4x56x32x32x32
  shapeCasts_S4x56x32x32x32_S4x8x7x32768 : S4x56x32x32x32.ShapeCasts S4x8x7x32768
  reducesTo_S4x8x7x32768_S4x8x32768_d2 : S4x8x7x32768.ReducesTo [2] S4x8x32768
  shapeCasts_S4x8x32768_S4x262144 : S4x8x32768.ShapeCasts S4x262144
  reducesTo_S4x262144_S4_d1 : S4x262144.ReducesTo [1] S4
  slices_S120_S8_112 : S120.Slices ![112] S8
  bcast_S8_S1x8x1x1_1 : S8.BroadcastsInDim S1x8x1x1 (![1] : Fin 1 → Fin S1x8x1x1.rank)
  bcast_S4x1x1x1_S4x8x1x1_0_1_2_3 : S4x1x1x1.BroadcastsInDim S4x8x1x1 (![0, 1, 2, 3] : Fin 4 → Fin S4x8x1x1.rank)
  bcast_S1x8x1x1_S4x8x1x1_0_1_2_3 : S1x8x1x1.BroadcastsInDim S4x8x1x1 (![0, 1, 2, 3] : Fin 4 → Fin S4x8x1x1.rank)
  bcast_S4x8x1x1_S4x8x7x32768_0_1_2_3 : S4x8x1x1.BroadcastsInDim S4x8x7x32768 (![0, 1, 2, 3] : Fin 4 → Fin S4x8x7x32768.rank)
  shapeCasts_S4x8x7x32768_S4x56x32x32x32 : S4x8x7x32768.ShapeCasts S4x56x32x32x32
  concatenates_S4x64x32x32x32_S4x96x32x32x32_S4x80x32x32x32_S4x56x32x32x32_S4x296x32x32x32_d1 : Shape.Concatenates [S4x64x32x32x32, S4x96x32x32x32, S4x80x32x32x32, S4x56x32x32x32] S4x296x32x32x32 1

variable [Facts₀]

class Facts : Prop extends Facts₀ where

variable [Facts]
-- ==== Proof.RefFrame.lean ====
/-
  The reference program is a straight line of host operations with no kernel launch. Its run from any memory
  terminates with every result at the composed term of the argument arrays and the arguments untouched; the
  frame claim keeps only the second half of that statement.
-/
import proofs.«181770_j18743237280237_1_alg».proof.Defs
import proofs.«181770_j18743237280237_1_alg».proof.Proof.Gen.ReferenceIdeal
import proofs.«181770_j18743237280237_1_alg».proof.Proof.Gen.Pre_finite_inputs
import proofs.«181770_j18743237280237_1_alg».proof.Proof.Gen.ReferenceIdeal.Run
import proofs.«181770_j18743237280237_1_alg».proof.Proof.Gen.ReferenceIdeal.Read

noncomputable section

namespace Cert.Proof.RefFrame

open Idealize.ShloMosaic Idealize.SL.Sem

/-- The reference runs to the end from any memory and leaves its three argument arrays as it found them. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.NormBodyBits.lean ====
/-
  The second kernel region: the pointwise normalisation. At every grid point its body loads a [4,296,1024] block
  of the flattened input and three [4,296,1] columns (the per-channel centre, scale and shift), and stores
  (x - centre) * scale + shift over the whole output block. Nothing is kept between points, so the region's proof
  data are the plain ones: each input buffer holds its block of the array as the region finds it, the output
  buffer holds the one stored piece, and the invariant is the scoped rest and the generator register, untouched.
  Everything is stated at a parameter V, the buffer contents when the region is entered, and at any float instance.
-/
import proofs.«181770_j18743237280237_1_alg».proof.Proof.Gen.Kernel.Launch
import proofs.«181770_j18743237280237_1_alg».proof.Proof.Gen.Kernel.Skeleton
import proofs.«181770_j18743237280237_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetched it or not: an
    unfetched point has the same block index as the one before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole big block, the whole column -/

abbrev rBig : Rect S4x296x1024 := Rect.unit (s := S4x296x1024) ![0, 0, 0] S4x296x1024.size inb_S4x296x1024_S4x296x1024_0_0_0
abbrev rCol : Rect S4x296x1 := Rect.unit (s := S4x296x1) ![0, 0, 0] S4x296x1.size inb_S4x296x1_S4x296x1_0_0_0

/-- What the body leaves in the output buffer: its one store, of (x - centre) * scale + shift of the four loads. -/
def out1_4 (x0 : Vec F S4x296x1024 .f32) (x1 x2 x3 : Vec F S4x296x1 .f32) : Vec F S4x296x1024 .f32 :=
  View.canon [⟨rBig, k1_pay1 (View.ld x0 rBig) (View.ld x1 rCol) (View.ld x2 rCol) (View.ld x3 rCol)⟩]

/-- The one store covers the buffer. -/
theorem cover1_4 (p0 : Vec F S4x296x1024 .f32) (y : S4x296x1024.Idx) :
    ∃ pc ∈ ([⟨rBig, p0⟩] : List (View.Piece (Elt F) S4x296x1024 .f32)), y ∈ pc.1.set :=
  View.cover_of_tiled [⟨rBig, p0⟩] S4x296x1024.size (by rfl) y

/-! ## The body's triple -/

set_option maxHeartbeats 1000000 in
/-- The body on whole buffers, the four inputs' at known contents and the output's at anything, runs to the end
    leaving the inputs as they were and the output at the stored piece. -/
theorem sound_kernel1 (c : Dev nD) (E : Set ℕ) (i : grid1.Coords)
    (arg0 : Memref sig .tc .vmem S4x296x1024 .f32) (harg0 : arg0.IsWhole) (arg1 : Memref sig .tc .vmem S4x296x1 .f32) (harg1 : arg1.IsWhole)
    (arg2 : Memref sig .tc .vmem S4x296x1 .f32) (harg2 : arg2.IsWhole) (arg3 : Memref sig .tc .vmem S4x296x1 .f32) (harg3 : arg3.IsWhole)
    (arg4 : Memref sig .tc .vmem S4x296x1024 .f32) (harg4 : arg4.IsWhole)
    (x0 : Vec F S4x296x1024 .f32) (x1 x2 x3 : Vec F S4x296x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1_norm_kernel i arg0 harg0 arg1 harg1 arg2 harg2 arg3 harg3 arg4 harg4) K := by
  simp only [cc1_norm_kernel_eq_skeleton]; unfold cc1_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- The proof data of the second pipeline on core c: the arrays as the region finds them; after the body at a
    point each input's buffer at its block and the output's at the stored piece of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.StatsSharedBits.lean ====
/-
  The first kernel region: the statistics pass. Over a grid of 32 points it walks the flattened input in blocks of
  1024 positions; two 4x4 scratch buffers accumulate, per batch row and per channel group, the sum and the sum of
  squares of the block; they are zeroed at the first point and, at the last point, turned into the group mean and
  the reciprocal root of the variance plus epsilon, which are stored into the two 4x4 outputs. This module holds
  what the three runs of the body (first point, middle points, last point) are stated over: the two branch
  conditions decided over the grid, where the two outputs are idle, the names of the buffers, and the region's
  resting invariant spelt out buffer by buffer.
-/
import proofs.«181770_j18743237280237_1_alg».proof.Proof.Gen.Kernel.Launch
import proofs.«181770_j18743237280237_1_alg».proof.Proof.Gen.Kernel.Skeleton
import proofs.«181770_j18743237280237_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first point": the scalar chain of the first conditional, over the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last point": the second conditional's condition. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The buffers' names -/

/-- One staging buffer of each output window, through which its contents are stated. -/
abbrev VO0_1 : View sig .tc .vmem S4x4 .f32 := (Memref.whole cc0_stg1_0 : Memref sig .tc .vmem S4x4 .f32).view
abbrev VO0_2 : View sig .tc .vmem S4x4 .f32 := (Memref.whole cc0_stg2_0 : Memref sig .tc .vmem S4x4 .f32).view
/-- Each window's current staging memref at point t, as the pipeline passes it, and its wholeness. -/
abbrev ms0_0 (t : Fin cfg0.N) : Memref sig .tc .vmem S4x296x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S4x4 .f32 := Memref.whole cc0_scratch0
abbrev scM0_1 : Memref sig .tc .vmem S4x4 .f32 := Memref.whole cc0_scratch1
abbrev VS0_0 : View sig .tc .vmem S4x4 .f32 := scM0_0.view
abbrev VS0_1 : View sig .tc .vmem S4x4 .f32 := scM0_1.view

/-- The scoped buffers of the core that this region never touches (the other region's staging buffers), each whole
    at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region's resting invariant, buffer by buffer: the two accumulators owned at some contents, the untouched
    rest, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.Kernel.Hand

end
-- ==== Proof.StatsRunABits.lean ====
/-
  The statistics body at the FIRST grid point: both accumulators are zeroed whole and then receive the first
  block's four pairs of group sums, column by column; the two outputs are not touched. The pieces each accumulator
  ends with are found by running the body.
-/
import proofs.«181770_j18743237280237_1_alg».proof.Proof.StatsSharedBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S4x296x1024 .f32) (harg1 : arg1.IsWhole) (arg2 : Memref sig .tc .vmem S4x4 .f32) (harg2 : arg2.IsWhole) (arg3 : Memref sig .tc .vmem S4x4 .f32) (harg3 : arg3.IsWhole) (arg4 : Memref sig .tc .vmem S4x4 .f32) (harg4 : arg4.IsWhole) (arg5 : Memref sig .tc .vmem S4x4 .f32) (harg5 : arg5.IsWhole) (hc0 : cond0_0 i) (hc1 : ¬cond0_1 i)
    (x0 : Vec F S4x296x1024 .f32) :
    Σ' (L1 : List (View.Piece (Elt F) S4x4 .f32)) (L2 : List (View.Piece (Elt F) S4x4 .f32)) (LS0 : List (View.Piece (Elt F) S4x4 .f32)), { LS1 : List (View.Piece (Elt F) S4x4 .f32) //
      ∀ (xi1 xi2 : Vec F S4x4 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_stats_kernel i arg1 harg1 arg2 harg2 arg3 harg3 arg4 harg4 arg5 harg5) K } := by
  refine ⟨[], [], ?_, ?_, fun xi1 xi2 E K => ?run⟩
  case run =>
    simp only [cc0_stats_kernel_eq_skeleton]; unfold cc0_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.StatsRunBBits.lean ====
/-
  The statistics body at a MIDDLE grid point: each accumulator column is read, the block's group sum added, and
  stored back; the two outputs are not touched.
-/
import proofs.«181770_j18743237280237_1_alg».proof.Proof.StatsRunABits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S4x296x1024 .f32) (harg1 : arg1.IsWhole) (arg2 : Memref sig .tc .vmem S4x4 .f32) (harg2 : arg2.IsWhole) (arg3 : Memref sig .tc .vmem S4x4 .f32) (harg3 : arg3.IsWhole) (arg4 : Memref sig .tc .vmem S4x4 .f32) (harg4 : arg4.IsWhole) (arg5 : Memref sig .tc .vmem S4x4 .f32) (harg5 : arg5.IsWhole) (hc0 : ¬cond0_0 i) (hc1 : ¬cond0_1 i)
    (x0 : Vec F S4x296x1024 .f32) (xs0 xs1 : Vec F S4x4 .f32) :
    Σ' (L1 : List (View.Piece (Elt F) S4x4 .f32)) (L2 : List (View.Piece (Elt F) S4x4 .f32)) (LS0 : List (View.Piece (Elt F) S4x4 .f32)), { LS1 : List (View.Piece (Elt F) S4x4 .f32) //
      ∀ (xi1 xi2 : Vec F S4x4 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_stats_kernel i arg1 harg1 arg2 harg2 arg3 harg3 arg4 harg4 arg5 harg5) K } := by
  refine ⟨[], [], ?_, ?_, fun xi1 xi2 E K => ?run⟩
  case run =>
    simp only [cc0_stats_kernel_eq_skeleton]; unfold cc0_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.StatsRunCBits.lean ====
/-
  The statistics body at the LAST grid point: the accumulators take the last block's sums, and then each group's
  mean and reciprocal root are computed from them and stored into the two outputs, column by column.
-/
import proofs.«181770_j18743237280237_1_alg».proof.Proof.StatsRunBBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S4x296x1024 .f32) (harg1 : arg1.IsWhole) (arg2 : Memref sig .tc .vmem S4x4 .f32) (harg2 : arg2.IsWhole) (arg3 : Memref sig .tc .vmem S4x4 .f32) (harg3 : arg3.IsWhole) (arg4 : Memref sig .tc .vmem S4x4 .f32) (harg4 : arg4.IsWhole) (arg5 : Memref sig .tc .vmem S4x4 .f32) (harg5 : arg5.IsWhole) (hc0 : ¬cond0_0 i) (hc1 : cond0_1 i)
    (x0 : Vec F S4x296x1024 .f32) (xs0 xs1 : Vec F S4x4 .f32) :
    Σ' (L1 : List (View.Piece (Elt F) S4x4 .f32)) (L2 : List (View.Piece (Elt F) S4x4 .f32)) (LS0 : List (View.Piece (Elt F) S4x4 .f32)), { LS1 : List (View.Piece (Elt F) S4x4 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_stats_kernel i arg1 harg1 arg2 harg2 arg3 harg3 arg4 harg4 arg5 harg5) K } := by
  refine ⟨?_, ?_, ?_, ?_, fun E K => ?run⟩
  case run =>
    simp only [cc0_stats_kernel_eq_skeleton]; unfold cc0_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.StatsBodyBits.lean ====
/-
  The statistics region's proof data. What the two outputs and the two accumulators hold after each grid point is a
  recursion on the point: the first point's run starts the accumulators from anything, every later point's run
  starts them from what the point before left. The region's invariant carries the two accumulators at exactly these
  contents from one point to the next (and leaves every other scoped buffer and the generator register alone), and
  the body obligation at a point is that point's run: first, middle or last, by the two decided conditions.
-/
import proofs.«181770_j18743237280237_1_alg».proof.Proof.StatsRunCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ### The first point -/

/-- The body's run at point t, on the buffers the pipeline passes there. -/
abbrev runA (c : Dev nD) (t : Fin cfg0.N) (hc0 : cond0_0 (grid0.coords t)) (hc1 : ¬cond0_1 (grid0.coords t)) (x0 : Vec F S4x296x1024 .f32) := kernelRun0_A (F := F) c (grid0.coords t) (ms0_0 t) (hs0_0 t) (ms0_1 t) (hs0_1 t) (ms0_2 t) (hs0_2 t) scM0_0 (Memref.isWhole_whole _) scM0_1 (Memref.isWhole_whole _) hc0 hc1 x0

/-- What the run leaves in the two outputs and the two accumulators: the pieces it found, read back. (The outputs are idle here: no piece, a placeholder nothing consults.) -/
def out0_A_1 (c : Dev nD) (t : Fin cfg0.N) (hc0 : cond0_0 (grid0.coords t)) (hc1 : ¬cond0_1 (grid0.coords t)) (x0 : Vec F S4x296x1024 .f32) : Vec F S4x4 .f32 := VO0_1.read (Elt F) (VO0_1.writes (Elt F) VO0_1.junk (runA c t hc0 hc1 x0).1)
def out0_A_2 (c : Dev nD) (t : Fin cfg0.N) (hc0 : cond0_0 (grid0.coords t)) (hc1 : ¬cond0_1 (grid0.coords t)) (x0 : Vec F S4x296x1024 .f32) : Vec F S4x4 .f32 := VO0_2.read (Elt F) (VO0_2.writes (Elt F) VO0_2.junk (runA c t hc0 hc1 x0).2.1)
def sout0_A_0 (c : Dev nD) (t : Fin cfg0.N) (hc0 : cond0_0 (grid0.coords t)) (hc1 : ¬cond0_1 (grid0.coords t)) (x0 : Vec F S4x296x1024 .f32) : Vec F S4x4 .f32 := VS0_0.read (Elt F) (VS0_0.writes (Elt F) VS0_0.junk (runA c t hc0 hc1 x0).2.2.1)
def sout0_A_1 (c : Dev nD) (t : Fin cfg0.N) (hc0 : cond0_0 (grid0.coords t)) (hc1 : ¬cond0_1 (grid0.coords t)) (x0 : Vec F S4x296x1024 .f32) : Vec F S4x4 .f32 := VS0_1.read (Elt F) (VS0_1.writes (Elt F) VS0_1.junk (runA c t hc0 hc1 x0).2.2.2.1)

/-- The accumulators' pieces cover them: the four column stores tile the 4x4 buffer. -/
theorem scover0_A_0 (c : Dev nD) (t : Fin cfg0.N) (hc0 : cond0_0 (grid0.coords t)) (hc1 : ¬cond0_1 (grid0.coords t)) (x0 : Vec F S4x296x1024 .f32) (y : S4x4.Idx) : ∃ pc ∈ (runA c t hc0 hc1 x0).2.2.1, y ∈ pc.1.set :=
  View.cover_of_tiledL (runA c t hc0 hc1 x0).2.2.1 S4x1.size (by sl_kernel_rfl) y
theorem scover0_A_1 (c : Dev nD) (t : Fin cfg0.N) (hc0 : cond0_0 (grid0.coords t)) (hc1 : ¬cond0_1 (grid0.coords t)) (x0 : Vec F S4x296x1024 .f32) (y : S4x4.Idx) : ∃ pc ∈ (runA c t hc0 hc1 x0).2.2.2.1, y ∈ pc.1.set :=
  View.cover_of_tiledL (runA c t hc0 hc1 x0).2.2.2.1 S4x1.size (by sl_kernel_rfl) y

/-! ### A middle point -/

/-- The body's run at point t, on the buffers the pipeline passes there. -/
abbrev runB (c : Dev nD) (t : Fin cfg0.N) (hc0 : ¬cond0_0 (grid0.coords t)) (hc1 : ¬cond0_1 (grid0.coords t)) (x0 : Vec F S4x296x1024 .f32) (xs0 xs1 : Vec F S4x4 .f32) := kernelRun0_B (F := F) c (grid0.coords t) (ms0_0 t) (hs0_0 t) (ms0_1 t) (hs0_1 t) (ms0_2 t) (hs0_2 t) scM0_0 (Memref.isWhole_whole _) scM0_1 (Memref.isWhole_whole _) hc0 hc1 x0 xs0 xs1

/-- What the run leaves in the two outputs and the two accumulators: the pieces it found, read back. (The outputs are idle here: no piece, a placeholder nothing consults.) -/
def out0_B_1 (c : Dev nD) (t : Fin cfg0.N) (hc0 : ¬cond0_0 (grid0.coords t)) (hc1 : ¬cond0_1 (grid0.coords t)) (x0 : Vec F S4x296x1024 .f32) (xs0 xs1 : Vec F S4x4 .f32) : Vec F S4x4 .f32 := VO0_1.read (Elt F) (VO0_1.writes (Elt F) VO0_1.junk (runB c t hc0 hc1 x0 xs0 xs1).1)
def out0_B_2 (c : Dev nD) (t : Fin cfg0.N) (hc0 : ¬cond0_0 (grid0.coords t)) (hc1 : ¬cond0_1 (grid0.coords t)) (x0 : Vec F S4x296x1024 .f32) (xs0 xs1 : Vec F S4x4 .f32) : Vec F S4x4 .f32 := VO0_2.read (Elt F) (VO0_2.writes (Elt F) VO0_2.junk (runB c t hc0 hc1 x0 xs0 xs1).2.1)
def sout0_B_0 (c : Dev nD) (t : Fin cfg0.N) (hc0 : ¬cond0_0 (grid0.coords t)) (hc1 : ¬cond0_1 (grid0.coords t)) (x0 : Vec F S4x296x1024 .f32) (xs0 xs1 : Vec F S4x4 .f32) : Vec F S4x4 .f32 := VS0_0.read (Elt F) (VS0_0.writes (Elt F) VS0_0.junk (runB c t hc0 hc1 x0 xs0 xs1).2.2.1)
def sout0_B_1 (c : Dev nD) (t : Fin cfg0.N) (hc0 : ¬cond0_0 (grid0.coords t)) (hc1 : ¬cond0_1 (grid0.coords t)) (x0 : Vec F S4x296x1024 .f32) (xs0 xs1 : Vec F S4x4 .f32) : Vec F S4x4 .f32 := VS0_1.read (Elt F) (VS0_1.writes (Elt F) VS0_1.junk (runB c t hc0 hc1 x0 xs0 xs1).2.2.2.1)

/-- The accumulators' pieces cover them: the four column stores tile the 4x4 buffer. -/
theorem scover0_B_0 (c : Dev nD) (t : Fin cfg0.N) (hc0 : ¬cond0_0 (grid0.coords t)) (hc1 : ¬cond0_1 (grid0.coords t)) (x0 : Vec F S4x296x1024 .f32) (xs0 xs1 : Vec F S4x4 .f32) (y : S4x4.Idx) : ∃ pc ∈ (runB c t hc0 hc1 x0 xs0 xs1).2.2.1, y ∈ pc.1.set :=
  View.cover_of_tiledL (runB c t hc0 hc1 x0 xs0 xs1).2.2.1 S4x1.size (by sl_kernel_rfl) y
theorem scover0_B_1 (c : Dev nD) (t : Fin cfg0.N) (hc0 : ¬cond0_0 (grid0.coords t)) (hc1 : ¬cond0_1 (grid0.coords t)) (x0 : Vec F S4x296x1024 .f32) (xs0 xs1 : Vec F S4x4 .f32) (y : S4x4.Idx) : ∃ pc ∈ (runB c t hc0 hc1 x0 xs0 xs1).2.2.2.1, y ∈ pc.1.set :=
  View.cover_of_tiledL (runB c t hc0 hc1 x0 xs0 xs1).2.2.2.1 S4x1.size (by sl_kernel_rfl) y

/-! ### The last point -/

/-- The body's run at point t, on the buffers the pipeline passes there. -/
abbrev runC (c : Dev nD) (t : Fin cfg0.N) (hc0 : ¬cond0_0 (grid0.coords t)) (hc1 : cond0_1 (grid0.coords t)) (x0 : Vec F S4x296x1024 .f32) (xs0 xs1 : Vec F S4x4 .f32) := kernelRun0_C (F := F) c (grid0.coords t) (ms0_0 t) (hs0_0 t) (ms0_1 t) (hs0_1 t) (ms0_2 t) (hs0_2 t) scM0_0 (Memref.isWhole_whole _) scM0_1 (Memref.isWhole_whole _) hc0 hc1 x0 xs0 xs1

/-- What the run leaves in the two outputs and the two accumulators: the pieces it found, read back.  -/
def out0_C_1 (c : Dev nD) (t : Fin cfg0.N) (hc0 : ¬cond0_0 (grid0.coords t)) (hc1 : cond0_1 (grid0.coords t)) (x0 : Vec F S4x296x1024 .f32) (xs0 xs1 : Vec F S4x4 .f32) : Vec F S4x4 .f32 := VO0_1.read (Elt F) (VO0_1.writes (Elt F) VO0_1.junk (runC c t hc0 hc1 x0 xs0 xs1).1)
def out0_C_2 (c : Dev nD) (t : Fin cfg0.N) (hc0 : ¬cond0_0 (grid0.coords t)) (hc1 : cond0_1 (grid0.coords t)) (x0 : Vec F S4x296x1024 .f32) (xs0 xs1 : Vec F S4x4 .f32) : Vec F S4x4 .f32 := VO0_2.read (Elt F) (VO0_2.writes (Elt F) VO0_2.junk (runC c t hc0 hc1 x0 xs0 xs1).2.1)
def sout0_C_0 (c : Dev nD) (t : Fin cfg0.N) (hc0 : ¬cond0_0 (grid0.coords t)) (hc1 : cond0_1 (grid0.coords t)) (x0 : Vec F S4x296x1024 .f32) (xs0 xs1 : Vec F S4x4 .f32) : Vec F S4x4 .f32 := VS0_0.read (Elt F) (VS0_0.writes (Elt F) VS0_0.junk (runC c t hc0 hc1 x0 xs0 xs1).2.2.1)
def sout0_C_1 (c : Dev nD) (t : Fin cfg0.N) (hc0 : ¬cond0_0 (grid0.coords t)) (hc1 : cond0_1 (grid0.coords t)) (x0 : Vec F S4x296x1024 .f32) (xs0 xs1 : Vec F S4x4 .f32) : Vec F S4x4 .f32 := VS0_1.read (Elt F) (VS0_1.writes (Elt F) VS0_1.junk (runC c t hc0 hc1 x0 xs0 xs1).2.2.2.1)

/-- The accumulators' pieces cover them: the four column stores tile the 4x4 buffer. -/
theorem scover0_C_0 (c : Dev nD) (t : Fin cfg0.N) (hc0 : ¬cond0_0 (grid0.coords t)) (hc1 : cond0_1 (grid0.coords t)) (x0 : Vec F S4x296x1024 .f32) (xs0 xs1 : Vec F S4x4 .f32) (y : S4x4.Idx) : ∃ pc ∈ (runC c t hc0 hc1 x0 xs0 xs1).2.2.1, y ∈ pc.1.set :=
  View.cover_of_tiledL (runC c t hc0 hc1 x0 xs0 xs1).2.2.1 S4x1.size (by sl_kernel_rfl) y
theorem scover0_C_1 (c : Dev nD) (t : Fin cfg0.N) (hc0 : ¬cond0_0 (grid0.coords t)) (hc1 : cond0_1 (grid0.coords t)) (x0 : Vec F S4x296x1024 .f32) (xs0 xs1 : Vec F S4x4 .f32) (y : S4x4.Idx) : ∃ pc ∈ (runC c t hc0 hc1 x0 xs0 xs1).2.2.2.1, y ∈ pc.1.set :=
  View.cover_of_tiledL (runC c t hc0 hc1 x0 xs0 xs1).2.2.2.1 S4x1.size (by sl_kernel_rfl) y
/-- At the last point the outputs' pieces cover them too. -/
theorem cover0_C_1 (c : Dev nD) (t : Fin cfg0.N) (hc0 : ¬cond0_0 (grid0.coords t)) (hc1 : cond0_1 (grid0.coords t)) (x0 : Vec F S4x296x1024 .f32) (xs0 xs1 : Vec F S4x4 .f32) (y : S4x4.Idx) : ∃ pc ∈ (runC c t hc0 hc1 x0 xs0 xs1).1, y ∈ pc.1.set :=
  View.cover_of_tiledL (runC c t hc0 hc1 x0 xs0 xs1).1 S4x1.size (by sl_kernel_rfl) y
theorem cover0_C_2 (c : Dev nD) (t : Fin cfg0.N) (hc0 : ¬cond0_0 (grid0.coords t)) (hc1 : cond0_1 (grid0.coords t)) (x0 : Vec F S4x296x1024 .f32) (xs0 xs1 : Vec F S4x4 .f32) (y : S4x4.Idx) : ∃ pc ∈ (runC c t hc0 hc1 x0 xs0 xs1).2.1, y ∈ pc.1.set :=
  View.cover_of_tiledL (runC c t hc0 hc1 x0 xs0 xs1).2.1 S4x1.size (by sl_kernel_rfl) y

/-! ## What the buffers hold after each point -/

/-- After the body at position n: (mean output, reciprocal-root output, sum accumulator, sum-of-squares accumulator). -/
def outsAt0 (c : Dev nD) : (n : ℕ) → n < cfg0.N → Vec F S4x4 .f32 × Vec F S4x4 .f32 × Vec F S4x4 .f32 × Vec F S4x4 .f32
  | 0, hn => (out0_A_1 c ⟨0, hn⟩ ((hcond0_0 ⟨0, hn⟩).mpr (Nat.zero_mod _)) (fun h => (fun h => by (try dsimp only at h); omega) ((hcond0_1 ⟨0, hn⟩).mp h)) (iblk0 V c 0 ⟨0, hn⟩), out0_A_2 c ⟨0, hn⟩ ((hcond0_0 ⟨0, hn⟩).mpr (Nat.zero_mod _)) (fun h => (fun h => by (try dsimp only at h); omega) ((hcond0_1 ⟨0, hn⟩).mp h)) (iblk0 V c 0 ⟨0, hn⟩), sout0_A_0 c ⟨0, hn⟩ ((hcond0_0 ⟨0, hn⟩).mpr (Nat.zero_mod _)) (fun h => (fun h => by (try dsimp only at h); omega) ((hcond0_1 ⟨0, hn⟩).mp h)) (iblk0 V c 0 ⟨0, hn⟩), sout0_A_1 c ⟨0, hn⟩ ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 32 = 0 then
      if h1 : (n + 1) % 32 = 31 then
        False.elim (by omega)
      else
        (out0_A_1 c ⟨n + 1, hn⟩ ((hcond0_0 ⟨n + 1, hn⟩).mpr h0) (fun h => h1 ((hcond0_1 ⟨n + 1, hn⟩).mp h)) (iblk0 V c 0 ⟨n + 1, hn⟩), out0_A_2 c ⟨n + 1, hn⟩ ((hcond0_0 ⟨n + 1, hn⟩).mpr h0) (fun h => h1 ((hcond0_1 ⟨n + 1, hn⟩).mp h)) (iblk0 V c 0 ⟨n + 1, hn⟩), sout0_A_0 c ⟨n + 1, hn⟩ ((hcond0_0 ⟨n + 1, hn⟩).mpr h0) (fun h => h1 ((hcond0_1 ⟨n + 1, hn⟩).mp h)) (iblk0 V c 0 ⟨n + 1, hn⟩), sout0_A_1 c ⟨n + 1, hn⟩ ((hcond0_0 ⟨n + 1, hn⟩).mpr h0) (fun h => h1 ((hcond0_1 ⟨n + 1, hn⟩).mp h)) (iblk0 V c 0 ⟨n + 1, hn⟩))
    else
      if h1 : (n + 1) % 32 = 31 then
        (out0_C_1 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (out0_B_1 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, out0_B_2 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_0 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 32 = 0) (h1 : ¬t.val % 32 = 31) :
    outsAt0 V c t.val t.isLt = (out0_A_1 c t ((hcond0_0 t).mpr h0) (fun h => h1 ((hcond0_1 t).mp h)) (iblk0 V c 0 t), out0_A_2 c t ((hcond0_0 t).mpr h0) (fun h => h1 ((hcond0_1 t).mp h)) (iblk0 V c 0 t), sout0_A_0 c t ((hcond0_0 t).mpr h0) (fun h => h1 ((hcond0_1 t).mp h)) (iblk0 V c 0 t), sout0_A_1 c t ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (out0_B_1 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_2 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C_1 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried from point to point -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    ·
      rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩⟩
        iapply ((runA c t ((hcond0_0 t).mpr h0) (fun h => h1 ((hcond0_1 t).mp h)) (iblk0 V c 0 t)).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c t _ _ _)
            isplitl [HS1]
            · unfold owns; iexists _; isplitr
              swap; · iexact HS1
              ipureintro; exact View.read_writes_of_cover _ _ _ _ _ (scover0_A_1 c t _ _ _)
            iexact Hrest
          iexact Hg
        isplitl [Ho]; · iexact Ho
        isplitl [H0]; · iexact H0
        isplitl [H1]; · iexists _; iexact H1
        iexists _; iexact H2
      · rw [PhiS_castSucc V c t, PhiS_pos V c _ _ hz]
        iintro ⟨⟨⟨HS0, HS1, Hrest⟩, Hg⟩, Ho, ⟨%d0, H0⟩, ⟨%d1, H1⟩, ⟨%d2, H2⟩⟩
        iapply ((runA c t ((hcond0_0 t).mpr h0) (fun h => h1 ((hcond0_1 t).mp h)) (iblk0 V c 0 t)).2.2.2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c t _ _ _)
            isplitl [HS1]
            · unfold owns; iexists _; isplitr
              swap; · iexact HS1
              ipureintro; exact View.read_writes_of_cover _ _ _ _ _ (scover0_A_1 c t _ _ _)
            iexact Hrest
          iexact Hg
        isplitl [Ho]; · iexact Ho
        isplitl [H0]; · iexact H0
        isplitl [H1]; · iexists _; iexact H1
        iexists _; iexact H2
  · by_cases h1 : t.val % 32 = 31
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_1 out0_C_2 sout0_C_0 sout0_C_1; (try dsimp only)
      by_cases hz : t.val = 0
      · exfalso; omega
      · rw [PhiS_castSucc V c t, PhiS_pos V c _ _ hz]
        iintro ⟨⟨⟨HS0, HS1, Hrest⟩, Hg⟩, Ho, ⟨%d0, H0⟩, ⟨%d1, H1⟩, ⟨%d2, H2⟩⟩
        iapply ((runC c t (fun h => h0 ((hcond0_0 t).mp h)) ((hcond0_1 t).mpr h1) (iblk0 V c 0 t) _ _).2.2.2.2 Set.univ _)
        isplitl [H0]; · iexact H0
        isplitl [H1]; · iexists _; iexact H1
        isplitl [H2]; · iexists _; iexact H2
        isplitl [HS0]; · iexact HS0
        isplitl [HS1]; · iexact HS1
        iintro ⟨H0, ⟨%e1, H1⟩, ⟨%e2, H2⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_C_0 c t _ _ _ _ _)
            isplitl [HS1]
            · unfold owns; iexists _; isplitr
              swap; · iexact HS1
              ipureintro; exact View.read_writes_of_cover _ _ _ _ _ (scover0_C_1 c t _ _ _ _ _)
            iexact Hrest
          iexact Hg
        isplitl [Ho]; · iexact Ho
        isplitl [H0]; · iexact H0
        isplitl [H1]
        · unfold owns; iexists _; isplitr
          swap; · iexact H1
          ipureintro; exact View.read_writes_of_cover _ _ _ _ _ (cover0_C_1 c t _ _ _ _ _)
        unfold owns; iexists _; isplitr
        swap; · iexact H2
        ipureintro; exact View.read_writes_of_cover _ _ _ _ _ (cover0_C_2 c t _ _ _ _ _)
    ·
      rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, Hrest⟩, Hg⟩, Ho, ⟨%d0, H0⟩, ⟨%d1, H1⟩, ⟨%d2, H2⟩⟩
        iapply ((runB c t (fun h => h0 ((hcond0_0 t).mp h)) (fun h => h1 ((hcond0_1 t).mp h)) (iblk0 V c 0 t) _ _).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c t _ _ _ _ _)
            isplitl [HS1]
            · unfold owns; iexists _; isplitr
              swap; · iexact HS1
              ipureintro; exact View.read_writes_of_cover _ _ _ _ _ (scover0_B_1 c t _ _ _ _ _)
            iexact Hrest
          iexact Hg
        isplitl [Ho]; · iexact Ho
        isplitl [H0]; · iexact H0
        isplitl [H1]; · iexists _; iexact H1
        iexists _; iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting one back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.RunBits.lean ====
/-
  The whole run of the program. Its entry function is five segments: a stretch of host operations (the reshape of
  the input), the statistics region, a long stretch of host operations (the per-channel centre, scale and shift
  built from the statistics, the weight and the bias), the normalisation region, and a last stretch (the reshape of
  the result). The contents of every buffer at each of the six boundaries are a fold from the launch memory: a host
  stretch applies its operations, a region replaces its windows' arrays by what its write-backs leave. Each region
  is one segment record over the thread state "every unscoped buffer at the boundary's contents, the generator
  register at some state, nothing owed"; the launch theorem then says that every weakly fair execution terminates
  with every unscoped buffer at the last boundary's contents. The three argument arrays are written by no host
  operation and are no window's array, so they walk back through the fold to the launch memory.
-/
import proofs.«181770_j18743237280237_1_alg».proof.Proof.NormBodyBits
import proofs.«181770_j18743237280237_1_alg».proof.Proof.StatsBodyBits
import proofs.«181770_j18743237280237_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-- A buffer that no host operation writes and that is no window's array holds, at the end, its launch contents. -/
theorem W5_untouched (c : Dev nD) (r : Ref sig .tc) (h0 : r ∉ (hostOps0_W : List (Ref sig .tc))) (h1 : r ∉ (hostOps1_W : List (Ref sig .tc)))
    (h2 : r ∉ (hostOps2_W : List (Ref sig .tc))) (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The statistics region: entered with every unscoped buffer at the first boundary's contents, left at the second's.
    Its invariant takes the scoped rest and the generator register in, carries the accumulators, and gives both back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro HΦ
    ihave H := h $$ HΦ
    icases H with ⟨Hr, Hp⟩
    isplitl [Hp]; · iexact Hp
    isplitr; · iempintro
    iexact Hr

set_option backward.isDefEq.respectTransparency.types false in
/-- The normalisation region: entered at the third boundary's contents, left at the fourth's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr

/-! ## The entry function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the entry function terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Hand

end
-- ==== Proof.NormBodyIdeal.lean ====
/-
  The second kernel region: the pointwise normalisation. At every grid point its body loads a [4,296,1024] block
  of the flattened input and three [4,296,1] columns (the per-channel centre, scale and shift), and stores
  (x - centre) * scale + shift over the whole output block. Nothing is kept between points, so the region's proof
  data are the plain ones: each input buffer holds its block of the array as the region finds it, the output
  buffer holds the one stored piece, and the invariant is the scoped rest and the generator register, untouched.
  Everything is stated at a parameter V, the buffer contents when the region is entered, and at any float instance.
-/
import proofs.«181770_j18743237280237_1_alg».proof.Proof.Gen.KernelIdeal.Launch
import proofs.«181770_j18743237280237_1_alg».proof.Proof.Gen.KernelIdeal.Skeleton
import proofs.«181770_j18743237280237_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetched it or not: an
    unfetched point has the same block index as the one before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole big block, the whole column -/

abbrev rBig : Rect S4x296x1024 := Rect.unit (s := S4x296x1024) ![0, 0, 0] S4x296x1024.size inb_S4x296x1024_S4x296x1024_0_0_0
abbrev rCol : Rect S4x296x1 := Rect.unit (s := S4x296x1) ![0, 0, 0] S4x296x1.size inb_S4x296x1_S4x296x1_0_0_0

/-- What the body leaves in the output buffer: its one store, of (x - centre) * scale + shift of the four loads. -/
def out1_4 (x0 : Vec F S4x296x1024 .f32) (x1 x2 x3 : Vec F S4x296x1 .f32) : Vec F S4x296x1024 .f32 :=
  View.canon [⟨rBig, k1_pay1 (View.ld x0 rBig) (View.ld x1 rCol) (View.ld x2 rCol) (View.ld x3 rCol)⟩]

/-- The one store covers the buffer. -/
theorem cover1_4 (p0 : Vec F S4x296x1024 .f32) (y : S4x296x1024.Idx) :
    ∃ pc ∈ ([⟨rBig, p0⟩] : List (View.Piece (Elt F) S4x296x1024 .f32)), y ∈ pc.1.set :=
  View.cover_of_tiled [⟨rBig, p0⟩] S4x296x1024.size (by rfl) y

/-! ## The body's triple -/

set_option maxHeartbeats 1000000 in
/-- The body on whole buffers, the four inputs' at known contents and the output's at anything, runs to the end
    leaving the inputs as they were and the output at the stored piece. -/
theorem sound_kernel1 (c : Dev nD) (E : Set ℕ) (i : grid1.Coords)
    (arg0 : Memref sig .tc .vmem S4x296x1024 .f32) (harg0 : arg0.IsWhole) (arg1 : Memref sig .tc .vmem S4x296x1 .f32) (harg1 : arg1.IsWhole)
    (arg2 : Memref sig .tc .vmem S4x296x1 .f32) (harg2 : arg2.IsWhole) (arg3 : Memref sig .tc .vmem S4x296x1 .f32) (harg3 : arg3.IsWhole)
    (arg4 : Memref sig .tc .vmem S4x296x1024 .f32) (harg4 : arg4.IsWhole)
    (x0 : Vec F S4x296x1024 .f32) (x1 x2 x3 : Vec F S4x296x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1_norm_kernel i arg0 harg0 arg1 harg1 arg2 harg2 arg3 harg3 arg4 harg4) K := by
  simp only [cc1_norm_kernel_eq_skeleton]; unfold cc1_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- The proof data of the second pipeline on core c: the arrays as the region finds them; after the body at a
    point each input's buffer at its block and the output's at the stored piece of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.StatsSharedIdeal.lean ====
/-
  The first kernel region: the statistics pass. Over a grid of 32 points it walks the flattened input in blocks of
  1024 positions; two 4x4 scratch buffers accumulate, per batch row and per channel group, the sum and the sum of
  squares of the block; they are zeroed at the first point and, at the last point, turned into the group mean and
  the reciprocal root of the variance plus epsilon, which are stored into the two 4x4 outputs. This module holds
  what the three runs of the body (first point, middle points, last point) are stated over: the two branch
  conditions decided over the grid, where the two outputs are idle, the names of the buffers, and the region's
  resting invariant spelt out buffer by buffer.
-/
import proofs.«181770_j18743237280237_1_alg».proof.Proof.Gen.KernelIdeal.Launch
import proofs.«181770_j18743237280237_1_alg».proof.Proof.Gen.KernelIdeal.Skeleton
import proofs.«181770_j18743237280237_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first point": the scalar chain of the first conditional, over the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last point": the second conditional's condition. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The buffers' names -/

/-- One staging buffer of each output window, through which its contents are stated. -/
abbrev VO0_1 : View sig .tc .vmem S4x4 .f32 := (Memref.whole cc0_stg1_0 : Memref sig .tc .vmem S4x4 .f32).view
abbrev VO0_2 : View sig .tc .vmem S4x4 .f32 := (Memref.whole cc0_stg2_0 : Memref sig .tc .vmem S4x4 .f32).view
/-- Each window's current staging memref at point t, as the pipeline passes it, and its wholeness. -/
abbrev ms0_0 (t : Fin cfg0.N) : Memref sig .tc .vmem S4x296x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S4x4 .f32 := Memref.whole cc0_scratch0
abbrev scM0_1 : Memref sig .tc .vmem S4x4 .f32 := Memref.whole cc0_scratch1
abbrev VS0_0 : View sig .tc .vmem S4x4 .f32 := scM0_0.view
abbrev VS0_1 : View sig .tc .vmem S4x4 .f32 := scM0_1.view

/-- The scoped buffers of the core that this region never touches (the other region's staging buffers), each whole
    at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region's resting invariant, buffer by buffer: the two accumulators owned at some contents, the untouched
    rest, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.KernelIdeal.Hand

end
-- ==== Proof.StatsRunAIdeal.lean ====
/-
  The statistics body at the FIRST grid point: both accumulators are zeroed whole and then receive the first
  block's four pairs of group sums, column by column; the two outputs are not touched. The pieces each accumulator
  ends with are found by running the body.
-/
import proofs.«181770_j18743237280237_1_alg».proof.Proof.StatsSharedIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S4x296x1024 .f32) (harg1 : arg1.IsWhole) (arg2 : Memref sig .tc .vmem S4x4 .f32) (harg2 : arg2.IsWhole) (arg3 : Memref sig .tc .vmem S4x4 .f32) (harg3 : arg3.IsWhole) (arg4 : Memref sig .tc .vmem S4x4 .f32) (harg4 : arg4.IsWhole) (arg5 : Memref sig .tc .vmem S4x4 .f32) (harg5 : arg5.IsWhole) (hc0 : cond0_0 i) (hc1 : ¬cond0_1 i)
    (x0 : Vec F S4x296x1024 .f32) :
    Σ' (L1 : List (View.Piece (Elt F) S4x4 .f32)) (L2 : List (View.Piece (Elt F) S4x4 .f32)) (LS0 : List (View.Piece (Elt F) S4x4 .f32)), { LS1 : List (View.Piece (Elt F) S4x4 .f32) //
      ∀ (xi1 xi2 : Vec F S4x4 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_stats_kernel i arg1 harg1 arg2 harg2 arg3 harg3 arg4 harg4 arg5 harg5) K } := by
  refine ⟨[], [], ?_, ?_, fun xi1 xi2 E K => ?run⟩
  case run =>
    simp only [cc0_stats_kernel_eq_skeleton]; unfold cc0_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.StatsRunBIdeal.lean ====
/-
  The statistics body at a MIDDLE grid point: each accumulator column is read, the block's group sum added, and
  stored back; the two outputs are not touched.
-/
import proofs.«181770_j18743237280237_1_alg».proof.Proof.StatsRunAIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S4x296x1024 .f32) (harg1 : arg1.IsWhole) (arg2 : Memref sig .tc .vmem S4x4 .f32) (harg2 : arg2.IsWhole) (arg3 : Memref sig .tc .vmem S4x4 .f32) (harg3 : arg3.IsWhole) (arg4 : Memref sig .tc .vmem S4x4 .f32) (harg4 : arg4.IsWhole) (arg5 : Memref sig .tc .vmem S4x4 .f32) (harg5 : arg5.IsWhole) (hc0 : ¬cond0_0 i) (hc1 : ¬cond0_1 i)
    (x0 : Vec F S4x296x1024 .f32) (xs0 xs1 : Vec F S4x4 .f32) :
    Σ' (L1 : List (View.Piece (Elt F) S4x4 .f32)) (L2 : List (View.Piece (Elt F) S4x4 .f32)) (LS0 : List (View.Piece (Elt F) S4x4 .f32)), { LS1 : List (View.Piece (Elt F) S4x4 .f32) //
      ∀ (xi1 xi2 : Vec F S4x4 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_stats_kernel i arg1 harg1 arg2 harg2 arg3 harg3 arg4 harg4 arg5 harg5) K } := by
  refine ⟨[], [], ?_, ?_, fun xi1 xi2 E K => ?run⟩
  case run =>
    simp only [cc0_stats_kernel_eq_skeleton]; unfold cc0_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.StatsRunCIdeal.lean ====
/-
  The statistics body at the LAST grid point: the accumulators take the last block's sums, and then each group's
  mean and reciprocal root are computed from them and stored into the two outputs, column by column.
-/
import proofs.«181770_j18743237280237_1_alg».proof.Proof.StatsRunBIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S4x296x1024 .f32) (harg1 : arg1.IsWhole) (arg2 : Memref sig .tc .vmem S4x4 .f32) (harg2 : arg2.IsWhole) (arg3 : Memref sig .tc .vmem S4x4 .f32) (harg3 : arg3.IsWhole) (arg4 : Memref sig .tc .vmem S4x4 .f32) (harg4 : arg4.IsWhole) (arg5 : Memref sig .tc .vmem S4x4 .f32) (harg5 : arg5.IsWhole) (hc0 : ¬cond0_0 i) (hc1 : cond0_1 i)
    (x0 : Vec F S4x296x1024 .f32) (xs0 xs1 : Vec F S4x4 .f32) :
    Σ' (L1 : List (View.Piece (Elt F) S4x4 .f32)) (L2 : List (View.Piece (Elt F) S4x4 .f32)) (LS0 : List (View.Piece (Elt F) S4x4 .f32)), { LS1 : List (View.Piece (Elt F) S4x4 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_stats_kernel i arg1 harg1 arg2 harg2 arg3 harg3 arg4 harg4 arg5 harg5) K } := by
  refine ⟨?_, ?_, ?_, ?_, fun E K => ?run⟩
  case run =>
    simp only [cc0_stats_kernel_eq_skeleton]; unfold cc0_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.StatsBodyIdeal.lean ====
/-
  The statistics region's proof data. What the two outputs and the two accumulators hold after each grid point is a
  recursion on the point: the first point's run starts the accumulators from anything, every later point's run
  starts them from what the point before left. The region's invariant carries the two accumulators at exactly these
  contents from one point to the next (and leaves every other scoped buffer and the generator register alone), and
  the body obligation at a point is that point's run: first, middle or last, by the two decided conditions.
-/
import proofs.«181770_j18743237280237_1_alg».proof.Proof.StatsRunCIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ### The first point -/

/-- The body's run at point t, on the buffers the pipeline passes there. -/
abbrev runA (c : Dev nD) (t : Fin cfg0.N) (hc0 : cond0_0 (grid0.coords t)) (hc1 : ¬cond0_1 (grid0.coords t)) (x0 : Vec F S4x296x1024 .f32) := kernelRun0_A (F := F) c (grid0.coords t) (ms0_0 t) (hs0_0 t) (ms0_1 t) (hs0_1 t) (ms0_2 t) (hs0_2 t) scM0_0 (Memref.isWhole_whole _) scM0_1 (Memref.isWhole_whole _) hc0 hc1 x0

/-- What the run leaves in the two outputs and the two accumulators: the pieces it found, read back. (The outputs are idle here: no piece, a placeholder nothing consults.) -/
def out0_A_1 (c : Dev nD) (t : Fin cfg0.N) (hc0 : cond0_0 (grid0.coords t)) (hc1 : ¬cond0_1 (grid0.coords t)) (x0 : Vec F S4x296x1024 .f32) : Vec F S4x4 .f32 := VO0_1.read (Elt F) (VO0_1.writes (Elt F) VO0_1.junk (runA c t hc0 hc1 x0).1)
def out0_A_2 (c : Dev nD) (t : Fin cfg0.N) (hc0 : cond0_0 (grid0.coords t)) (hc1 : ¬cond0_1 (grid0.coords t)) (x0 : Vec F S4x296x1024 .f32) : Vec F S4x4 .f32 := VO0_2.read (Elt F) (VO0_2.writes (Elt F) VO0_2.junk (runA c t hc0 hc1 x0).2.1)
def sout0_A_0 (c : Dev nD) (t : Fin cfg0.N) (hc0 : cond0_0 (grid0.coords t)) (hc1 : ¬cond0_1 (grid0.coords t)) (x0 : Vec F S4x296x1024 .f32) : Vec F S4x4 .f32 := VS0_0.read (Elt F) (VS0_0.writes (Elt F) VS0_0.junk (runA c t hc0 hc1 x0).2.2.1)
def sout0_A_1 (c : Dev nD) (t : Fin cfg0.N) (hc0 : cond0_0 (grid0.coords t)) (hc1 : ¬cond0_1 (grid0.coords t)) (x0 : Vec F S4x296x1024 .f32) : Vec F S4x4 .f32 := VS0_1.read (Elt F) (VS0_1.writes (Elt F) VS0_1.junk (runA c t hc0 hc1 x0).2.2.2.1)

/-- The accumulators' pieces cover them: the four column stores tile the 4x4 buffer. -/
theorem scover0_A_0 (c : Dev nD) (t : Fin cfg0.N) (hc0 : cond0_0 (grid0.coords t)) (hc1 : ¬cond0_1 (grid0.coords t)) (x0 : Vec F S4x296x1024 .f32) (y : S4x4.Idx) : ∃ pc ∈ (runA c t hc0 hc1 x0).2.2.1, y ∈ pc.1.set :=
  View.cover_of_tiledL (runA c t hc0 hc1 x0).2.2.1 S4x1.size (by sl_kernel_rfl) y
theorem scover0_A_1 (c : Dev nD) (t : Fin cfg0.N) (hc0 : cond0_0 (grid0.coords t)) (hc1 : ¬cond0_1 (grid0.coords t)) (x0 : Vec F S4x296x1024 .f32) (y : S4x4.Idx) : ∃ pc ∈ (runA c t hc0 hc1 x0).2.2.2.1, y ∈ pc.1.set :=
  View.cover_of_tiledL (runA c t hc0 hc1 x0).2.2.2.1 S4x1.size (by sl_kernel_rfl) y

/-! ### A middle point -/

/-- The body's run at point t, on the buffers the pipeline passes there. -/
abbrev runB (c : Dev nD) (t : Fin cfg0.N) (hc0 : ¬cond0_0 (grid0.coords t)) (hc1 : ¬cond0_1 (grid0.coords t)) (x0 : Vec F S4x296x1024 .f32) (xs0 xs1 : Vec F S4x4 .f32) := kernelRun0_B (F := F) c (grid0.coords t) (ms0_0 t) (hs0_0 t) (ms0_1 t) (hs0_1 t) (ms0_2 t) (hs0_2 t) scM0_0 (Memref.isWhole_whole _) scM0_1 (Memref.isWhole_whole _) hc0 hc1 x0 xs0 xs1

/-- What the run leaves in the two outputs and the two accumulators: the pieces it found, read back. (The outputs are idle here: no piece, a placeholder nothing consults.) -/
def out0_B_1 (c : Dev nD) (t : Fin cfg0.N) (hc0 : ¬cond0_0 (grid0.coords t)) (hc1 : ¬cond0_1 (grid0.coords t)) (x0 : Vec F S4x296x1024 .f32) (xs0 xs1 : Vec F S4x4 .f32) : Vec F S4x4 .f32 := VO0_1.read (Elt F) (VO0_1.writes (Elt F) VO0_1.junk (runB c t hc0 hc1 x0 xs0 xs1).1)
def out0_B_2 (c : Dev nD) (t : Fin cfg0.N) (hc0 : ¬cond0_0 (grid0.coords t)) (hc1 : ¬cond0_1 (grid0.coords t)) (x0 : Vec F S4x296x1024 .f32) (xs0 xs1 : Vec F S4x4 .f32) : Vec F S4x4 .f32 := VO0_2.read (Elt F) (VO0_2.writes (Elt F) VO0_2.junk (runB c t hc0 hc1 x0 xs0 xs1).2.1)
def sout0_B_0 (c : Dev nD) (t : Fin cfg0.N) (hc0 : ¬cond0_0 (grid0.coords t)) (hc1 : ¬cond0_1 (grid0.coords t)) (x0 : Vec F S4x296x1024 .f32) (xs0 xs1 : Vec F S4x4 .f32) : Vec F S4x4 .f32 := VS0_0.read (Elt F) (VS0_0.writes (Elt F) VS0_0.junk (runB c t hc0 hc1 x0 xs0 xs1).2.2.1)
def sout0_B_1 (c : Dev nD) (t : Fin cfg0.N) (hc0 : ¬cond0_0 (grid0.coords t)) (hc1 : ¬cond0_1 (grid0.coords t)) (x0 : Vec F S4x296x1024 .f32) (xs0 xs1 : Vec F S4x4 .f32) : Vec F S4x4 .f32 := VS0_1.read (Elt F) (VS0_1.writes (Elt F) VS0_1.junk (runB c t hc0 hc1 x0 xs0 xs1).2.2.2.1)

/-- The accumulators' pieces cover them: the four column stores tile the 4x4 buffer. -/
theorem scover0_B_0 (c : Dev nD) (t : Fin cfg0.N) (hc0 : ¬cond0_0 (grid0.coords t)) (hc1 : ¬cond0_1 (grid0.coords t)) (x0 : Vec F S4x296x1024 .f32) (xs0 xs1 : Vec F S4x4 .f32) (y : S4x4.Idx) : ∃ pc ∈ (runB c t hc0 hc1 x0 xs0 xs1).2.2.1, y ∈ pc.1.set :=
  View.cover_of_tiledL (runB c t hc0 hc1 x0 xs0 xs1).2.2.1 S4x1.size (by sl_kernel_rfl) y
theorem scover0_B_1 (c : Dev nD) (t : Fin cfg0.N) (hc0 : ¬cond0_0 (grid0.coords t)) (hc1 : ¬cond0_1 (grid0.coords t)) (x0 : Vec F S4x296x1024 .f32) (xs0 xs1 : Vec F S4x4 .f32) (y : S4x4.Idx) : ∃ pc ∈ (runB c t hc0 hc1 x0 xs0 xs1).2.2.2.1, y ∈ pc.1.set :=
  View.cover_of_tiledL (runB c t hc0 hc1 x0 xs0 xs1).2.2.2.1 S4x1.size (by sl_kernel_rfl) y

/-! ### The last point -/

/-- The body's run at point t, on the buffers the pipeline passes there. -/
abbrev runC (c : Dev nD) (t : Fin cfg0.N) (hc0 : ¬cond0_0 (grid0.coords t)) (hc1 : cond0_1 (grid0.coords t)) (x0 : Vec F S4x296x1024 .f32) (xs0 xs1 : Vec F S4x4 .f32) := kernelRun0_C (F := F) c (grid0.coords t) (ms0_0 t) (hs0_0 t) (ms0_1 t) (hs0_1 t) (ms0_2 t) (hs0_2 t) scM0_0 (Memref.isWhole_whole _) scM0_1 (Memref.isWhole_whole _) hc0 hc1 x0 xs0 xs1

/-- What the run leaves in the two outputs and the two accumulators: the pieces it found, read back.  -/
def out0_C_1 (c : Dev nD) (t : Fin cfg0.N) (hc0 : ¬cond0_0 (grid0.coords t)) (hc1 : cond0_1 (grid0.coords t)) (x0 : Vec F S4x296x1024 .f32) (xs0 xs1 : Vec F S4x4 .f32) : Vec F S4x4 .f32 := VO0_1.read (Elt F) (VO0_1.writes (Elt F) VO0_1.junk (runC c t hc0 hc1 x0 xs0 xs1).1)
def out0_C_2 (c : Dev nD) (t : Fin cfg0.N) (hc0 : ¬cond0_0 (grid0.coords t)) (hc1 : cond0_1 (grid0.coords t)) (x0 : Vec F S4x296x1024 .f32) (xs0 xs1 : Vec F S4x4 .f32) : Vec F S4x4 .f32 := VO0_2.read (Elt F) (VO0_2.writes (Elt F) VO0_2.junk (runC c t hc0 hc1 x0 xs0 xs1).2.1)
def sout0_C_0 (c : Dev nD) (t : Fin cfg0.N) (hc0 : ¬cond0_0 (grid0.coords t)) (hc1 : cond0_1 (grid0.coords t)) (x0 : Vec F S4x296x1024 .f32) (xs0 xs1 : Vec F S4x4 .f32) : Vec F S4x4 .f32 := VS0_0.read (Elt F) (VS0_0.writes (Elt F) VS0_0.junk (runC c t hc0 hc1 x0 xs0 xs1).2.2.1)
def sout0_C_1 (c : Dev nD) (t : Fin cfg0.N) (hc0 : ¬cond0_0 (grid0.coords t)) (hc1 : cond0_1 (grid0.coords t)) (x0 : Vec F S4x296x1024 .f32) (xs0 xs1 : Vec F S4x4 .f32) : Vec F S4x4 .f32 := VS0_1.read (Elt F) (VS0_1.writes (Elt F) VS0_1.junk (runC c t hc0 hc1 x0 xs0 xs1).2.2.2.1)

/-- The accumulators' pieces cover them: the four column stores tile the 4x4 buffer. -/
theorem scover0_C_0 (c : Dev nD) (t : Fin cfg0.N) (hc0 : ¬cond0_0 (grid0.coords t)) (hc1 : cond0_1 (grid0.coords t)) (x0 : Vec F S4x296x1024 .f32) (xs0 xs1 : Vec F S4x4 .f32) (y : S4x4.Idx) : ∃ pc ∈ (runC c t hc0 hc1 x0 xs0 xs1).2.2.1, y ∈ pc.1.set :=
  View.cover_of_tiledL (runC c t hc0 hc1 x0 xs0 xs1).2.2.1 S4x1.size (by sl_kernel_rfl) y
theorem scover0_C_1 (c : Dev nD) (t : Fin cfg0.N) (hc0 : ¬cond0_0 (grid0.coords t)) (hc1 : cond0_1 (grid0.coords t)) (x0 : Vec F S4x296x1024 .f32) (xs0 xs1 : Vec F S4x4 .f32) (y : S4x4.Idx) : ∃ pc ∈ (runC c t hc0 hc1 x0 xs0 xs1).2.2.2.1, y ∈ pc.1.set :=
  View.cover_of_tiledL (runC c t hc0 hc1 x0 xs0 xs1).2.2.2.1 S4x1.size (by sl_kernel_rfl) y
/-- At the last point the outputs' pieces cover them too. -/
theorem cover0_C_1 (c : Dev nD) (t : Fin cfg0.N) (hc0 : ¬cond0_0 (grid0.coords t)) (hc1 : cond0_1 (grid0.coords t)) (x0 : Vec F S4x296x1024 .f32) (xs0 xs1 : Vec F S4x4 .f32) (y : S4x4.Idx) : ∃ pc ∈ (runC c t hc0 hc1 x0 xs0 xs1).1, y ∈ pc.1.set :=
  View.cover_of_tiledL (runC c t hc0 hc1 x0 xs0 xs1).1 S4x1.size (by sl_kernel_rfl) y
theorem cover0_C_2 (c : Dev nD) (t : Fin cfg0.N) (hc0 : ¬cond0_0 (grid0.coords t)) (hc1 : cond0_1 (grid0.coords t)) (x0 : Vec F S4x296x1024 .f32) (xs0 xs1 : Vec F S4x4 .f32) (y : S4x4.Idx) : ∃ pc ∈ (runC c t hc0 hc1 x0 xs0 xs1).2.1, y ∈ pc.1.set :=
  View.cover_of_tiledL (runC c t hc0 hc1 x0 xs0 xs1).2.1 S4x1.size (by sl_kernel_rfl) y

/-! ## What the buffers hold after each point -/

/-- After the body at position n: (mean output, reciprocal-root output, sum accumulator, sum-of-squares accumulator). -/
def outsAt0 (c : Dev nD) : (n : ℕ) → n < cfg0.N → Vec F S4x4 .f32 × Vec F S4x4 .f32 × Vec F S4x4 .f32 × Vec F S4x4 .f32
  | 0, hn => (out0_A_1 c ⟨0, hn⟩ ((hcond0_0 ⟨0, hn⟩).mpr (Nat.zero_mod _)) (fun h => (fun h => by (try dsimp only at h); omega) ((hcond0_1 ⟨0, hn⟩).mp h)) (iblk0 V c 0 ⟨0, hn⟩), out0_A_2 c ⟨0, hn⟩ ((hcond0_0 ⟨0, hn⟩).mpr (Nat.zero_mod _)) (fun h => (fun h => by (try dsimp only at h); omega) ((hcond0_1 ⟨0, hn⟩).mp h)) (iblk0 V c 0 ⟨0, hn⟩), sout0_A_0 c ⟨0, hn⟩ ((hcond0_0 ⟨0, hn⟩).mpr (Nat.zero_mod _)) (fun h => (fun h => by (try dsimp only at h); omega) ((hcond0_1 ⟨0, hn⟩).mp h)) (iblk0 V c 0 ⟨0, hn⟩), sout0_A_1 c ⟨0, hn⟩ ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 32 = 0 then
      if h1 : (n + 1) % 32 = 31 then
        False.elim (by omega)
      else
        (out0_A_1 c ⟨n + 1, hn⟩ ((hcond0_0 ⟨n + 1, hn⟩).mpr h0) (fun h => h1 ((hcond0_1 ⟨n + 1, hn⟩).mp h)) (iblk0 V c 0 ⟨n + 1, hn⟩), out0_A_2 c ⟨n + 1, hn⟩ ((hcond0_0 ⟨n + 1, hn⟩).mpr h0) (fun h => h1 ((hcond0_1 ⟨n + 1, hn⟩).mp h)) (iblk0 V c 0 ⟨n + 1, hn⟩), sout0_A_0 c ⟨n + 1, hn⟩ ((hcond0_0 ⟨n + 1, hn⟩).mpr h0) (fun h => h1 ((hcond0_1 ⟨n + 1, hn⟩).mp h)) (iblk0 V c 0 ⟨n + 1, hn⟩), sout0_A_1 c ⟨n + 1, hn⟩ ((hcond0_0 ⟨n + 1, hn⟩).mpr h0) (fun h => h1 ((hcond0_1 ⟨n + 1, hn⟩).mp h)) (iblk0 V c 0 ⟨n + 1, hn⟩))
    else
      if h1 : (n + 1) % 32 = 31 then
        (out0_C_1 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (out0_B_1 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, out0_B_2 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_0 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 32 = 0) (h1 : ¬t.val % 32 = 31) :
    outsAt0 V c t.val t.isLt = (out0_A_1 c t ((hcond0_0 t).mpr h0) (fun h => h1 ((hcond0_1 t).mp h)) (iblk0 V c 0 t), out0_A_2 c t ((hcond0_0 t).mpr h0) (fun h => h1 ((hcond0_1 t).mp h)) (iblk0 V c 0 t), sout0_A_0 c t ((hcond0_0 t).mpr h0) (fun h => h1 ((hcond0_1 t).mp h)) (iblk0 V c 0 t), sout0_A_1 c t ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (out0_B_1 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_2 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C_1 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried from point to point -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    ·
      rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩⟩
        iapply ((runA c t ((hcond0_0 t).mpr h0) (fun h => h1 ((hcond0_1 t).mp h)) (iblk0 V c 0 t)).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c t _ _ _)
            isplitl [HS1]
            · unfold owns; iexists _; isplitr
              swap; · iexact HS1
              ipureintro; exact View.read_writes_of_cover _ _ _ _ _ (scover0_A_1 c t _ _ _)
            iexact Hrest
          iexact Hg
        isplitl [Ho]; · iexact Ho
        isplitl [H0]; · iexact H0
        isplitl [H1]; · iexists _; iexact H1
        iexists _; iexact H2
      · rw [PhiS_castSucc V c t, PhiS_pos V c _ _ hz]
        iintro ⟨⟨⟨HS0, HS1, Hrest⟩, Hg⟩, Ho, ⟨%d0, H0⟩, ⟨%d1, H1⟩, ⟨%d2, H2⟩⟩
        iapply ((runA c t ((hcond0_0 t).mpr h0) (fun h => h1 ((hcond0_1 t).mp h)) (iblk0 V c 0 t)).2.2.2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c t _ _ _)
            isplitl [HS1]
            · unfold owns; iexists _; isplitr
              swap; · iexact HS1
              ipureintro; exact View.read_writes_of_cover _ _ _ _ _ (scover0_A_1 c t _ _ _)
            iexact Hrest
          iexact Hg
        isplitl [Ho]; · iexact Ho
        isplitl [H0]; · iexact H0
        isplitl [H1]; · iexists _; iexact H1
        iexists _; iexact H2
  · by_cases h1 : t.val % 32 = 31
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_1 out0_C_2 sout0_C_0 sout0_C_1; (try dsimp only)
      by_cases hz : t.val = 0
      · exfalso; omega
      · rw [PhiS_castSucc V c t, PhiS_pos V c _ _ hz]
        iintro ⟨⟨⟨HS0, HS1, Hrest⟩, Hg⟩, Ho, ⟨%d0, H0⟩, ⟨%d1, H1⟩, ⟨%d2, H2⟩⟩
        iapply ((runC c t (fun h => h0 ((hcond0_0 t).mp h)) ((hcond0_1 t).mpr h1) (iblk0 V c 0 t) _ _).2.2.2.2 Set.univ _)
        isplitl [H0]; · iexact H0
        isplitl [H1]; · iexists _; iexact H1
        isplitl [H2]; · iexists _; iexact H2
        isplitl [HS0]; · iexact HS0
        isplitl [HS1]; · iexact HS1
        iintro ⟨H0, ⟨%e1, H1⟩, ⟨%e2, H2⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_C_0 c t _ _ _ _ _)
            isplitl [HS1]
            · unfold owns; iexists _; isplitr
              swap; · iexact HS1
              ipureintro; exact View.read_writes_of_cover _ _ _ _ _ (scover0_C_1 c t _ _ _ _ _)
            iexact Hrest
          iexact Hg
        isplitl [Ho]; · iexact Ho
        isplitl [H0]; · iexact H0
        isplitl [H1]
        · unfold owns; iexists _; isplitr
          swap; · iexact H1
          ipureintro; exact View.read_writes_of_cover _ _ _ _ _ (cover0_C_1 c t _ _ _ _ _)
        unfold owns; iexists _; isplitr
        swap; · iexact H2
        ipureintro; exact View.read_writes_of_cover _ _ _ _ _ (cover0_C_2 c t _ _ _ _ _)
    ·
      rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, Hrest⟩, Hg⟩, Ho, ⟨%d0, H0⟩, ⟨%d1, H1⟩, ⟨%d2, H2⟩⟩
        iapply ((runB c t (fun h => h0 ((hcond0_0 t).mp h)) (fun h => h1 ((hcond0_1 t).mp h)) (iblk0 V c 0 t) _ _).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c t _ _ _ _ _)
            isplitl [HS1]
            · unfold owns; iexists _; isplitr
              swap; · iexact HS1
              ipureintro; exact View.read_writes_of_cover _ _ _ _ _ (scover0_B_1 c t _ _ _ _ _)
            iexact Hrest
          iexact Hg
        isplitl [Ho]; · iexact Ho
        isplitl [H0]; · iexact H0
        isplitl [H1]; · iexists _; iexact H1
        iexists _; iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting one back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.RunIdeal.lean ====
/-
  The whole run of the program. Its entry function is five segments: a stretch of host operations (the reshape of
  the input), the statistics region, a long stretch of host operations (the per-channel centre, scale and shift
  built from the statistics, the weight and the bias), the normalisation region, and a last stretch (the reshape of
  the result). The contents of every buffer at each of the six boundaries are a fold from the launch memory: a host
  stretch applies its operations, a region replaces its windows' arrays by what its write-backs leave. Each region
  is one segment record over the thread state "every unscoped buffer at the boundary's contents, the generator
  register at some state, nothing owed"; the launch theorem then says that every weakly fair execution terminates
  with every unscoped buffer at the last boundary's contents. The three argument arrays are written by no host
  operation and are no window's array, so they walk back through the fold to the launch memory.
-/
import proofs.«181770_j18743237280237_1_alg».proof.Proof.NormBodyIdeal
import proofs.«181770_j18743237280237_1_alg».proof.Proof.StatsBodyIdeal
import proofs.«181770_j18743237280237_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-- A buffer that no host operation writes and that is no window's array holds, at the end, its launch contents. -/
theorem W5_untouched (c : Dev nD) (r : Ref sig .tc) (h0 : r ∉ (hostOps0_W : List (Ref sig .tc))) (h1 : r ∉ (hostOps1_W : List (Ref sig .tc)))
    (h2 : r ∉ (hostOps2_W : List (Ref sig .tc))) (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The statistics region: entered with every unscoped buffer at the first boundary's contents, left at the second's.
    Its invariant takes the scoped rest and the generator register in, carries the accumulators, and gives both back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro HΦ
    ihave H := h $$ HΦ
    icases H with ⟨Hr, Hp⟩
    isplitl [Hp]; · iexact Hp
    isplitr; · iempintro
    iexact Hr

set_option backward.isDefEq.respectTransparency.types false in
/-- The normalisation region: entered at the third boundary's contents, left at the fourth's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr

/-! ## The entry function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the entry function terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.LibBlockSum.lean ====
/-
  Sums of a rank-3 array read at an index given by coordinates. A one-axis sum along the last axis of an [a, b, c]
  array is, at (p, q), the sum over k of the entries (p, q, k). Summing that again along the columns and keeping the
  result as a column [a, 1] gives, at (p, 0), the double sum over q and k of the entries (p, q, k): the total of
  the p-th slab.
-/
import proofs.«181770_j18743237280237_1_alg».proof.Proof.LibKeepdims

namespace Idealize.ShloMosaic.ValueIdx

open Idealize.ShloMosaic

/-- The index a one-axis reduction along the last axis inserts: (p, q, k). -/
theorem lift_last3 {a b c : ℕ} (h : (⟨3, ![a, b, c]⟩ : Shape).Reduces [2] ⟨2, ![a, b]⟩) (p : Fin a) (q : Fin b) (k : Fin c) :
    h.lift (ix2 p q) k = ix3 p q k :=
  funext fun ax => Fin.ext (by match ax with | ⟨0, _⟩ => rfl | ⟨1, _⟩ => rfl | ⟨2, _⟩ => rfl)

/-- The sum along the last axis of an [a, b, c] array at (p, q). -/
theorem lastSum3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last3 h p q k)

/-- The slab total kept as a column: last axis, then columns, then the cast to [a, 1]. -/
theorem slabSum_apply {a b c : ℕ} {φ : FTy} (src : FVec Ideal ⟨3, ![a, b, c]⟩ φ) (acc : BitVec φ.bits)
    (h2 : (⟨3, ![a, b, c]⟩ : Shape).Reduces [2] ⟨2, ![a, b]⟩) (h1 : (⟨2, ![a, b]⟩ : Shape).Reduces [1] ⟨1, ![a]⟩)
    (hc : (⟨1, ![a]⟩ : Shape).ShapeCasts ⟨2, ![a, 1]⟩)
    (hφ : FKind.Formats φ) (hacc : acc = FKind.add.neutral φ hφ) (p : Fin a) (u : Fin 1) :
    shapeCast ⟨2, ![a, 1]⟩ (multiReduction .add [1] ⟨1, ![a]⟩ (multiReduction .add [2] ⟨2, ![a, b]⟩ src acc h2 hφ hacc) acc h1 hφ hacc) hc (ix2 p u)
      = ∑ q : Fin b, ∑ k : Fin c, src (ix3 p q k) := by
  rw [shapeCast_a_a1_apply, rowSum_apply]
  exact Finset.sum_congr rfl fun q _ => lastSum3_apply src acc h2 hφ hacc p q

end Idealize.ShloMosaic.ValueIdx
-- ==== Proof.StatsPay.lean ====
/-
  The statistics body's arithmetic, read at an index. Each accumulator column update is "old column plus the block's
  group total": the total of a [4, md, 1024] slice (or of its squares) over its md channels and 1024 positions, per
  batch row. Each output column at the last point is the accumulator column divided by the group's size (the mean),
  or the reciprocal root of the mean of squares (less the squared mean for the first group) plus epsilon.
-/
import proofs.«181770_j18743237280237_1_alg».proof.Proof.Gen.KernelIdeal.Skeleton
import proofs.«181770_j18743237280237_1_alg».proof.Proof.LibBlockSum

noncomputable section

namespace Cert.KernelIdeal.Pay

open Cert.KernelIdeal Cert.KernelIdeal.Gen
open Idealize.ShloMosaic Idealize.ShloMosaic.ValueIdx

/-- The total of a slice over its channels and positions, in batch row b. -/
def tot {md : ℕ} (v : (⟨3, ![4, md, 1024]⟩ : Shape).Idx → EReal) (b : Fin 4) : EReal :=
  ∑ q : Fin md, ∑ k : Fin 1024, v (ix3 b q k)

/-- The total of the squares. -/
def totsq {md : ℕ} (v : (⟨3, ![4, md, 1024]⟩ : Shape).Idx → EReal) (b : Fin 4) : EReal :=
  ∑ q : Fin md, ∑ k : Fin 1024, v (ix3 b q k) * v (ix3 b q k)

theorem pay14_apply (v3 : Vec Ideal S4x64x1024 .f32) (v12 : Vec Ideal S4x1 .f32) (b : Fin 4) :
    k0_pay14 (F := Ideal) v3 v12 (ix2 b (0 : Fin 1)) = v12 (ix2 b (0 : Fin 1)) + tot v3 b := by
  unfold k0_pay14 k0_pay13 tot
  simp only [shapeCast_self, addf_apply]
  refine congrArg (_ + ·) ?_
  exact slabSum_apply (a := 4) (b := 64) (c := 1024) v3 _ _ _ _ _ _ b (0 : Fin 1)

theorem pay15_apply (v3 : Vec Ideal S4x64x1024 .f32) (v17 : Vec Ideal S4x1 .f32) (b : Fin 4) :
    k0_pay15 (F := Ideal) v3 v17 (ix2 b (0 : Fin 1)) = v17 (ix2 b (0 : Fin 1)) + totsq v3 b := by
  unfold k0_pay15 k0_pay13 totsq
  simp only [shapeCast_self, addf_apply]
  refine congrArg (_ + ·) ?_
  exact slabSum_apply (a := 4) (b := 64) (c := 1024) (mulf v3 v3) _ _ _ _ _ _ b (0 : Fin 1)

theorem pay17_apply (v22 : Vec Ideal S4x96x1024 .f32) (b : Fin 4) :
    k0_pay17 (F := Ideal) v22 (ix2 b (0 : Fin 1)) = tot v22 b := by
  unfold k0_pay17 k0_pay16 tot
  simp only [shapeCast_self]
  exact slabSum_apply (a := 4) (b := 96) (c := 1024) v22 _ _ _ _ _ _ b (0 : Fin 1)

theorem pay18_apply (v22 : Vec Ideal S4x96x1024 .f32) (b : Fin 4) :
    k0_pay18 (F := Ideal) v22 (ix2 b (0 : Fin 1)) = totsq v22 b := by
  unfold k0_pay18 k0_pay16 totsq
  simp only [shapeCast_self]
  exact slabSum_apply (a := 4) (b := 96) (c := 1024) (mulf v22 v22) _ _ _ _ _ _ b (0 : Fin 1)

theorem pay19_apply (v26 : FVec Ideal S4x1 .f32) (v31 : Vec Ideal S4x1 .f32) (b : Fin 4) :
    k0_pay19 (F := Ideal) v26 v31 (ix2 b (0 : Fin 1)) = v31 (ix2 b (0 : Fin 1)) + v26 (ix2 b (0 : Fin 1)) := by
  unfold k0_pay19
  simp only [shapeCast_self, addf_apply]

theorem pay20_apply (v30 : FVec Ideal S4x1 .f32) (v36 : Vec Ideal S4x1 .f32) (b : Fin 4) :
    k0_pay20 (F := Ideal) v30 v36 (ix2 b (0 : Fin 1)) = v36 (ix2 b (0 : Fin 1)) + v30 (ix2 b (0 : Fin 1)) := by
  unfold k0_pay20
  simp only [shapeCast_self, addf_apply]

theorem pay22_apply (v41 : Vec Ideal S4x80x1024 .f32) (v50 : Vec Ideal S4x1 .f32) (b : Fin 4) :
    k0_pay22 (F := Ideal) v41 v50 (ix2 b (0 : Fin 1)) = v50 (ix2 b (0 : Fin 1)) + tot v41 b := by
  unfold k0_pay22 k0_pay21 tot
  simp only [shapeCast_self, addf_apply]
  refine congrArg (_ + ·) ?_
  exact slabSum_apply (a := 4) (b := 80) (c := 1024) v41 _ _ _ _ _ _ b (0 : Fin 1)

theorem pay23_apply (v41 : Vec Ideal S4x80x1024 .f32) (v55 : Vec Ideal S4x1 .f32) (b : Fin 4) :
    k0_pay23 (F := Ideal) v41 v55 (ix2 b (0 : Fin 1)) = v55 (ix2 b (0 : Fin 1)) + totsq v41 b := by
  unfold k0_pay23 k0_pay21 totsq
  simp only [shapeCast_self, addf_apply]
  refine congrArg (_ + ·) ?_
  exact slabSum_apply (a := 4) (b := 80) (c := 1024) (mulf v41 v41) _ _ _ _ _ _ b (0 : Fin 1)

theorem pay24_eq (v60 : Vec Ideal S4x56x1024 .f32) : k0_pay24 (F := Ideal) v60 = v60 := by
  unfold k0_pay24
  simp only [shapeCast_self]

theorem pay1_apply (v61 : FVec Ideal S4x56x1024 .f32) (v69 : Vec Ideal S4x1 .f32) (b : Fin 4) :
    k0_pay1 (F := Ideal) v61 v69 (ix2 b (0 : Fin 1)) = v69 (ix2 b (0 : Fin 1)) + tot v61 b := by
  unfold k0_pay1 tot
  simp only [shapeCast_self, addf_apply]
  refine congrArg (_ + ·) ?_
  exact slabSum_apply (a := 4) (b := 56) (c := 1024) v61 _ _ _ _ _ _ b (0 : Fin 1)

theorem pay2_apply (v61 : FVec Ideal S4x56x1024 .f32) (v74 : Vec Ideal S4x1 .f32) (b : Fin 4) :
    k0_pay2 (F := Ideal) v61 v74 (ix2 b (0 : Fin 1)) = v74 (ix2 b (0 : Fin 1)) + totsq v61 b := by
  unfold k0_pay2 totsq
  simp only [shapeCast_self, addf_apply]
  refine congrArg (_ + ·) ?_
  exact slabSum_apply (a := 4) (b := 56) (c := 1024) (mulf v61 v61) _ _ _ _ _ _ b (0 : Fin 1)

/-! ## The zero fill and the last point's outputs: pointwise, so by unfolding -/

theorem pay11_apply (i : S4x4.Idx) : k0_pay11 (F := Ideal) i = Ideal.ofBits .f32 0x00000000#32 := by
  unfold k0_pay11
  simp only [shapeCast_self]
  rfl

theorem pay12_apply (i : S4x4.Idx) : k0_pay12 (F := Ideal) i = Ideal.ofBits .f32 0x00000000#32 := by
  unfold k0_pay12
  simp only [shapeCast_self]
  rfl

theorem pay6_apply (v82 : Vec Ideal S4x1 .f32) (i : S4x1.Idx) :
    k0_pay6 (F := Ideal) v82 i = Ideal.div (v82 i) (Ideal.ofBits .f32 0x4A000000#32) := rfl

theorem pay7_apply (v82 v83 : Vec Ideal S4x1 .f32) (i : S4x1.Idx) :
    k0_pay7 (F := Ideal) v82 v83 i
      = Ideal.rsqrt (Ideal.div (v83 i) (Ideal.ofBits .f32 0x4A000000#32)
          - Ideal.div (v82 i) (Ideal.ofBits .f32 0x4A000000#32) * Ideal.div (v82 i) (Ideal.ofBits .f32 0x4A000000#32)
          + Ideal.ofBits .f32 0x3727C5AC#32) := rfl

theorem pay8_apply (v95 : Vec Ideal S4x1 .f32) (i : S4x1.Idx) :
    k0_pay8 (F := Ideal) v95 i = Ideal.div (v95 i) (Ideal.ofBits .f32 0x49800000#32) := rfl

theorem pay9_apply (v96 : Vec Ideal S4x1 .f32) (i : S4x1.Idx) :
    k0_pay9 (F := Ideal) v96 i = Ideal.rsqrt (Ideal.div (v96 i) (Ideal.ofBits .f32 0x49800000#32) + Ideal.ofBits .f32 0x3727C5AC#32) := rfl

theorem pay10_apply (v106 : Vec Ideal S4x1 .f32) (i : S4x1.Idx) :
    k0_pay10 (F := Ideal) v106 i = Ideal.div (v106 i) (Ideal.ofBits .f32 0x49000000#32) := rfl

theorem pay3_apply (v107 : Vec Ideal S4x1 .f32) (i : S4x1.Idx) :
    k0_pay3 (F := Ideal) v107 (FloatOps.ofBits FTy.f32 0x49000000#32) i
      = Ideal.rsqrt (Ideal.div (v107 i) (Ideal.ofBits .f32 0x49000000#32) + Ideal.ofBits .f32 0x3727C5AC#32) := rfl

theorem pay4_apply (v117 : Vec Ideal S4x1 .f32) (i : S4x1.Idx) :
    k0_pay4 (F := Ideal) v117 i = Ideal.div (v117 i) (Ideal.ofBits .f32 0x48800000#32) := rfl

theorem pay5_apply (v118 : Vec Ideal S4x1 .f32) (i : S4x1.Idx) :
    k0_pay5 (F := Ideal) v118 i = Ideal.rsqrt (Ideal.div (v118 i) (Ideal.ofBits .f32 0x48800000#32) + Ideal.ofBits .f32 0x3727C5AC#32) := rfl

end Cert.KernelIdeal.Pay

end
-- ==== Proof.Cols.lean ====
/-
  A 4 x 4 buffer written one column at a time. Column g is the unit rectangle of sizes [4, 1] at offsets [0, g];
  its local index (b, 0) is the buffer's index (b, g). After four column stores (last first: columns 3, 2, 1, 0),
  whatever was stored before them, the buffer holds at (b, g) what the store into column g put at (b, 0). A load of
  column g from whole contents reads them at (b, g).
-/
import Idealize.ShloMosaic.Lib.Pipeline.Value
import Idealize.ShloMosaic.Lib.ValueIdx

noncomputable section

namespace Cert.Cols

open Idealize.ShloMosaic Idealize.ShloMosaic.ValueIdx

abbrev S44 : Shape := ⟨2, ![4, 4]⟩
abbrev S41 : Shape := ⟨2, ![4, 1]⟩

/-- Column g of the 4 x 4 shape. -/
abbrev col (g : Fin 4) (inb : ∀ a, (![0, g.val] : Fin 2 → ℕ) a + S41.size a ≤ S44.size a) : Rect S44 :=
  Rect.unit (s := S44) ![0, g.val] S41.size inb

/-- Local index (b, 0) of column g is index (b, g). -/
theorem col_idx (g : Fin 4) (inb) (b : Fin 4) : (col g inb).idx (ix2 b (0 : Fin 1)) = ix2 b g := by
  funext a
  apply Fin.ext
  match a with
  | ⟨0, _⟩ => show 0 + 1 * b.val = b.val; omega
  | ⟨1, _⟩ => show g.val + 1 * 0 = g.val; omega

/-- Index (b, g') lies in column g exactly when g' = g. -/
theorem mem_col (g g' : Fin 4) (inb) (b : Fin 4) : (ix2 b g' : S44.Idx) ∈ (col g inb).set ↔ g' = g := by
  rw [Rect.mem_set_unit]
  constructor
  · intro h
    have h1 := h 1
    apply Fin.ext
    have e1 : ((ix2 b g' : S44.Idx) 1 : ℕ) = g'.val := rfl
    have o1 : (![0, g.val] : Fin 2 → ℕ) 1 = g.val := rfl
    have s1 : S41.size 1 = 1 := rfl
    rw [e1, o1, s1] at h1
    omega
  · rintro rfl a
    match a with
    | ⟨0, _⟩ =>
      have e0 : ((ix2 b g' : S44.Idx) ⟨0, by decide⟩ : ℕ) = b.val := rfl
      have o0 : (![0, g'.val] : Fin 2 → ℕ) ⟨0, by decide⟩ = 0 := rfl
      have s0 : S41.size ⟨0, by decide⟩ = 4 := rfl
      rw [e0, o0, s0]; have := b.isLt; omega
    | ⟨1, _⟩ =>
      have e1 : ((ix2 b g' : S44.Idx) ⟨1, by decide⟩ : ℕ) = g'.val := rfl
      have o1 : (![0, g'.val] : Fin 2 → ℕ) ⟨1, by decide⟩ = g'.val := rfl
      have s1 : S41.size ⟨1, by decide⟩ = 1 := rfl
      rw [e1, o1, s1]; omega

variable {Val : EltTy → Type} [∀ e, Nonempty (Val e)] {e : EltTy}

/-- Under a store into column g, the buffer holds at (b, g) the store's payload at (b, 0). -/
theorem canon_hit (g : Fin 4) (inb) (w : S41.Idx → Val e) (L : List (View.Piece Val S44 e)) (b : Fin 4) :
    View.canon ((⟨col g inb, w⟩ : View.Piece Val S44 e) :: L) (ix2 b g) = w (ix2 b (0 : Fin 1)) := by
  have h := View.canon_cons_emb (Val := Val) (col g inb) w L (ix2 b (0 : Fin 1))
  rw [show (col g inb).emb (ix2 b (0 : Fin 1)) = (col g inb).idx (ix2 b (0 : Fin 1)) from rfl, col_idx] at h
  exact h

/-- A store into another column leaves (b, g) as it was. -/
theorem canon_miss (g g' : Fin 4) (hne : g ≠ g') (inb) (w : S41.Idx → Val e) (L : List (View.Piece Val S44 e)) (b : Fin 4) :
    View.canon ((⟨col g' inb, w⟩ : View.Piece Val S44 e) :: L) (ix2 b g) = View.canon L (ix2 b g) :=
  View.canon_cons_of_not_mem _ L (fun hm => hne ((mem_col g' g inb b).mp hm))

end Cert.Cols

end
-- ==== Proof.ValsBase.lean ====
/-
  What the statistics body leaves in its accumulators and outputs, entry by entry. With the block of the flattened
  input at a point written x0, the group total gtot x0 off md b is the sum of the block's entries over the group's
  md channels (from channel off) and the block's 1024 positions, in batch row b; gtotsq sums the squares. At a middle
  or last point each accumulator entry (b, g) becomes its old value plus the block's total for group g; at the first
  point the old value is the zero word. At the last point output entry (b, g) is computed from the two accumulator
  entries (b, g) as just updated.
-/
import proofs.«181770_j18743237280237_1_alg».proof.Proof.StatsBodyIdeal
import proofs.«181770_j18743237280237_1_alg».proof.Proof.StatsPay
import proofs.«181770_j18743237280237_1_alg».proof.Proof.Cols

set_option maxRecDepth 16384

noncomputable section

namespace Cert.KernelIdeal.Vals

open Cert.KernelIdeal Cert.KernelIdeal.Gen Cert.KernelIdeal.Hand Cert.KernelIdeal.Pay
open Idealize.ShloMosaic Idealize.ShloMosaic.TcCoe Idealize.ShloMosaic.Tactic Idealize.ShloMosaic.ValueIdx Idealize.SL.Sem

abbrev SB3 : Shape := ⟨3, ![4, 296, 1024]⟩

/-- The block's total over a group's channels and the block's positions. -/
def gtot (x0 : SB3.Idx → EReal) (off md : ℕ) (h : off + md ≤ 296) (b : Fin 4) : EReal :=
  ∑ q : Fin md, ∑ k : Fin 1024, x0 (ix3 b ⟨off + q.val, by have := q.isLt; omega⟩ k)
def gtotsq (x0 : SB3.Idx → EReal) (off md : ℕ) (h : off + md ≤ 296) (b : Fin 4) : EReal :=
  ∑ q : Fin md, ∑ k : Fin 1024, x0 (ix3 b ⟨off + q.val, by have := q.isLt; omega⟩ k) * x0 (ix3 b ⟨off + q.val, by have := q.isLt; omega⟩ k)

/-- Local index (b, q, k) of the slab of md channels from channel off is index (b, off + q, k) of the block. -/
theorem slab_idx (off md : ℕ) (h : off + md ≤ 296)
    (inb : ∀ a, (![0, off, 0] : Fin 3 → ℕ) a + (![4, md, 1024] : Fin 3 → ℕ) a ≤ SB3.size a) (b : Fin 4) (q : Fin md) (k : Fin 1024) :
    (Rect.unit (s := SB3) ![0, off, 0] ![4, md, 1024] inb).idx (ix3 b q k) = ix3 b ⟨off + q.val, by have := q.isLt; omega⟩ k := by
  funext a
  apply Fin.ext
  match a with
  | ⟨0, _⟩ => show 0 + 1 * b.val = b.val; omega
  | ⟨1, _⟩ => show off + 1 * q.val = off + q.val; omega
  | ⟨2, _⟩ => show 0 + 1 * k.val = k.val; omega

theorem tot_ld (x0 : Vec Ideal S4x296x1024 .f32) (off md : ℕ) (h : off + md ≤ 296)
    (inb : ∀ a, (![0, off, 0] : Fin 3 → ℕ) a + (![4, md, 1024] : Fin 3 → ℕ) a ≤ SB3.size a) (b : Fin 4) :
    tot (md := md) (View.ld (Val := Elt Ideal) x0 (Rect.unit (s := SB3) ![0, off, 0] ![4, md, 1024] inb)) b = gtot x0 off md h b := by
  unfold tot gtot
  refine Finset.sum_congr rfl fun q _ => Finset.sum_congr rfl fun k _ => ?_
  show x0 ((Rect.unit (s := SB3) ![0, off, 0] ![4, md, 1024] inb).idx (ix3 b q k)) = _
  rw [slab_idx off md h inb b q k]

theorem totsq_ld (x0 : Vec Ideal S4x296x1024 .f32) (off md : ℕ) (h : off + md ≤ 296)
    (inb : ∀ a, (![0, off, 0] : Fin 3 → ℕ) a + (![4, md, 1024] : Fin 3 → ℕ) a ≤ SB3.size a) (b : Fin 4) :
    totsq (md := md) (View.ld (Val := Elt Ideal) x0 (Rect.unit (s := SB3) ![0, off, 0] ![4, md, 1024] inb)) b = gtotsq x0 off md h b := by
  unfold totsq gtotsq
  refine Finset.sum_congr rfl fun q _ => Finset.sum_congr rfl fun k _ => ?_
  show x0 ((Rect.unit (s := SB3) ![0, off, 0] ![4, md, 1024] inb).idx (ix3 b q k)) * x0 ((Rect.unit (s := SB3) ![0, off, 0] ![4, md, 1024] inb).idx (ix3 b q k)) = _
  rw [slab_idx off md h inb b q k]

/-- A load of column g reads the contents at (b, g). -/
theorem ld_col (X : Vec Ideal S4x4 .f32) (g : Fin 4) (inb) (b : Fin 4) :
    View.ld (Val := Elt Ideal) X (Cert.Cols.col g inb) (ix2 b (0 : Fin 1)) = X (ix2 b g) := by
  show X ((Cert.Cols.col g inb).idx (ix2 b (0 : Fin 1))) = _
  rw [Cert.Cols.col_idx]

theorem hz2 : (![0, 0] : Fin 2 → ℕ) = fun _ => 0 := funext fun a => by fin_cases a <;> rfl

theorem g0 : 0 + 64 ≤ 296 := by decide
theorem g1 : 64 + 96 ≤ 296 := by decide
theorem g2 : 160 + 80 ≤ 296 := by decide
theorem g3 : 240 + 56 ≤ 296 := by decide

end Cert.KernelIdeal.Vals

end
-- ==== Proof.ValsC.lean ====
/-
  The accumulators after the body at the last grid point, entry by entry: entry (b, g) of the sum accumulator is
  its old value plus the block's total for group g, and the same for the sum of squares.
-/
import proofs.«181770_j18743237280237_1_alg».proof.Proof.ValsBase

set_option maxRecDepth 16384

noncomputable section

namespace Cert.KernelIdeal.Vals

open Cert.KernelIdeal Cert.KernelIdeal.Gen Cert.KernelIdeal.Hand Cert.KernelIdeal.Pay
open Idealize.ShloMosaic Idealize.ShloMosaic.TcCoe Idealize.ShloMosaic.Tactic Idealize.ShloMosaic.ValueIdx Idealize.SL.Sem

variable (c : Dev nD) (t : Fin cfg0.N) (hc0 : ¬cond0_0 (grid0.coords t)) (hc1 : cond0_1 (grid0.coords t)) (x0 : Vec Ideal S4x296x1024 .f32) (xs0 xs1 : Vec Ideal S4x4 .f32)

theorem sC0_0 (b : Fin 4) : sout0_C_0 (F := Ideal) c t hc0 hc1 x0 xs0 xs1 (ix2 b (0 : Fin 4)) = xs0 (ix2 b (0 : Fin 4)) + gtot x0 0 64 g0 b := by
  unfold sout0_C_0
  rw [View.read_writes_eq_canon _ _ _ (scover0_C_0 c t hc0 hc1 x0 xs0 xs1)]
  unfold runC kernelRun0_C
  dsimp only
  sl_unfold_words
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay14_apply]
  simp only [View.readAt_eq_ld, (hs0_0 t).read_unread, (Memref.isWhole_whole cc0_scratch0).read_unread]
  exact congrArg₂ (· + ·) (ld_col xs0 0 _ b) (tot_ld x0 0 64 g0 _ b)

theorem sC0_1 (b : Fin 4) : sout0_C_0 (F := Ideal) c t hc0 hc1 x0 xs0 xs1 (ix2 b (1 : Fin 4)) = xs0 (ix2 b (1 : Fin 4)) + gtot x0 64 96 g1 b := by
  unfold sout0_C_0
  rw [View.read_writes_eq_canon _ _ _ (scover0_C_0 c t hc0 hc1 x0 xs0 xs1)]
  unfold runC kernelRun0_C
  dsimp only
  sl_unfold_words
  refine (Cert.Cols.canon_miss 1 3 (by decide) _ _ _ b).trans ?_
  refine (Cert.Cols.canon_miss 1 2 (by decide) _ _ _ b).trans ?_
  refine (Cert.Cols.canon_hit 1 _ _ _ b).trans ?_
  rw [pay19_apply, pay17_apply]
  simp only [View.readAt_eq_ld, (hs0_0 t).read_unread, (Memref.isWhole_whole cc0_scratch0).read_unread]
  exact congrArg₂ (· + ·) (ld_col xs0 1 _ b) (tot_ld x0 64 96 g1 _ b)

theorem sC0_2 (b : Fin 4) : sout0_C_0 (F := Ideal) c t hc0 hc1 x0 xs0 xs1 (ix2 b (2 : Fin 4)) = xs0 (ix2 b (2 : Fin 4)) + gtot x0 160 80 g2 b := by
  unfold sout0_C_0
  rw [View.read_writes_eq_canon _ _ _ (scover0_C_0 c t hc0 hc1 x0 xs0 xs1)]
  unfold runC kernelRun0_C
  dsimp only
  sl_unfold_words
  refine (Cert.Cols.canon_miss 2 3 (by decide) _ _ _ b).trans ?_
  refine (Cert.Cols.canon_hit 2 _ _ _ b).trans ?_
  rw [pay22_apply]
  simp only [View.readAt_eq_ld, (hs0_0 t).read_unread, (Memref.isWhole_whole cc0_scratch0).read_unread]
  exact congrArg₂ (· + ·) (ld_col xs0 2 _ b) (tot_ld x0 160 80 g2 _ b)

theorem sC0_3 (b : Fin 4) : sout0_C_0 (F := Ideal) c t hc0 hc1 x0 xs0 xs1 (ix2 b (3 : Fin 4)) = xs0 (ix2 b (3 : Fin 4)) + gtot x0 240 56 g3 b := by
  unfold sout0_C_0
  rw [View.read_writes_eq_canon _ _ _ (scover0_C_0 c t hc0 hc1 x0 xs0 xs1)]
  unfold runC kernelRun0_C
  dsimp only
  sl_unfold_words
  refine (Cert.Cols.canon_hit 3 _ _ _ b).trans ?_
  rw [pay1_apply, pay24_eq]
  simp only [View.readAt_eq_ld, (hs0_0 t).read_unread, (Memref.isWhole_whole cc0_scratch0).read_unread]
  exact congrArg₂ (· + ·) (ld_col xs0 3 _ b) (tot_ld x0 240 56 g3 _ b)

theorem sC1_0 (b : Fin 4) : sout0_C_1 (F := Ideal) c t hc0 hc1 x0 xs0 xs1 (ix2 b (0 : Fin 4)) = xs1 (ix2 b (0 : Fin 4)) + gtotsq x0 0 64 g0 b := by
  unfold sout0_C_1
  rw [View.read_writes_eq_canon _ _ _ (scover0_C_1 c t hc0 hc1 x0 xs0 xs1)]
  unfold runC kernelRun0_C
  dsimp only
  sl_unfold_words
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay15_apply]
  simp only [View.readAt_eq_ld, (hs0_0 t).read_unread, (Memref.isWhole_whole cc0_scratch1).read_unread]
  exact congrArg₂ (· + ·) (ld_col xs1 0 _ b) (totsq_ld x0 0 64 g0 _ b)

theorem sC1_1 (b : Fin 4) : sout0_C_1 (F := Ideal) c t hc0 hc1 x0 xs0 xs1 (ix2 b (1 : Fin 4)) = xs1 (ix2 b (1 : Fin 4)) + gtotsq x0 64 96 g1 b := by
  unfold sout0_C_1
  rw [View.read_writes_eq_canon _ _ _ (scover0_C_1 c t hc0 hc1 x0 xs0 xs1)]
  unfold runC kernelRun0_C
  dsimp only
  sl_unfold_words
  refine (Cert.Cols.canon_miss 1 3 (by decide) _ _ _ b).trans ?_
  refine (Cert.Cols.canon_miss 1 2 (by decide) _ _ _ b).trans ?_
  refine (Cert.Cols.canon_hit 1 _ _ _ b).trans ?_
  rw [pay20_apply, pay18_apply]
  simp only [View.readAt_eq_ld, (hs0_0 t).read_unread, (Memref.isWhole_whole cc0_scratch1).read_unread]
  exact congrArg₂ (· + ·) (ld_col xs1 1 _ b) (totsq_ld x0 64 96 g1 _ b)

theorem sC1_2 (b : Fin 4) : sout0_C_1 (F := Ideal) c t hc0 hc1 x0 xs0 xs1 (ix2 b (2 : Fin 4)) = xs1 (ix2 b (2 : Fin 4)) + gtotsq x0 160 80 g2 b := by
  unfold sout0_C_1
  rw [View.read_writes_eq_canon _ _ _ (scover0_C_1 c t hc0 hc1 x0 xs0 xs1)]
  unfold runC kernelRun0_C
  dsimp only
  sl_unfold_words
  refine (Cert.Cols.canon_miss 2 3 (by decide) _ _ _ b).trans ?_
  refine (Cert.Cols.canon_hit 2 _ _ _ b).trans ?_
  rw [pay23_apply]
  simp only [View.readAt_eq_ld, (hs0_0 t).read_unread, (Memref.isWhole_whole cc0_scratch1).read_unread]
  exact congrArg₂ (· + ·) (ld_col xs1 2 _ b) (totsq_ld x0 160 80 g2 _ b)

theorem sC1_3 (b : Fin 4) : sout0_C_1 (F := Ideal) c t hc0 hc1 x0 xs0 xs1 (ix2 b (3 : Fin 4)) = xs1 (ix2 b (3 : Fin 4)) + gtotsq x0 240 56 g3 b := by
  unfold sout0_C_1
  rw [View.read_writes_eq_canon _ _ _ (scover0_C_1 c t hc0 hc1 x0 xs0 xs1)]
  unfold runC kernelRun0_C
  dsimp only
  sl_unfold_words
  refine (Cert.Cols.canon_hit 3 _ _ _ b).trans ?_
  rw [pay2_apply, pay24_eq]
  simp only [View.readAt_eq_ld, (hs0_0 t).read_unread, (Memref.isWhole_whole cc0_scratch1).read_unread]
  exact congrArg₂ (· + ·) (ld_col xs1 3 _ b) (totsq_ld x0 240 56 g3 _ b)

end Cert.KernelIdeal.Vals

end
-- ==== Proof.ValsOut.lean ====
/-
  The two outputs after the body at the last grid point, entry by entry. Entry (b, g) of the first is the updated
  sum accumulator entry divided by the group's size: the group mean. Entry (b, g) of the second is the reciprocal
  root of the updated sum-of-squares entry divided by the group's size (less the squared mean, for the first group),
  plus epsilon.
-/
import proofs.«181770_j18743237280237_1_alg».proof.Proof.ValsC

set_option maxRecDepth 16384

noncomputable section

namespace Cert.KernelIdeal.Vals

open Cert.KernelIdeal Cert.KernelIdeal.Gen Cert.KernelIdeal.Hand Cert.KernelIdeal.Pay
open Idealize.ShloMosaic Idealize.ShloMosaic.TcCoe Idealize.ShloMosaic.Tactic Idealize.ShloMosaic.ValueIdx Idealize.SL.Sem

variable (c : Dev nD) (t : Fin cfg0.N) (hc0 : ¬cond0_0 (grid0.coords t)) (hc1 : cond0_1 (grid0.coords t)) (x0 : Vec Ideal S4x296x1024 .f32) (xs0 xs1 : Vec Ideal S4x4 .f32)

theorem oC1_0 (b : Fin 4) : out0_C_1 (F := Ideal) c t hc0 hc1 x0 xs0 xs1 (ix2 b (0 : Fin 4))
    = Ideal.div (xs0 (ix2 b (0 : Fin 4)) + gtot x0 0 64 g0 b) (Ideal.ofBits .f32 0x4A000000#32) := by
  unfold out0_C_1
  rw [View.read_writes_eq_canon _ _ _ (cover0_C_1 c t hc0 hc1 x0 xs0 xs1)]
  unfold runC kernelRun0_C
  dsimp only
  sl_unfold_words
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay6_apply]
  rw [View.readCov_eq_canon']
  refine congrArg (fun z => Ideal.div z _) ?_
  show View.canon _ ((Cert.Cols.col 0 _).idx (ix2 b (0 : Fin 1))) = _
  rw [Cert.Cols.col_idx]
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay14_apply]
  simp only [View.readAt_eq_ld, (hs0_0 t).read_unread, (Memref.isWhole_whole cc0_scratch0).read_unread]
  exact congrArg₂ (· + ·) (ld_col xs0 0 _ b) (tot_ld x0 0 64 g0 _ b)

theorem oC1_1 (b : Fin 4) : out0_C_1 (F := Ideal) c t hc0 hc1 x0 xs0 xs1 (ix2 b (1 : Fin 4))
    = Ideal.div (xs0 (ix2 b (1 : Fin 4)) + gtot x0 64 96 g1 b) (Ideal.ofBits .f32 0x49800000#32) := by
  unfold out0_C_1
  rw [View.read_writes_eq_canon _ _ _ (cover0_C_1 c t hc0 hc1 x0 xs0 xs1)]
  unfold runC kernelRun0_C
  dsimp only
  sl_unfold_words
  refine (Cert.Cols.canon_miss 1 3 (by decide) _ _ _ b).trans ?_
  refine (Cert.Cols.canon_miss 1 2 (by decide) _ _ _ b).trans ?_
  refine (Cert.Cols.canon_hit 1 _ _ _ b).trans ?_
  rw [pay8_apply]
  rw [View.readCov_eq_canon']
  refine congrArg (fun z => Ideal.div z _) ?_
  show View.canon _ ((Cert.Cols.col 1 _).idx (ix2 b (0 : Fin 1))) = _
  rw [Cert.Cols.col_idx]
  refine (Cert.Cols.canon_miss 1 3 (by decide) _ _ _ b).trans ?_
  refine (Cert.Cols.canon_miss 1 2 (by decide) _ _ _ b).trans ?_
  refine (Cert.Cols.canon_hit 1 _ _ _ b).trans ?_
  rw [pay19_apply, pay17_apply]
  simp only [View.readAt_eq_ld, (hs0_0 t).read_unread, (Memref.isWhole_whole cc0_scratch0).read_unread]
  exact congrArg₂ (· + ·) (ld_col xs0 1 _ b) (tot_ld x0 64 96 g1 _ b)

theorem oC1_2 (b : Fin 4) : out0_C_1 (F := Ideal) c t hc0 hc1 x0 xs0 xs1 (ix2 b (2 : Fin 4))
    = Ideal.div (xs0 (ix2 b (2 : Fin 4)) + gtot x0 160 80 g2 b) (Ideal.ofBits .f32 0x49000000#32) := by
  unfold out0_C_1
  rw [View.read_writes_eq_canon _ _ _ (cover0_C_1 c t hc0 hc1 x0 xs0 xs1)]
  unfold runC kernelRun0_C
  dsimp only
  sl_unfold_words
  refine (Cert.Cols.canon_miss 2 3 (by decide) _ _ _ b).trans ?_
  refine (Cert.Cols.canon_hit 2 _ _ _ b).trans ?_
  rw [pay10_apply]
  rw [View.readCov_eq_canon']
  refine congrArg (fun z => Ideal.div z _) ?_
  show View.canon _ ((Cert.Cols.col 2 _).idx (ix2 b (0 : Fin 1))) = _
  rw [Cert.Cols.col_idx]
  refine (Cert.Cols.canon_miss 2 3 (by decide) _ _ _ b).trans ?_
  refine (Cert.Cols.canon_hit 2 _ _ _ b).trans ?_
  rw [pay22_apply]
  simp only [View.readAt_eq_ld, (hs0_0 t).read_unread, (Memref.isWhole_whole cc0_scratch0).read_unread]
  exact congrArg₂ (· + ·) (ld_col xs0 2 _ b) (tot_ld x0 160 80 g2 _ b)

theorem oC1_3 (b : Fin 4) : out0_C_1 (F := Ideal) c t hc0 hc1 x0 xs0 xs1 (ix2 b (3 : Fin 4))
    = Ideal.div (xs0 (ix2 b (3 : Fin 4)) + gtot x0 240 56 g3 b) (Ideal.ofBits .f32 0x48800000#32) := by
  unfold out0_C_1
  rw [View.read_writes_eq_canon _ _ _ (cover0_C_1 c t hc0 hc1 x0 xs0 xs1)]
  unfold runC kernelRun0_C
  dsimp only
  sl_unfold_words
  refine (Cert.Cols.canon_hit 3 _ _ _ b).trans ?_
  rw [pay4_apply]
  rw [View.readCov_eq_canon']
  refine congrArg (fun z => Ideal.div z _) ?_
  show View.canon _ ((Cert.Cols.col 3 _).idx (ix2 b (0 : Fin 1))) = _
  rw [Cert.Cols.col_idx]
  refine (Cert.Cols.canon_hit 3 _ _ _ b).trans ?_
  rw [pay1_apply, pay24_eq]
  simp only [View.readAt_eq_ld, (hs0_0 t).read_unread, (Memref.isWhole_whole cc0_scratch0).read_unread]
  exact congrArg₂ (· + ·) (ld_col xs0 3 _ b) (tot_ld x0 240 56 g3 _ b)

theorem oC2_0 (b : Fin 4) : out0_C_2 (F := Ideal) c t hc0 hc1 x0 xs0 xs1 (ix2 b (0 : Fin 4))
    = Ideal.rsqrt (Ideal.div (xs1 (ix2 b (0 : Fin 4)) + gtotsq x0 0 64 g0 b) (Ideal.ofBits .f32 0x4A000000#32)
        - Ideal.div (xs0 (ix2 b (0 : Fin 4)) + gtot x0 0 64 g0 b) (Ideal.ofBits .f32 0x4A000000#32)
          * Ideal.div (xs0 (ix2 b (0 : Fin 4)) + gtot x0 0 64 g0 b) (Ideal.ofBits .f32 0x4A000000#32)
        + Ideal.ofBits .f32 0x3727C5AC#32) := by
  unfold out0_C_2
  rw [View.read_writes_eq_canon _ _ _ (cover0_C_2 c t hc0 hc1 x0 xs0 xs1)]
  unfold runC kernelRun0_C
  dsimp only
  sl_unfold_words
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay7_apply]
  simp only [View.readCov_eq_canon']
  refine congrArg Ideal.rsqrt (congrArg (· + _) (congrArg₂ (· - ·) (congrArg (fun z => Ideal.div z _) ?_)
    (congrArg₂ (· * ·) (congrArg (fun z => Ideal.div z _) ?_) (congrArg (fun z => Ideal.div z _) ?_))))
  ·
    show View.canon _ ((Cert.Cols.col 0 _).idx (ix2 b (0 : Fin 1))) = _
    rw [Cert.Cols.col_idx]
    refine (Cert.Cols.canon_miss 0 3 (by decide) _ _ _ b).trans ?_
    refine (Cert.Cols.canon_miss 0 2 (by decide) _ _ _ b).trans ?_
    refine (Cert.Cols.canon_miss 0 1 (by decide) _ _ _ b).trans ?_
    refine (Cert.Cols.canon_hit 0 _ _ _ b).trans ?_
    rw [pay15_apply]
    simp only [View.readAt_eq_ld, (hs0_0 t).read_unread, (Memref.isWhole_whole cc0_scratch1).read_unread]
    exact congrArg₂ (· + ·) (ld_col xs1 0 _ b) (totsq_ld x0 0 64 g0 _ b)
  ·
    show View.canon _ ((Cert.Cols.col 0 _).idx (ix2 b (0 : Fin 1))) = _
    rw [Cert.Cols.col_idx]
    refine (Cert.Cols.canon_miss 0 3 (by decide) _ _ _ b).trans ?_
    refine (Cert.Cols.canon_miss 0 2 (by decide) _ _ _ b).trans ?_
    refine (Cert.Cols.canon_miss 0 1 (by decide) _ _ _ b).trans ?_
    refine (Cert.Cols.canon_hit 0 _ _ _ b).trans ?_
    rw [pay14_apply]
    simp only [View.readAt_eq_ld, (hs0_0 t).read_unread, (Memref.isWhole_whole cc0_scratch0).read_unread]
    exact congrArg₂ (· + ·) (ld_col xs0 0 _ b) (tot_ld x0 0 64 g0 _ b)
  ·
    show View.canon _ ((Cert.Cols.col 0 _).idx (ix2 b (0 : Fin 1))) = _
    rw [Cert.Cols.col_idx]
    refine (Cert.Cols.canon_miss 0 3 (by decide) _ _ _ b).trans ?_
    refine (Cert.Cols.canon_miss 0 2 (by decide) _ _ _ b).trans ?_
    refine (Cert.Cols.canon_miss 0 1 (by decide) _ _ _ b).trans ?_
    refine (Cert.Cols.canon_hit 0 _ _ _ b).trans ?_
    rw [pay14_apply]
    simp only [View.readAt_eq_ld, (hs0_0 t).read_unread, (Memref.isWhole_whole cc0_scratch0).read_unread]
    exact congrArg₂ (· + ·) (ld_col xs0 0 _ b) (tot_ld x0 0 64 g0 _ b)

theorem oC2_1 (b : Fin 4) : out0_C_2 (F := Ideal) c t hc0 hc1 x0 xs0 xs1 (ix2 b (1 : Fin 4))
    = Ideal.rsqrt (Ideal.div (xs1 (ix2 b (1 : Fin 4)) + gtotsq x0 64 96 g1 b) (Ideal.ofBits .f32 0x49800000#32) + Ideal.ofBits .f32 0x3727C5AC#32) := by
  unfold out0_C_2
  rw [View.read_writes_eq_canon _ _ _ (cover0_C_2 c t hc0 hc1 x0 xs0 xs1)]
  unfold runC kernelRun0_C
  dsimp only
  sl_unfold_words
  refine (Cert.Cols.canon_miss 1 3 (by decide) _ _ _ b).trans ?_
  refine (Cert.Cols.canon_miss 1 2 (by decide) _ _ _ b).trans ?_
  refine (Cert.Cols.canon_hit 1 _ _ _ b).trans ?_
  rw [pay9_apply]
  rw [View.readCov_eq_canon']
  refine congrArg Ideal.rsqrt (congrArg (· + _) (congrArg (fun z => Ideal.div z _) ?_))
  show View.canon _ ((Cert.Cols.col 1 _).idx (ix2 b (0 : Fin 1))) = _
  rw [Cert.Cols.col_idx]
  refine (Cert.Cols.canon_miss 1 3 (by decide) _ _ _ b).trans ?_
  refine (Cert.Cols.canon_miss 1 2 (by decide) _ _ _ b).trans ?_
  refine (Cert.Cols.canon_hit 1 _ _ _ b).trans ?_
  rw [pay20_apply, pay18_apply]
  simp only [View.readAt_eq_ld, (hs0_0 t).read_unread, (Memref.isWhole_whole cc0_scratch1).read_unread]
  exact congrArg₂ (· + ·) (ld_col xs1 1 _ b) (totsq_ld x0 64 96 g1 _ b)

theorem oC2_2 (b : Fin 4) : out0_C_2 (F := Ideal) c t hc0 hc1 x0 xs0 xs1 (ix2 b (2 : Fin 4))
    = Ideal.rsqrt (Ideal.div (xs1 (ix2 b (2 : Fin 4)) + gtotsq x0 160 80 g2 b) (Ideal.ofBits .f32 0x49000000#32) + Ideal.ofBits .f32 0x3727C5AC#32) := by
  unfold out0_C_2
  rw [View.read_writes_eq_canon _ _ _ (cover0_C_2 c t hc0 hc1 x0 xs0 xs1)]
  unfold runC kernelRun0_C
  dsimp only
  sl_unfold_words
  refine (Cert.Cols.canon_miss 2 3 (by decide) _ _ _ b).trans ?_
  refine (Cert.Cols.canon_hit 2 _ _ _ b).trans ?_
  rw [pay3_apply]
  rw [View.readCov_eq_canon']
  refine congrArg Ideal.rsqrt (congrArg (· + _) (congrArg (fun z => Ideal.div z _) ?_))
  show View.canon _ ((Cert.Cols.col 2 _).idx (ix2 b (0 : Fin 1))) = _
  rw [Cert.Cols.col_idx]
  refine (Cert.Cols.canon_miss 2 3 (by decide) _ _ _ b).trans ?_
  refine (Cert.Cols.canon_hit 2 _ _ _ b).trans ?_
  rw [pay23_apply]
  simp only [View.readAt_eq_ld, (hs0_0 t).read_unread, (Memref.isWhole_whole cc0_scratch1).read_unread]
  exact congrArg₂ (· + ·) (ld_col xs1 2 _ b) (totsq_ld x0 160 80 g2 _ b)

theorem oC2_3 (b : Fin 4) : out0_C_2 (F := Ideal) c t hc0 hc1 x0 xs0 xs1 (ix2 b (3 : Fin 4))
    = Ideal.rsqrt (Ideal.div (xs1 (ix2 b (3 : Fin 4)) + gtotsq x0 240 56 g3 b) (Ideal.ofBits .f32 0x48800000#32) + Ideal.ofBits .f32 0x3727C5AC#32) := by
  unfold out0_C_2
  rw [View.read_writes_eq_canon _ _ _ (cover0_C_2 c t hc0 hc1 x0 xs0 xs1)]
  unfold runC kernelRun0_C
  dsimp only
  sl_unfold_words
  refine (Cert.Cols.canon_hit 3 _ _ _ b).trans ?_
  rw [pay5_apply]
  rw [View.readCov_eq_canon']
  refine congrArg Ideal.rsqrt (congrArg (· + _) (congrArg (fun z => Ideal.div z _) ?_))
  show View.canon _ ((Cert.Cols.col 3 _).idx (ix2 b (0 : Fin 1))) = _
  rw [Cert.Cols.col_idx]
  refine (Cert.Cols.canon_hit 3 _ _ _ b).trans ?_
  rw [pay2_apply, pay24_eq]
  simp only [View.readAt_eq_ld, (hs0_0 t).read_unread, (Memref.isWhole_whole cc0_scratch1).read_unread]
  exact congrArg₂ (· + ·) (ld_col xs1 3 _ b) (totsq_ld x0 240 56 g3 _ b)

end Cert.KernelIdeal.Vals

end
-- ==== Proof.ValsA.lean ====
/-
  The accumulators after the body at the first grid point, entry by entry: entry (b, g) of the sum accumulator is
  the zero word plus the block's total for group g, and the same for the sum of squares.
-/
import proofs.«181770_j18743237280237_1_alg».proof.Proof.ValsBase

set_option maxRecDepth 16384

noncomputable section

namespace Cert.KernelIdeal.Vals

open Cert.KernelIdeal Cert.KernelIdeal.Gen Cert.KernelIdeal.Hand Cert.KernelIdeal.Pay
open Idealize.ShloMosaic Idealize.ShloMosaic.TcCoe Idealize.ShloMosaic.Tactic Idealize.ShloMosaic.ValueIdx Idealize.SL.Sem

variable (c : Dev nD) (t : Fin cfg0.N) (hc0 : cond0_0 (grid0.coords t)) (hc1 : ¬cond0_1 (grid0.coords t)) (x0 : Vec Ideal S4x296x1024 .f32)

theorem sA0_0 (b : Fin 4) : sout0_A_0 (F := Ideal) c t hc0 hc1 x0 (ix2 b (0 : Fin 4)) = Ideal.ofBits .f32 0x00000000#32 + gtot x0 0 64 g0 b := by
  unfold sout0_A_0
  rw [View.read_writes_eq_canon _ _ _ (scover0_A_0 c t hc0 hc1 x0)]
  unfold runA kernelRun0_A
  dsimp only
  sl_unfold_words
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay14_apply]
  simp only [View.readAt_eq_ld, (hs0_0 t).read_unread]
  rw [View.readCov_eq_canon', tot_ld x0 0 64 g0]
  refine congrArg (· + _) ?_
  show View.canon _ ((Cert.Cols.col 0 _).idx (ix2 b (0 : Fin 1))) = _
  rw [Cert.Cols.col_idx]
  rw [View.canon_unit_zero hz2]
  exact pay11_apply _

theorem sA0_1 (b : Fin 4) : sout0_A_0 (F := Ideal) c t hc0 hc1 x0 (ix2 b (1 : Fin 4)) = Ideal.ofBits .f32 0x00000000#32 + gtot x0 64 96 g1 b := by
  unfold sout0_A_0
  rw [View.read_writes_eq_canon _ _ _ (scover0_A_0 c t hc0 hc1 x0)]
  unfold runA kernelRun0_A
  dsimp only
  sl_unfold_words
  refine (Cert.Cols.canon_miss 1 3 (by decide) _ _ _ b).trans ?_
  refine (Cert.Cols.canon_miss 1 2 (by decide) _ _ _ b).trans ?_
  refine (Cert.Cols.canon_hit 1 _ _ _ b).trans ?_
  rw [pay19_apply, pay17_apply]
  simp only [View.readAt_eq_ld, (hs0_0 t).read_unread]
  rw [View.readCov_eq_canon', tot_ld x0 64 96 g1]
  refine congrArg (· + _) ?_
  show View.canon _ ((Cert.Cols.col 1 _).idx (ix2 b (0 : Fin 1))) = _
  rw [Cert.Cols.col_idx]
  refine (Cert.Cols.canon_miss 1 0 (by decide) _ _ _ b).trans ?_
  rw [View.canon_unit_zero hz2]
  exact pay11_apply _

theorem sA0_2 (b : Fin 4) : sout0_A_0 (F := Ideal) c t hc0 hc1 x0 (ix2 b (2 : Fin 4)) = Ideal.ofBits .f32 0x00000000#32 + gtot x0 160 80 g2 b := by
  unfold sout0_A_0
  rw [View.read_writes_eq_canon _ _ _ (scover0_A_0 c t hc0 hc1 x0)]
  unfold runA kernelRun0_A
  dsimp only
  sl_unfold_words
  refine (Cert.Cols.canon_miss 2 3 (by decide) _ _ _ b).trans ?_
  refine (Cert.Cols.canon_hit 2 _ _ _ b).trans ?_
  rw [pay22_apply]
  simp only [View.readAt_eq_ld, (hs0_0 t).read_unread]
  rw [View.readCov_eq_canon', tot_ld x0 160 80 g2]
  refine congrArg (· + _) ?_
  show View.canon _ ((Cert.Cols.col 2 _).idx (ix2 b (0 : Fin 1))) = _
  rw [Cert.Cols.col_idx]
  refine (Cert.Cols.canon_miss 2 1 (by decide) _ _ _ b).trans ?_
  refine (Cert.Cols.canon_miss 2 0 (by decide) _ _ _ b).trans ?_
  rw [View.canon_unit_zero hz2]
  exact pay11_apply _

theorem sA0_3 (b : Fin 4) : sout0_A_0 (F := Ideal) c t hc0 hc1 x0 (ix2 b (3 : Fin 4)) = Ideal.ofBits .f32 0x00000000#32 + gtot x0 240 56 g3 b := by
  unfold sout0_A_0
  rw [View.read_writes_eq_canon _ _ _ (scover0_A_0 c t hc0 hc1 x0)]
  unfold runA kernelRun0_A
  dsimp only
  sl_unfold_words
  refine (Cert.Cols.canon_hit 3 _ _ _ b).trans ?_
  rw [pay1_apply, pay24_eq]
  simp only [View.readAt_eq_ld, (hs0_0 t).read_unread]
  rw [View.readCov_eq_canon', tot_ld x0 240 56 g3]
  refine congrArg (· + _) ?_
  show View.canon _ ((Cert.Cols.col 3 _).idx (ix2 b (0 : Fin 1))) = _
  rw [Cert.Cols.col_idx]
  refine (Cert.Cols.canon_miss 3 2 (by decide) _ _ _ b).trans ?_
  refine (Cert.Cols.canon_miss 3 1 (by decide) _ _ _ b).trans ?_
  refine (Cert.Cols.canon_miss 3 0 (by decide) _ _ _ b).trans ?_
  rw [View.canon_unit_zero hz2]
  exact pay11_apply _

theorem sA1_0 (b : Fin 4) : sout0_A_1 (F := Ideal) c t hc0 hc1 x0 (ix2 b (0 : Fin 4)) = Ideal.ofBits .f32 0x00000000#32 + gtotsq x0 0 64 g0 b := by
  unfold sout0_A_1
  rw [View.read_writes_eq_canon _ _ _ (scover0_A_1 c t hc0 hc1 x0)]
  unfold runA kernelRun0_A
  dsimp only
  sl_unfold_words
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay15_apply]
  simp only [View.readAt_eq_ld, (hs0_0 t).read_unread]
  rw [View.readCov_eq_canon', totsq_ld x0 0 64 g0]
  refine congrArg (· + _) ?_
  show View.canon _ ((Cert.Cols.col 0 _).idx (ix2 b (0 : Fin 1))) = _
  rw [Cert.Cols.col_idx]
  rw [View.canon_unit_zero hz2]
  exact pay12_apply _

theorem sA1_1 (b : Fin 4) : sout0_A_1 (F := Ideal) c t hc0 hc1 x0 (ix2 b (1 : Fin 4)) = Ideal.ofBits .f32 0x00000000#32 + gtotsq x0 64 96 g1 b := by
  unfold sout0_A_1
  rw [View.read_writes_eq_canon _ _ _ (scover0_A_1 c t hc0 hc1 x0)]
  unfold runA kernelRun0_A
  dsimp only
  sl_unfold_words
  refine (Cert.Cols.canon_miss 1 3 (by decide) _ _ _ b).trans ?_
  refine (Cert.Cols.canon_miss 1 2 (by decide) _ _ _ b).trans ?_
  refine (Cert.Cols.canon_hit 1 _ _ _ b).trans ?_
  rw [pay20_apply, pay18_apply]
  simp only [View.readAt_eq_ld, (hs0_0 t).read_unread]
  rw [View.readCov_eq_canon', totsq_ld x0 64 96 g1]
  refine congrArg (· + _) ?_
  show View.canon _ ((Cert.Cols.col 1 _).idx (ix2 b (0 : Fin 1))) = _
  rw [Cert.Cols.col_idx]
  refine (Cert.Cols.canon_miss 1 0 (by decide) _ _ _ b).trans ?_
  rw [View.canon_unit_zero hz2]
  exact pay12_apply _

theorem sA1_2 (b : Fin 4) : sout0_A_1 (F := Ideal) c t hc0 hc1 x0 (ix2 b (2 : Fin 4)) = Ideal.ofBits .f32 0x00000000#32 + gtotsq x0 160 80 g2 b := by
  unfold sout0_A_1
  rw [View.read_writes_eq_canon _ _ _ (scover0_A_1 c t hc0 hc1 x0)]
  unfold runA kernelRun0_A
  dsimp only
  sl_unfold_words
  refine (Cert.Cols.canon_miss 2 3 (by decide) _ _ _ b).trans ?_
  refine (Cert.Cols.canon_hit 2 _ _ _ b).trans ?_
  rw [pay23_apply]
  simp only [View.readAt_eq_ld, (hs0_0 t).read_unread]
  rw [View.readCov_eq_canon', totsq_ld x0 160 80 g2]
  refine congrArg (· + _) ?_
  show View.canon _ ((Cert.Cols.col 2 _).idx (ix2 b (0 : Fin 1))) = _
  rw [Cert.Cols.col_idx]
  refine (Cert.Cols.canon_miss 2 1 (by decide) _ _ _ b).trans ?_
  refine (Cert.Cols.canon_miss 2 0 (by decide) _ _ _ b).trans ?_
  rw [View.canon_unit_zero hz2]
  exact pay12_apply _

theorem sA1_3 (b : Fin 4) : sout0_A_1 (F := Ideal) c t hc0 hc1 x0 (ix2 b (3 : Fin 4)) = Ideal.ofBits .f32 0x00000000#32 + gtotsq x0 240 56 g3 b := by
  unfold sout0_A_1
  rw [View.read_writes_eq_canon _ _ _ (scover0_A_1 c t hc0 hc1 x0)]
  unfold runA kernelRun0_A
  dsimp only
  sl_unfold_words
  refine (Cert.Cols.canon_hit 3 _ _ _ b).trans ?_
  rw [pay2_apply, pay24_eq]
  simp only [View.readAt_eq_ld, (hs0_0 t).read_unread]
  rw [View.readCov_eq_canon', totsq_ld x0 240 56 g3]
  refine congrArg (· + _) ?_
  show View.canon _ ((Cert.Cols.col 3 _).idx (ix2 b (0 : Fin 1))) = _
  rw [Cert.Cols.col_idx]
  refine (Cert.Cols.canon_miss 3 2 (by decide) _ _ _ b).trans ?_
  refine (Cert.Cols.canon_miss 3 1 (by decide) _ _ _ b).trans ?_
  refine (Cert.Cols.canon_miss 3 0 (by decide) _ _ _ b).trans ?_
  rw [View.canon_unit_zero hz2]
  exact pay12_apply _

end Cert.KernelIdeal.Vals

end
-- ==== Proof.ValsB.lean ====
/-
  The accumulators after the body at a middle grid point, entry by entry: entry (b, g) of the sum accumulator is
  its old value plus the block's total for group g, and the same for the sum of squares.
-/
import proofs.«181770_j18743237280237_1_alg».proof.Proof.ValsBase

set_option maxRecDepth 16384

noncomputable section

namespace Cert.KernelIdeal.Vals

open Cert.KernelIdeal Cert.KernelIdeal.Gen Cert.KernelIdeal.Hand Cert.KernelIdeal.Pay
open Idealize.ShloMosaic Idealize.ShloMosaic.TcCoe Idealize.ShloMosaic.Tactic Idealize.ShloMosaic.ValueIdx Idealize.SL.Sem

variable (c : Dev nD) (t : Fin cfg0.N) (hc0 : ¬cond0_0 (grid0.coords t)) (hc1 : ¬cond0_1 (grid0.coords t)) (x0 : Vec Ideal S4x296x1024 .f32) (xs0 xs1 : Vec Ideal S4x4 .f32)

theorem sB0_0 (b : Fin 4) : sout0_B_0 (F := Ideal) c t hc0 hc1 x0 xs0 xs1 (ix2 b (0 : Fin 4)) = xs0 (ix2 b (0 : Fin 4)) + gtot x0 0 64 g0 b := by
  unfold sout0_B_0
  rw [View.read_writes_eq_canon _ _ _ (scover0_B_0 c t hc0 hc1 x0 xs0 xs1)]
  unfold runB kernelRun0_B
  dsimp only
  sl_unfold_words
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay14_apply]
  simp only [View.readAt_eq_ld, (hs0_0 t).read_unread, (Memref.isWhole_whole cc0_scratch0).read_unread]
  exact congrArg₂ (· + ·) (ld_col xs0 0 _ b) (tot_ld x0 0 64 g0 _ b)

theorem sB0_1 (b : Fin 4) : sout0_B_0 (F := Ideal) c t hc0 hc1 x0 xs0 xs1 (ix2 b (1 : Fin 4)) = xs0 (ix2 b (1 : Fin 4)) + gtot x0 64 96 g1 b := by
  unfold sout0_B_0
  rw [View.read_writes_eq_canon _ _ _ (scover0_B_0 c t hc0 hc1 x0 xs0 xs1)]
  unfold runB kernelRun0_B
  dsimp only
  sl_unfold_words
  refine (Cert.Cols.canon_miss 1 3 (by decide) _ _ _ b).trans ?_
  refine (Cert.Cols.canon_miss 1 2 (by decide) _ _ _ b).trans ?_
  refine (Cert.Cols.canon_hit 1 _ _ _ b).trans ?_
  rw [pay19_apply, pay17_apply]
  simp only [View.readAt_eq_ld, (hs0_0 t).read_unread, (Memref.isWhole_whole cc0_scratch0).read_unread]
  exact congrArg₂ (· + ·) (ld_col xs0 1 _ b) (tot_ld x0 64 96 g1 _ b)

theorem sB0_2 (b : Fin 4) : sout0_B_0 (F := Ideal) c t hc0 hc1 x0 xs0 xs1 (ix2 b (2 : Fin 4)) = xs0 (ix2 b (2 : Fin 4)) + gtot x0 160 80 g2 b := by
  unfold sout0_B_0
  rw [View.read_writes_eq_canon _ _ _ (scover0_B_0 c t hc0 hc1 x0 xs0 xs1)]
  unfold runB kernelRun0_B
  dsimp only
  sl_unfold_words
  refine (Cert.Cols.canon_miss 2 3 (by decide) _ _ _ b).trans ?_
  refine (Cert.Cols.canon_hit 2 _ _ _ b).trans ?_
  rw [pay22_apply]
  simp only [View.readAt_eq_ld, (hs0_0 t).read_unread, (Memref.isWhole_whole cc0_scratch0).read_unread]
  exact congrArg₂ (· + ·) (ld_col xs0 2 _ b) (tot_ld x0 160 80 g2 _ b)

theorem sB0_3 (b : Fin 4) : sout0_B_0 (F := Ideal) c t hc0 hc1 x0 xs0 xs1 (ix2 b (3 : Fin 4)) = xs0 (ix2 b (3 : Fin 4)) + gtot x0 240 56 g3 b := by
  unfold sout0_B_0
  rw [View.read_writes_eq_canon _ _ _ (scover0_B_0 c t hc0 hc1 x0 xs0 xs1)]
  unfold runB kernelRun0_B
  dsimp only
  sl_unfold_words
  refine (Cert.Cols.canon_hit 3 _ _ _ b).trans ?_
  rw [pay1_apply, pay24_eq]
  simp only [View.readAt_eq_ld, (hs0_0 t).read_unread, (Memref.isWhole_whole cc0_scratch0).read_unread]
  exact congrArg₂ (· + ·) (ld_col xs0 3 _ b) (tot_ld x0 240 56 g3 _ b)

theorem sB1_0 (b : Fin 4) : sout0_B_1 (F := Ideal) c t hc0 hc1 x0 xs0 xs1 (ix2 b (0 : Fin 4)) = xs1 (ix2 b (0 : Fin 4)) + gtotsq x0 0 64 g0 b := by
  unfold sout0_B_1
  rw [View.read_writes_eq_canon _ _ _ (scover0_B_1 c t hc0 hc1 x0 xs0 xs1)]
  unfold runB kernelRun0_B
  dsimp only
  sl_unfold_words
  refine (Cert.Cols.canon_miss 0 3 (by decide) _ _ _ b).trans ?_
  refine (Cert.Cols.canon_miss 0 2 (by decide) _ _ _ b).trans ?_
  refine (Cert.Cols.canon_miss 0 1 (by decide) _ _ _ b).trans ?_
  refine (Cert.Cols.canon_hit 0 _ _ _ b).trans ?_
  rw [pay15_apply]
  simp only [View.readAt_eq_ld, (hs0_0 t).read_unread, (Memref.isWhole_whole cc0_scratch1).read_unread]
  exact congrArg₂ (· + ·) (ld_col xs1 0 _ b) (totsq_ld x0 0 64 g0 _ b)

theorem sB1_1 (b : Fin 4) : sout0_B_1 (F := Ideal) c t hc0 hc1 x0 xs0 xs1 (ix2 b (1 : Fin 4)) = xs1 (ix2 b (1 : Fin 4)) + gtotsq x0 64 96 g1 b := by
  unfold sout0_B_1
  rw [View.read_writes_eq_canon _ _ _ (scover0_B_1 c t hc0 hc1 x0 xs0 xs1)]
  unfold runB kernelRun0_B
  dsimp only
  sl_unfold_words
  refine (Cert.Cols.canon_miss 1 3 (by decide) _ _ _ b).trans ?_
  refine (Cert.Cols.canon_miss 1 2 (by decide) _ _ _ b).trans ?_
  refine (Cert.Cols.canon_hit 1 _ _ _ b).trans ?_
  rw [pay20_apply, pay18_apply]
  simp only [View.readAt_eq_ld, (hs0_0 t).read_unread, (Memref.isWhole_whole cc0_scratch1).read_unread]
  exact congrArg₂ (· + ·) (ld_col xs1 1 _ b) (totsq_ld x0 64 96 g1 _ b)

theorem sB1_2 (b : Fin 4) : sout0_B_1 (F := Ideal) c t hc0 hc1 x0 xs0 xs1 (ix2 b (2 : Fin 4)) = xs1 (ix2 b (2 : Fin 4)) + gtotsq x0 160 80 g2 b := by
  unfold sout0_B_1
  rw [View.read_writes_eq_canon _ _ _ (scover0_B_1 c t hc0 hc1 x0 xs0 xs1)]
  unfold runB kernelRun0_B
  dsimp only
  sl_unfold_words
  refine (Cert.Cols.canon_miss 2 3 (by decide) _ _ _ b).trans ?_
  refine (Cert.Cols.canon_hit 2 _ _ _ b).trans ?_
  rw [pay23_apply]
  simp only [View.readAt_eq_ld, (hs0_0 t).read_unread, (Memref.isWhole_whole cc0_scratch1).read_unread]
  exact congrArg₂ (· + ·) (ld_col xs1 2 _ b) (totsq_ld x0 160 80 g2 _ b)

theorem sB1_3 (b : Fin 4) : sout0_B_1 (F := Ideal) c t hc0 hc1 x0 xs0 xs1 (ix2 b (3 : Fin 4)) = xs1 (ix2 b (3 : Fin 4)) + gtotsq x0 240 56 g3 b := by
  unfold sout0_B_1
  rw [View.read_writes_eq_canon _ _ _ (scover0_B_1 c t hc0 hc1 x0 xs0 xs1)]
  unfold runB kernelRun0_B
  dsimp only
  sl_unfold_words
  refine (Cert.Cols.canon_hit 3 _ _ _ b).trans ?_
  rw [pay2_apply, pay24_eq]
  simp only [View.readAt_eq_ld, (hs0_0 t).read_unread, (Memref.isWhole_whole cc0_scratch1).read_unread]
  exact congrArg₂ (· + ·) (ld_col xs1 3 _ b) (totsq_ld x0 240 56 g3 _ b)

end Cert.KernelIdeal.Vals

end
-- ==== Proof.RefSums.lean ====
/-
  Re-indexing finite sums over an additive commutative monoid: a sum over m * n consecutive positions is the double
  sum over quotient and remainder, and the two arrangements of a sum over m blocks, d components and n positions
  (positions flattened with the blocks on one side, components flattened with the blocks on the other) agree.
  Only re-ordering and re-grouping: no distributivity, no cancellation, no finiteness of the summands.
-/
import Idealize.ShloMosaic.PureOps.Ideal

open scoped BigOperators

namespace Cert.RefValue

/-- A sum over N = m * n consecutive positions is the double sum over the quotient a and the remainder r by n. -/
theorem sum_divmod {M : Type*} [AddCommMonoid M] (N m n : ℕ) (hN : m * n = N) (f : Fin N → M) :
    ∑ k : Fin N, f k
      = ∑ a : Fin m, ∑ r : Fin n, f ⟨r.val + n * a.val, by rw [← hN]; exact (finProdFinEquiv (a, r)).isLt⟩ := by
  subst hN
  rw [← Equiv.sum_comp finProdFinEquiv f, Fintype.sum_prod_type]
  rfl

/-- The flattened form: if the summand at position r + n * a is R a r, the sum is the double sum of R. -/
theorem sum_flat {M : Type*} [AddCommMonoid M] (N m n : ℕ) (hN : m * n = N) (L : Fin N → M) (R : Fin m → Fin n → M)
    (hL : ∀ (a : Fin m) (r : Fin n) (k : Fin N), k.val = r.val + n * a.val → L k = R a r) :
    ∑ k : Fin N, L k = ∑ a : Fin m, ∑ r : Fin n, R a r := by
  rw [sum_divmod N m n hN L]
  exact Finset.sum_congr rfl fun a _ => Finset.sum_congr rfl fun r _ => hL a r _ rfl

/-- Blocks a, components dd, positions s. On the left the positions are flattened with the blocks (k = s + n * a) and
    each summand is already the sum over the components; on the right the components are flattened with the blocks
    (c = dd + d * a) and the positions are summed inside. -/
theorem sum_regroup {M : Type*} [AddCommMonoid M] (m d n N C : ℕ) (hN : m * n = N) (hC : m * d = C)
    (G : Fin m → Fin d → Fin n → M) (L : Fin N → M) (R : Fin C → Fin n → M)
    (hL : ∀ (a : Fin m) (s : Fin n) (k : Fin N), k.val = s.val + n * a.val → L k = ∑ dd : Fin d, G a dd s)
    (hR : ∀ (a : Fin m) (dd : Fin d) (s : Fin n) (c : Fin C), c.val = dd.val + d * a.val → R c s = G a dd s) :
    ∑ k : Fin N, L k = ∑ c : Fin C, ∑ s : Fin n, R c s := by
  rw [sum_divmod N m n hN L, sum_divmod C m d hC (fun c => ∑ s : Fin n, R c s)]
  refine Finset.sum_congr rfl fun a _ => ?_
  rw [Finset.sum_comm]
  refine Finset.sum_congr rfl fun s _ => ?_
  rw [hL a s _ rfl]
  exact Finset.sum_congr rfl fun dd _ => (hR a dd s _ rfl).symm

end Cert.RefValue
-- ==== Proof.Spec.lean ====
/-
  The mathematics of the claim, with no program in sight. The input is read flattened: position (b, ch, s) of the
  [4, 296, 32768] view is position (b, ch, s / 1024, s / 32 mod 32, s mod 32) of the [4, 296, 32, 32, 32] array.
  The 296 channels fall into four consecutive groups of 64, 96, 80 and 56 channels (multiplicity times dimension:
  64 x 1, 32 x 3, 16 x 5, 8 x 7); the 120 weights are one per multiplicity, the 64 shifts belong to the first group.
  For a batch row b and a group, the two statistics are the sum of the group's entries and the sum of their squares
  over the group's channels and all 32768 positions (gsum).

  specK is the form the kernel computes: centre T1/N (first group only; the other groups subtract and add a literal
  zero), scale rsqrt(T2/N - centre^2 + eps) (first group) or rsqrt(T2/N + eps) (others) times the weight of the
  channel's multiplicity.  specR is the form the reference computes: the first group is centred first and its
  variance is the mean of the squared centred entries; the reciprocal root is a power with exponent -1/2.
  The divisors are the exact powers of two 2^21, 2^20, 2^19, 2^18, kept as their float words; eps is the float word
  of 1e-5, the same on both sides.
-/
import Idealize.ShloMosaic.PureOps.Ideal
import Idealize.ShloMosaic.Lib.ValueIdx

noncomputable section

namespace Cert.Spec

open Idealize.ShloMosaic Idealize.ShloMosaic.ValueIdx

abbrev S5 : Shape := ⟨5, ![4, 296, 32, 32, 32]⟩
abbrev SF : Shape := ⟨3, ![4, 296, 32768]⟩
abbrev SW : Shape := ⟨1, ![120]⟩
abbrev SB : Shape := ⟨1, ![64]⟩

/-- The flattened position of (s1, s2, s3). -/
def flatS (s1 s2 s3 : Fin 32) : Fin 32768 := ⟨1024 * s1.val + 32 * s2.val + s3.val, by have := s1.isLt; have := s2.isLt; have := s3.isLt; omega⟩

/-- The three spatial coordinates of a flattened position. -/
def unflat (b : Fin 4) (ch : Fin 296) (s : Fin 32768) : S5.Idx :=
  ix5 b ch ⟨s.val / 1024, by have := s.isLt; omega⟩ ⟨s.val / 32 % 32, Nat.mod_lt _ (by decide)⟩ ⟨s.val % 32, Nat.mod_lt _ (by decide)⟩

/-- The input read flattened. -/
def flat (x : S5.Idx → EReal) : SF.Idx → EReal := fun i => x (unflat (i 0) (i 1) (i 2))

/-- Channel off + k of a group of md channels starting at off. -/
def chan (off md : ℕ) (h : off + md ≤ 296) (k : Fin md) : Fin 296 := ⟨off + k.val, by have := k.isLt; omega⟩

/-- The sum of f over a group's channels and all positions, in batch row b. -/
def gsum (off md : ℕ) (h : off + md ≤ 296) (f : SF.Idx → EReal) (b : Fin 4) : EReal :=
  ∑ k : Fin md, ∑ s : Fin 32768, f (ix3 b (chan off md h k) s)

/-- The float words. -/
abbrev zero : EReal := Ideal.ofBits .f32 0x00000000#32
abbrev eps : EReal := Ideal.ofBits .f32 0x3727C5AC#32
abbrev mhalf : EReal := Ideal.ofBits .f32 0xBF000000#32
abbrev N0 : EReal := Ideal.ofBits .f32 0x4A000000#32
abbrev N1 : EReal := Ideal.ofBits .f32 0x49800000#32
abbrev N2 : EReal := Ideal.ofBits .f32 0x49000000#32
abbrev N3 : EReal := Ideal.ofBits .f32 0x48800000#32

theorem h0 : 0 + 64 ≤ 296 := by decide
theorem h1 : 64 + 96 ≤ 296 := by decide
theorem h2 : 160 + 80 ≤ 296 := by decide
theorem h3 : 240 + 56 ≤ 296 := by decide

/-- The squares. -/
def sq (f : SF.Idx → EReal) : SF.Idx → EReal := fun i => f i * f i

/-- The first group's centre. -/
def mean0 (xf : SF.Idx → EReal) (b : Fin 4) : EReal := Ideal.div (gsum 0 64 h0 xf b) N0

/-- The weight of channel ch: one weight per multiplicity, repeated over the irrep dimension. -/
def wIdx (ch : Fin 296) : Fin 120 :=
  if c0 : ch.val < 64 then ⟨ch.val, by omega⟩
  else if c1 : ch.val < 160 then ⟨64 + (ch.val - 64) / 3, by omega⟩
  else if c2 : ch.val < 240 then ⟨96 + (ch.val - 160) / 5, by omega⟩
  else ⟨112 + (ch.val - 240) / 7, by have := ch.isLt; omega⟩

/-! ## What the kernel computes -/

def invK0 (xf : SF.Idx → EReal) (b : Fin 4) : EReal :=
  Ideal.rsqrt (Ideal.div (gsum 0 64 h0 (sq xf) b) N0 - mean0 xf b * mean0 xf b + eps)
def invK1 (xf : SF.Idx → EReal) (b : Fin 4) : EReal := Ideal.rsqrt (Ideal.div (gsum 64 96 h1 (sq xf) b) N1 + eps)
def invK2 (xf : SF.Idx → EReal) (b : Fin 4) : EReal := Ideal.rsqrt (Ideal.div (gsum 160 80 h2 (sq xf) b) N2 + eps)
def invK3 (xf : SF.Idx → EReal) (b : Fin 4) : EReal := Ideal.rsqrt (Ideal.div (gsum 240 56 h3 (sq xf) b) N3 + eps)

def specK (xf : SF.Idx → EReal) (w : SW.Idx → EReal) (bi : SB.Idx → EReal) (b : Fin 4) (ch : Fin 296) (s : Fin 32768) : EReal :=
  if c0 : ch.val < 64 then (xf (ix3 b ch s) - mean0 xf b) * (invK0 xf b * w (ix1 (wIdx ch))) + bi (ix1 ⟨ch.val, c0⟩)
  else if c1 : ch.val < 160 then (xf (ix3 b ch s) - zero) * (invK1 xf b * w (ix1 (wIdx ch))) + zero
  else if c2 : ch.val < 240 then (xf (ix3 b ch s) - zero) * (invK2 xf b * w (ix1 (wIdx ch))) + zero
  else (xf (ix3 b ch s) - zero) * (invK3 xf b * w (ix1 (wIdx ch))) + zero

/-! ## What the reference computes -/

/-- The first group, centred. -/
def centred (xf : SF.Idx → EReal) : SF.Idx → EReal := fun i => xf i - mean0 xf (i 0)

def invR0 (xf : SF.Idx → EReal) (b : Fin 4) : EReal :=
  Ideal.pow (Ideal.div (gsum 0 64 h0 (sq (centred xf)) b) N0 + eps) mhalf
def invR1 (xf : SF.Idx → EReal) (b : Fin 4) : EReal := Ideal.pow (Ideal.div (gsum 64 96 h1 (sq xf) b) N1 + eps) mhalf
def invR2 (xf : SF.Idx → EReal) (b : Fin 4) : EReal := Ideal.pow (Ideal.div (gsum 160 80 h2 (sq xf) b) N2 + eps) mhalf
def invR3 (xf : SF.Idx → EReal) (b : Fin 4) : EReal := Ideal.pow (Ideal.div (gsum 240 56 h3 (sq xf) b) N3 + eps) mhalf

def specR (xf : SF.Idx → EReal) (w : SW.Idx → EReal) (bi : SB.Idx → EReal) (b : Fin 4) (ch : Fin 296) (s : Fin 32768) : EReal :=
  if c0 : ch.val < 64 then (xf (ix3 b ch s) - mean0 xf b) * (invR0 xf b * w (ix1 (wIdx ch))) + bi (ix1 ⟨ch.val, c0⟩)
  else if c1 : ch.val < 160 then xf (ix3 b ch s) * (invR1 xf b * w (ix1 (wIdx ch)))
  else if c2 : ch.val < 240 then xf (ix3 b ch s) * (invR2 xf b * w (ix1 (wIdx ch)))
  else xf (ix3 b ch s) * (invR3 xf b * w (ix1 (wIdx ch)))

end Cert.Spec

end
-- ==== Proof.Consts.lean ====
/-
  The float words the two programs spell, as the extended reals they denote: the zero, the four divisors (the exact
  powers of two 2^21, 2^20, 2^19, 2^18: the group sizes m * 32768), the exponent -1/2, and the epsilon, of which
  only positivity matters. The bit patterns are unfolded here and nowhere else.
-/
import Idealize.ShloMosaic.PureOps.Ideal

noncomputable section

namespace Cert.Consts

open Idealize.ShloMosaic

theorem zero_eq : Ideal.ofBits .f32 0x00000000#32 = 0 := by
  simp [Ideal.ofBits, Ideal.ieee]

theorem N0_eq : Ideal.ofBits .f32 0x4A000000#32 = ((2097152 : ℝ) : EReal) := by
  simp [Ideal.ofBits, Ideal.ieee, -EReal.coe_mul]; norm_num

theorem N1_eq : Ideal.ofBits .f32 0x49800000#32 = ((1048576 : ℝ) : EReal) := by
  simp [Ideal.ofBits, Ideal.ieee, -EReal.coe_mul]; norm_num

theorem N2_eq : Ideal.ofBits .f32 0x49000000#32 = ((524288 : ℝ) : EReal) := by
  simp [Ideal.ofBits, Ideal.ieee, -EReal.coe_mul]; norm_num

theorem N3_eq : Ideal.ofBits .f32 0x48800000#32 = ((262144 : ℝ) : EReal) := by
  simp [Ideal.ofBits, Ideal.ieee, -EReal.coe_mul]; norm_num

theorem mhalf_eq : Ideal.ofBits .f32 0xBF000000#32 = ((-(1 / 2) : ℝ) : EReal) := by
  simp [Ideal.ofBits, Ideal.ieee, -EReal.coe_mul]; norm_num

/-- The epsilon word denotes a positive real (about 1e-5; its exact value plays no part). -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.Consts

end
-- ==== Proof.StatsSum.lean ====
/-
  From points to the whole array. A block of the flattened input at point t holds positions 1024 t .. 1024 t + 1023,
  so a block's group total is the sum over the group's channels and those positions. By induction on the point the
  two accumulators hold, after point n, the zero word plus the block totals (and totals of squares) of points 0..n.
  After the last point, entry (b, g) of the first output is that running sum divided by the group's size, and entry
  (b, g) of the second the reciprocal root of the running sum of squares over the group's size (less the squared
  mean for the first group) plus epsilon. Summing a group's block totals over the 32 points is summing over all
  32768 positions: the running sums after the last point are the group sums of the specification.
-/
import proofs.«181770_j18743237280237_1_alg».proof.Proof.ValsOut
import proofs.«181770_j18743237280237_1_alg».proof.Proof.ValsA
import proofs.«181770_j18743237280237_1_alg».proof.Proof.ValsB
import proofs.«181770_j18743237280237_1_alg».proof.Proof.RefSums
import proofs.«181770_j18743237280237_1_alg».proof.Proof.Spec
import proofs.«181770_j18743237280237_1_alg».proof.Proof.Consts

set_option maxRecDepth 16384

noncomputable section

namespace Cert.KernelIdeal.Vals

open Cert.KernelIdeal Cert.KernelIdeal.Gen Cert.KernelIdeal.Hand Cert.KernelIdeal.Pay
open Idealize.ShloMosaic Idealize.ShloMosaic.TcCoe Idealize.ShloMosaic.ValueIdx Idealize.SL.Sem

abbrev zeroW : EReal := Ideal.ofBits .f32 0x00000000#32
abbrev epsW : EReal := Ideal.ofBits .f32 0x3727C5AC#32

/-- A block's total, and total of squares, for group g. -/
def G1 (x0 : Vec Ideal S4x296x1024 .f32) (g : Fin 4) (b : Fin 4) : EReal :=
  match g with
  | ⟨0, _⟩ => gtot x0 0 64 g0 b
  | ⟨1, _⟩ => gtot x0 64 96 g1 b
  | ⟨2, _⟩ => gtot x0 160 80 g2 b
  | ⟨3, _⟩ => gtot x0 240 56 g3 b
def G2 (x0 : Vec Ideal S4x296x1024 .f32) (g : Fin 4) (b : Fin 4) : EReal :=
  match g with
  | ⟨0, _⟩ => gtotsq x0 0 64 g0 b
  | ⟨1, _⟩ => gtotsq x0 64 96 g1 b
  | ⟨2, _⟩ => gtotsq x0 160 80 g2 b
  | ⟨3, _⟩ => gtotsq x0 240 56 g3 b

/-- The group's size as its float word. -/
def NW (g : Fin 4) : EReal :=
  match g with
  | ⟨0, _⟩ => Ideal.ofBits .f32 0x4A000000#32
  | ⟨1, _⟩ => Ideal.ofBits .f32 0x49800000#32
  | ⟨2, _⟩ => Ideal.ofBits .f32 0x49000000#32
  | ⟨3, _⟩ => Ideal.ofBits .f32 0x48800000#32

section Cases
variable (c : Dev nD) (t : Fin cfg0.N) (x0 : Vec Ideal S4x296x1024 .f32)

theorem sA0 (hc0 : cond0_0 (grid0.coords t)) (hc1 : ¬cond0_1 (grid0.coords t)) (b g : Fin 4) :
    sout0_A_0 (F := Ideal) c t hc0 hc1 x0 (ix2 b g) = zeroW + G1 x0 g b := by
  match g with
  | ⟨0, _⟩ => exact sA0_0 c t hc0 hc1 x0 b
  | ⟨1, _⟩ => exact sA0_1 c t hc0 hc1 x0 b
  | ⟨2, _⟩ => exact sA0_2 c t hc0 hc1 x0 b
  | ⟨3, _⟩ => exact sA0_3 c t hc0 hc1 x0 b
theorem sA1 (hc0 : cond0_0 (grid0.coords t)) (hc1 : ¬cond0_1 (grid0.coords t)) (b g : Fin 4) :
    sout0_A_1 (F := Ideal) c t hc0 hc1 x0 (ix2 b g) = zeroW + G2 x0 g b := by
  match g with
  | ⟨0, _⟩ => exact sA1_0 c t hc0 hc1 x0 b
  | ⟨1, _⟩ => exact sA1_1 c t hc0 hc1 x0 b
  | ⟨2, _⟩ => exact sA1_2 c t hc0 hc1 x0 b
  | ⟨3, _⟩ => exact sA1_3 c t hc0 hc1 x0 b
theorem sB0 (hc0 : ¬cond0_0 (grid0.coords t)) (hc1 : ¬cond0_1 (grid0.coords t)) (xs0 xs1 : Vec Ideal S4x4 .f32) (b g : Fin 4) :
    sout0_B_0 (F := Ideal) c t hc0 hc1 x0 xs0 xs1 (ix2 b g) = xs0 (ix2 b g) + G1 x0 g b := by
  match g with
  | ⟨0, _⟩ => exact sB0_0 c t hc0 hc1 x0 xs0 xs1 b
  | ⟨1, _⟩ => exact sB0_1 c t hc0 hc1 x0 xs0 xs1 b
  | ⟨2, _⟩ => exact sB0_2 c t hc0 hc1 x0 xs0 xs1 b
  | ⟨3, _⟩ => exact sB0_3 c t hc0 hc1 x0 xs0 xs1 b
theorem sB1 (hc0 : ¬cond0_0 (grid0.coords t)) (hc1 : ¬cond0_1 (grid0.coords t)) (xs0 xs1 : Vec Ideal S4x4 .f32) (b g : Fin 4) :
    sout0_B_1 (F := Ideal) c t hc0 hc1 x0 xs0 xs1 (ix2 b g) = xs1 (ix2 b g) + G2 x0 g b := by
  match g with
  | ⟨0, _⟩ => exact sB1_0 c t hc0 hc1 x0 xs0 xs1 b
  | ⟨1, _⟩ => exact sB1_1 c t hc0 hc1 x0 xs0 xs1 b
  | ⟨2, _⟩ => exact sB1_2 c t hc0 hc1 x0 xs0 xs1 b
  | ⟨3, _⟩ => exact sB1_3 c t hc0 hc1 x0 xs0 xs1 b
theorem sC0 (hc0 : ¬cond0_0 (grid0.coords t)) (hc1 : cond0_1 (grid0.coords t)) (xs0 xs1 : Vec Ideal S4x4 .f32) (b g : Fin 4) :
    sout0_C_0 (F := Ideal) c t hc0 hc1 x0 xs0 xs1 (ix2 b g) = xs0 (ix2 b g) + G1 x0 g b := by
  match g with
  | ⟨0, _⟩ => exact sC0_0 c t hc0 hc1 x0 xs0 xs1 b
  | ⟨1, _⟩ => exact sC0_1 c t hc0 hc1 x0 xs0 xs1 b
  | ⟨2, _⟩ => exact sC0_2 c t hc0 hc1 x0 xs0 xs1 b
  | ⟨3, _⟩ => exact sC0_3 c t hc0 hc1 x0 xs0 xs1 b
theorem sC1 (hc0 : ¬cond0_0 (grid0.coords t)) (hc1 : cond0_1 (grid0.coords t)) (xs0 xs1 : Vec Ideal S4x4 .f32) (b g : Fin 4) :
    sout0_C_1 (F := Ideal) c t hc0 hc1 x0 xs0 xs1 (ix2 b g) = xs1 (ix2 b g) + G2 x0 g b := by
  match g with
  | ⟨0, _⟩ => exact sC1_0 c t hc0 hc1 x0 xs0 xs1 b
  | ⟨1, _⟩ => exact sC1_1 c t hc0 hc1 x0 xs0 xs1 b
  | ⟨2, _⟩ => exact sC1_2 c t hc0 hc1 x0 xs0 xs1 b
  | ⟨3, _⟩ => exact sC1_3 c t hc0 hc1 x0 xs0 xs1 b
theorem oC1 (hc0 : ¬cond0_0 (grid0.coords t)) (hc1 : cond0_1 (grid0.coords t)) (xs0 xs1 : Vec Ideal S4x4 .f32) (b g : Fin 4) :
    out0_C_1 (F := Ideal) c t hc0 hc1 x0 xs0 xs1 (ix2 b g) = Ideal.div (xs0 (ix2 b g) + G1 x0 g b) (NW g) := by
  match g with
  | ⟨0, _⟩ => exact oC1_0 c t hc0 hc1 x0 xs0 xs1 b
  | ⟨1, _⟩ => exact oC1_1 c t hc0 hc1 x0 xs0 xs1 b
  | ⟨2, _⟩ => exact oC1_2 c t hc0 hc1 x0 xs0 xs1 b
  | ⟨3, _⟩ => exact oC1_3 c t hc0 hc1 x0 xs0 xs1 b
/-- The second output: the first group subtracts the squared mean. -/
def inv2 (g : Fin 4) (s1 s2 : EReal) : EReal :=
  match g with
  | ⟨0, _⟩ => Ideal.rsqrt (Ideal.div s2 (NW 0) - Ideal.div s1 (NW 0) * Ideal.div s1 (NW 0) + epsW)
  | ⟨1, _⟩ => Ideal.rsqrt (Ideal.div s2 (NW 1) + epsW)
  | ⟨2, _⟩ => Ideal.rsqrt (Ideal.div s2 (NW 2) + epsW)
  | ⟨3, _⟩ => Ideal.rsqrt (Ideal.div s2 (NW 3) + epsW)
theorem oC2 (hc0 : ¬cond0_0 (grid0.coords t)) (hc1 : cond0_1 (grid0.coords t)) (xs0 xs1 : Vec Ideal S4x4 .f32) (b g : Fin 4) :
    out0_C_2 (F := Ideal) c t hc0 hc1 x0 xs0 xs1 (ix2 b g) = inv2 g (xs0 (ix2 b g) + G1 x0 g b) (xs1 (ix2 b g) + G2 x0 g b) := by
  match g with
  | ⟨0, _⟩ => exact oC2_0 c t hc0 hc1 x0 xs0 xs1 b
  | ⟨1, _⟩ => exact oC2_1 c t hc0 hc1 x0 xs0 xs1 b
  | ⟨2, _⟩ => exact oC2_2 c t hc0 hc1 x0 xs0 xs1 b
  | ⟨3, _⟩ => exact oC2_3 c t hc0 hc1 x0 xs0 xs1 b
end Cases

/-! ## The running sums -/

/-- z + f 0 + f 1 + ... + f n, added in this order. -/
def chain (z : EReal) (f : ℕ → EReal) : ℕ → EReal
  | 0 => z + f 0
  | n + 1 => chain z f n + f (n + 1)

theorem chain_eq (z : EReal) (f : ℕ → EReal) : ∀ n, chain z f n = z + ∑ i ∈ Finset.range (n + 1), f i
  | 0 => by simp [chain]
  | n + 1 => by rw [chain, chain_eq z f n, Finset.sum_range_succ _ (n + 1), add_assoc]

variable (V : (c : Dev nD) → (b : Ref sig .tc) → Buf (Elt Ideal) ((c : Thread nD τ).loc b)) (c : Dev nD)

/-- The block total of point i for group g (zero past the grid). -/
def F1 (g b : Fin 4) (i : ℕ) : EReal := if hi : i < cfg0.N then G1 (iblk0 V c 0 ⟨i, hi⟩) g b else 0
def F2 (g b : Fin 4) (i : ℕ) : EReal := if hi : i < cfg0.N then G2 (iblk0 V c 0 ⟨i, hi⟩) g b else 0

theorem acc_eq : ∀ (n : ℕ) (h : n < cfg0.N) (b g : Fin 4),
    (outsAt0 (F := Ideal) V c n h).2.2.1 (ix2 b g) = chain zeroW (F1 V c g b) n
    ∧ (outsAt0 (F := Ideal) V c n h).2.2.2 (ix2 b g) = chain zeroW (F2 V c g b) n
  | 0, h, b, g => by
    have e := outsAt0_A V c ⟨0, h⟩ rfl (by dsimp only; decide)
    constructor
    · refine (congrFun (congrArg (fun p => p.2.2.1) e) (ix2 b g)).trans ?_
      dsimp only
      rw [sA0]
      simp only [chain, F1, dif_pos h]
    · refine (congrFun (congrArg (fun p => p.2.2.2) e) (ix2 b g)).trans ?_
      dsimp only
      rw [sA1]
      simp only [chain, F2, dif_pos h]
  | n + 1, h, b, g => by
    have hN : cfg0.N = 32 := N_0
    have hB0 : ¬(⟨n + 1, h⟩ : Fin cfg0.N).val % 32 = 0 := by dsimp only; omega
    have ih := acc_eq n (Nat.lt_of_succ_lt h) b g
    have hF1 : F1 V c g b (n + 1) = G1 (iblk0 V c 0 ⟨n + 1, h⟩) g b := dif_pos h
    have hF2 : F2 V c g b (n + 1) = G2 (iblk0 V c 0 ⟨n + 1, h⟩) g b := dif_pos h
    by_cases h1 : (⟨n + 1, h⟩ : Fin cfg0.N).val % 32 = 31
    · have e := outsAt0_C V c ⟨n + 1, h⟩ hB0 h1
      constructor
      · refine (congrFun (congrArg (fun p => p.2.2.1) e) (ix2 b g)).trans ?_
        dsimp only
        rw [sC0]
        show _ = chain zeroW (F1 V c g b) n + F1 V c g b (n + 1)
        rw [hF1]
        exact congrArg (· + _) ih.1
      · refine (congrFun (congrArg (fun p => p.2.2.2) e) (ix2 b g)).trans ?_
        dsimp only
        rw [sC1]
        show _ = chain zeroW (F2 V c g b) n + F2 V c g b (n + 1)
        rw [hF2]
        exact congrArg (· + _) ih.2
    · have e := outsAt0_B V c ⟨n + 1, h⟩ hB0 h1
      constructor
      · refine (congrFun (congrArg (fun p => p.2.2.1) e) (ix2 b g)).trans ?_
        dsimp only
        rw [sB0]
        show _ = chain zeroW (F1 V c g b) n + F1 V c g b (n + 1)
        rw [hF1]
        exact congrArg (· + _) ih.1
      · refine (congrFun (congrArg (fun p => p.2.2.2) e) (ix2 b g)).trans ?_
        dsimp only
        rw [sB1]
        show _ = chain zeroW (F2 V c g b) n + F2 V c g b (n + 1)
        rw [hF2]
        exact congrArg (· + _) ih.2

theorem h31 : 31 < cfg0.N := by rw [show cfg0.N = 32 from N_0]; decide

/-- The outputs after the last point. -/
theorem out_final (b g : Fin 4) :
    (outsAt0 (F := Ideal) V c 31 h31).1 (ix2 b g) = Ideal.div (chain zeroW (F1 V c g b) 31) (NW g)
    ∧ (outsAt0 (F := Ideal) V c 31 h31).2.1 (ix2 b g) = inv2 g (chain zeroW (F1 V c g b) 31) (chain zeroW (F2 V c g b) 31) := by
  have e := outsAt0_C V c ⟨31, h31⟩ (by dsimp only; decide) (by dsimp only)
  have ih := acc_eq V c 30 (Nat.lt_of_succ_lt h31) b g
  have hc1 : chain zeroW (F1 V c g b) 31 = chain zeroW (F1 V c g b) 30 + G1 (iblk0 V c 0 ⟨31, h31⟩) g b := by
    show chain zeroW (F1 V c g b) 30 + F1 V c g b 31 = _
    rw [show F1 V c g b 31 = G1 (iblk0 V c 0 ⟨31, h31⟩) g b from dif_pos h31]
  have hc2 : chain zeroW (F2 V c g b) 31 = chain zeroW (F2 V c g b) 30 + G2 (iblk0 V c 0 ⟨31, h31⟩) g b := by
    show chain zeroW (F2 V c g b) 30 + F2 V c g b 31 = _
    rw [show F2 V c g b 31 = G2 (iblk0 V c 0 ⟨31, h31⟩) g b from dif_pos h31]
  rw [hc1, hc2, ← ih.1, ← ih.2]
  constructor
  · refine (congrFun (congrArg (fun p => p.1) e) (ix2 b g)).trans ?_
    dsimp only
    rw [oC1]
  · refine (congrFun (congrArg (fun p => p.2.1) e) (ix2 b g)).trans ?_
    dsimp only
    rw [oC2]

end Cert.KernelIdeal.Vals

end
-- ==== Proof.StatsTotal.lean ====
/-
  The running sums after the last point are the specification's group sums. Block t of the flattened input holds
  positions 1024 t .. 1024 t + 1023 of every channel, so the 32 block totals of a group add up, position by position,
  to the sum over all 32768 positions: the sums over 32 blocks and 1024 positions are re-indexed into one sum over
  32768 positions, channel by channel. The zero word the accumulators start from is 0.
-/
import proofs.«181770_j18743237280237_1_alg».proof.Proof.StatsSum

set_option maxRecDepth 16384

noncomputable section

namespace Cert.KernelIdeal.Vals

open Cert.KernelIdeal Cert.KernelIdeal.Gen Cert.KernelIdeal.Hand
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

theorem hN32 : cfg0.N = 32 := N_0

/-- Entry (b, ch, k) of block t is entry (b, ch, 1024 t + k) of the array. -/
theorem iblk0_apply (t : Fin cfg0.N) (b : Fin 4) (ch : Fin 296) (k : Fin 1024) :
    (iblk0 (F := Ideal) V c 0 t : Vec Ideal S4x296x1024 .f32) (ix3 b ch k)
      = V c main_v0 (ix3 b ch ⟨1024 * t.val + k.val, by have := t.isLt; have := hN32; have := k.isLt; omega⟩) := by
  have hi : win0_0.index t 0 = 0 ∧ win0_0.index t 1 = 0 ∧ win0_0.index t 2 = t.val :=
    (by decide +kernel : ∀ t : Fin grid0.N, win0_0.index t 0 = 0 ∧ win0_0.index t 1 = 0 ∧ win0_0.index t 2 = t.val) t
  unfold iblk0
  rw [View.read_apply]
  show V c main_v0 _ = V c main_v0 _
  congr 1
  funext a
  apply Fin.ext
  match a with
  | ⟨0, _⟩ => show win0_0.index t 0 * 4 + 1 * b.val = b.val; rw [hi.1]; omega
  | ⟨1, _⟩ => show win0_0.index t 1 * 296 + 1 * ch.val = ch.val; rw [hi.2.1]; omega
  | ⟨2, _⟩ => show win0_0.index t 2 * 1024 + 1 * k.val = 1024 * t.val + k.val; rw [hi.2.2]; omega

/-- The 32 block totals of a group add up to its sum over all positions. -/
theorem tot_sum (f : Cert.Spec.SF.Idx → EReal) (off md : ℕ) (h : off + md ≤ 296) (b : Fin 4)
    (blk : (i : ℕ) → i < cfg0.N → Vec Ideal S4x296x1024 .f32)
    (hblk : ∀ (i : ℕ) (hi : i < cfg0.N) (ch : Fin 296) (k : Fin 1024),
      blk i hi (ix3 b ch k) = f (ix3 b ch ⟨1024 * i + k.val, by have := hN32; have := k.isLt; omega⟩)) :
    ∑ i ∈ Finset.range (31 + 1), (if hi : i < cfg0.N then gtot (blk i hi) off md h b else 0) = Cert.Spec.gsum off md h f b := by
  rw [Finset.sum_range]
  have e1 : ∀ i : Fin (31 + 1), (if hi : i.val < cfg0.N then gtot (blk i.val hi) off md h b else 0)
      = ∑ q : Fin md, ∑ k : Fin 1024, f (ix3 b (Cert.Spec.chan off md h q) ⟨1024 * i.val + k.val, by have := i.isLt; have := k.isLt; omega⟩) := fun i => by
    have hi : i.val < cfg0.N := by rw [hN32]; exact i.isLt
    rw [dif_pos hi]
    unfold gtot
    exact Finset.sum_congr rfl fun q _ => Finset.sum_congr rfl fun k _ => hblk i.val hi _ k
  rw [Finset.sum_congr rfl fun i _ => e1 i, Finset.sum_comm]
  unfold Cert.Spec.gsum
  refine Finset.sum_congr rfl fun q _ => ?_
  refine (Cert.RefValue.sum_flat 32768 32 1024 rfl (fun s => f (ix3 b (Cert.Spec.chan off md h q) s))
    (fun i k => f (ix3 b (Cert.Spec.chan off md h q) ⟨1024 * i.val + k.val, by have := i.isLt; have := k.isLt; omega⟩)) ?_).symm
  intro a r k hk
  exact congrArg (fun s => f (ix3 b (Cert.Spec.chan off md h q) s)) (Fin.ext (by show k.val = 1024 * a.val + r.val; omega))

/-- The same for the squares. -/
theorem totsq_sum (f : Cert.Spec.SF.Idx → EReal) (off md : ℕ) (h : off + md ≤ 296) (b : Fin 4)
    (blk : (i : ℕ) → i < cfg0.N → Vec Ideal S4x296x1024 .f32)
    (hblk : ∀ (i : ℕ) (hi : i < cfg0.N) (ch : Fin 296) (k : Fin 1024),
      blk i hi (ix3 b ch k) = f (ix3 b ch ⟨1024 * i + k.val, by have := hN32; have := k.isLt; omega⟩)) :
    ∑ i ∈ Finset.range (31 + 1), (if hi : i < cfg0.N then gtotsq (blk i hi) off md h b else 0) = Cert.Spec.gsum off md h (Cert.Spec.sq f) b := by
  rw [Finset.sum_range]
  have e1 : ∀ i : Fin (31 + 1), (if hi : i.val < cfg0.N then gtotsq (blk i.val hi) off md h b else 0)
      = ∑ q : Fin md, ∑ k : Fin 1024, Cert.Spec.sq f (ix3 b (Cert.Spec.chan off md h q) ⟨1024 * i.val + k.val, by have := i.isLt; have := k.isLt; omega⟩) := fun i => by
    have hi : i.val < cfg0.N := by rw [hN32]; exact i.isLt
    rw [dif_pos hi]
    unfold gtotsq Cert.Spec.sq
    exact Finset.sum_congr rfl fun q _ => Finset.sum_congr rfl fun k _ => congrArg₂ (· * ·) (hblk i.val hi _ k) (hblk i.val hi _ k)
  rw [Finset.sum_congr rfl fun i _ => e1 i, Finset.sum_comm]
  unfold Cert.Spec.gsum
  refine Finset.sum_congr rfl fun q _ => ?_
  refine (Cert.RefValue.sum_flat 32768 32 1024 rfl (fun s => Cert.Spec.sq f (ix3 b (Cert.Spec.chan off md h q) s))
    (fun i k => Cert.Spec.sq f (ix3 b (Cert.Spec.chan off md h q) ⟨1024 * i.val + k.val, by have := i.isLt; have := k.isLt; omega⟩)) ?_).symm
  intro a r k hk
  exact congrArg (fun s => Cert.Spec.sq f (ix3 b (Cert.Spec.chan off md h q) s)) (Fin.ext (by show k.val = 1024 * a.val + r.val; omega))

/-- The group sums of the specification, by group. -/
def T1 (f : Cert.Spec.SF.Idx → EReal) (g b : Fin 4) : EReal :=
  match g with
  | ⟨0, _⟩ => Cert.Spec.gsum 0 64 Cert.Spec.h0 f b
  | ⟨1, _⟩ => Cert.Spec.gsum 64 96 Cert.Spec.h1 f b
  | ⟨2, _⟩ => Cert.Spec.gsum 160 80 Cert.Spec.h2 f b
  | ⟨3, _⟩ => Cert.Spec.gsum 240 56 Cert.Spec.h3 f b

theorem total (b g : Fin 4) :
    chain zeroW (F1 V c g b) 31 = T1 (V c main_v0) g b ∧ chain zeroW (F2 V c g b) 31 = T1 (Cert.Spec.sq (V c main_v0)) g b := by
  have hz : zeroW = 0 := Cert.Consts.zero_eq
  have hb : ∀ (i : ℕ) (hi : i < cfg0.N) (ch : Fin 296) (k : Fin 1024),
      (iblk0 (F := Ideal) V c 0 ⟨i, hi⟩ : Vec Ideal S4x296x1024 .f32) (ix3 b ch k)
        = (V c main_v0 : Cert.Spec.SF.Idx → EReal) (ix3 b ch ⟨1024 * i + k.val, by have := hN32; have := k.isLt; omega⟩) :=
    fun i hi ch k => iblk0_apply V c ⟨i, hi⟩ b ch k
  rw [chain_eq, chain_eq, hz, zero_add, zero_add]
  match g with
  | ⟨0, _⟩ => exact ⟨tot_sum (V c main_v0) 0 64 g0 b _ hb, totsq_sum (V c main_v0) 0 64 g0 b _ hb⟩
  | ⟨1, _⟩ => exact ⟨tot_sum (V c main_v0) 64 96 g1 b _ hb, totsq_sum (V c main_v0) 64 96 g1 b _ hb⟩
  | ⟨2, _⟩ => exact ⟨tot_sum (V c main_v0) 160 80 g2 b _ hb, totsq_sum (V c main_v0) 160 80 g2 b _ hb⟩
  | ⟨3, _⟩ => exact ⟨tot_sum (V c main_v0) 240 56 g3 b _ hb, totsq_sum (V c main_v0) 240 56 g3 b _ hb⟩

end Cert.KernelIdeal.Vals

end
-- ==== Proof.StatsFinal.lean ====
/-
  The two statistics arrays after the first region. Each is a whole 4 x 4 block with a block index that never moves,
  written back once, after the last point: the array ends holding what the last point left in the staging buffer.
-/
import proofs.«181770_j18743237280237_1_alg».proof.Proof.StatsSum
import Idealize.ShloMosaic.Lib.Pipeline.Value

set_option maxRecDepth 16384

noncomputable section

namespace Cert.KernelIdeal.Vals

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

abbrev tLast : Fin cfg0.N := ⟨31, h31⟩

theorem flushed1_eq (t : Fin cfg0.N) (hf : (cfg0.win 1).flush t = true) :
    (dat0 (F := Ideal) V c).flushed 1 t = ((cfg0.win 1).blk t).view.read (Elt Ideal) ((outsAt0 (F := Ideal) V c 31 h31).1) := by
  have hN : cfg0.N = 32 := N_0
  have h3 : t.val = 31 := by have := (flush0_1 t).mp hf; have := t.isLt; omega
  obtain rfl : t = tLast := Fin.ext h3
  show (cfg0.win 1).cut (grid0.coords tLast) ((dat0 V c).after 1 tLast) = _
  rw [after0_1]
  have hz' : (fun a => win0_1.index tLast a * main_v1_0.ty.shape.size a) = fun _ => 0 := funext fun a => by fin_cases a <;> decide +kernel
  exact (Memref.read_access_unit_zero (Elt Ideal) main_v1_0 hz' (fun a => by rw [congrFun hz' a]; simp) _).symm

theorem flushed2_eq (t : Fin cfg0.N) (hf : (cfg0.win 2).flush t = true) :
    (dat0 (F := Ideal) V c).flushed 2 t = ((cfg0.win 2).blk t).view.read (Elt Ideal) ((outsAt0 (F := Ideal) V c 31 h31).2.1) := by
  have hN : cfg0.N = 32 := N_0
  have h3 : t.val = 31 := by have := (flush0_2 t).mp hf; have := t.isLt; omega
  obtain rfl : t = tLast := Fin.ext h3
  show (cfg0.win 2).cut (grid0.coords tLast) ((dat0 V c).after 2 tLast) = _
  rw [after0_2]
  have hz' : (fun a => win0_2.index tLast a * main_v1_1.ty.shape.size a) = fun _ => 0 := funext fun a => by fin_cases a <;> decide +kernel
  exact (Memref.read_access_unit_zero (Elt Ideal) main_v1_1 hz' (fun a => by rw [congrFun hz' a]; simp) _).symm

theorem final1 : (dat0 (F := Ideal) V c).arrAt 1 cfg0.N = (outsAt0 (F := Ideal) V c 31 h31).1 :=
  (dat0 V c).arrAt_eq_of_cover 1 _ (flushed1_eq V c) fun i =>
    ⟨tLast, (flush0_1 tLast).mpr rfl, by
      show i ∈ ((View.whole main_v1_0).slice (win0_1.rect tLast)).set
      rw [View.set_slice_whole, Rect.mem_set_unit]
      intro a
      have h0 : (i 0 : Nat) < 4 := (i 0).isLt
      have h1 : (i 1 : Nat) < 4 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 4 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 4 from by decide +kernel]; omega⟩

theorem final2 : (dat0 (F := Ideal) V c).arrAt 2 cfg0.N = (outsAt0 (F := Ideal) V c 31 h31).2.1 :=
  (dat0 V c).arrAt_eq_of_cover 2 _ (flushed2_eq V c) fun i =>
    ⟨tLast, (flush0_2 tLast).mpr rfl, by
      show i ∈ ((View.whole main_v1_1).slice (win0_2.rect tLast)).set
      rw [View.set_slice_whole, Rect.mem_set_unit]
      intro a
      have h0 : (i 0 : Nat) < 4 := (i 0).isLt
      have h1 : (i 1 : Nat) < 4 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 4 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 4 from by decide +kernel]; omega⟩

end Cert.KernelIdeal.Vals

end
-- ==== Proof.StatsArr.lean ====
/-
  The two statistics arrays as the rest of the program finds them. After the first region, entry (b, g) of the
  first array is the group's sum over all of the flattened input's channels of the group and all positions, divided
  by the group's size; entry (b, g) of the second is the reciprocal root of the group's sum of squares over its size
  (less the squared mean for the first group) plus epsilon.
-/
import proofs.«181770_j18743237280237_1_alg».proof.Proof.StatsTotal
import proofs.«181770_j18743237280237_1_alg».proof.Proof.StatsFinal
import proofs.«181770_j18743237280237_1_alg».proof.Proof.RunIdeal

set_option maxRecDepth 16384

noncomputable section

namespace Cert.KernelIdeal.Vals

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem stat1 (b g : Fin 4) :
    W2 m ρ c (Proc.devRef .tc main_v1_0) (ix2 b g) = Ideal.div (T1 (V1 m ρ c main_v0) g b) (NW g) := by
  have h := W2_arr m ρ c 1
  rw [show W2 m ρ c (Proc.devRef .tc main_v1_0) = (dat0 (V1 m ρ) c).arrAt 1 cfg0.N from h, final1 (V1 m ρ) c,
    (out_final (V1 m ρ) c b g).1, (total (V1 m ρ) c b g).1]

theorem stat2 (b g : Fin 4) :
    W2 m ρ c (Proc.devRef .tc main_v1_1) (ix2 b g)
      = inv2 g (T1 (V1 m ρ c main_v0) g b) (T1 (Cert.Spec.sq (V1 m ρ c main_v0)) g b) := by
  have h := W2_arr m ρ c 2
  rw [show W2 m ρ c (Proc.devRef .tc main_v1_1) = (dat0 (V1 m ρ) c).arrAt 2 cfg0.N from h, final2 (V1 m ρ) c,
    (out_final (V1 m ρ) c b g).2, (total (V1 m ρ) c b g).1, (total (V1 m ρ) c b g).2]

end Cert.KernelIdeal.Vals

end
-- ==== Proof.LibHostLayout.lean ====
/-
  Layout operations of a host program read at an index, at ranks 0 to 3 with the extents as parameters and the
  coordinates typed by them: the broadcasts of a column, a vector, a row, a scalar and of a matrix to a trailing
  unit axis; a vector repeated along a new trailing axis and flattened (entry k of the result is entry k / d of the
  vector); the unit-stride slices of a column of a matrix and of a stretch of a vector; and a matrix assembled from
  four column blocks laid side by side (the entry at column ch is the entry of the block whose span holds ch, at
  ch less the widths of the blocks before it).
-/
import Idealize.ShloMosaic.Lib.Pipeline.Value
import Idealize.ShloMosaic.Lib.ValueIdx

namespace Cert.HostLayout

open Idealize.ShloMosaic Idealize.ShloMosaic.ValueIdx

variable {α : Type}

/-- A column [p, 1] broadcast to [p, n] reads, at (b, k), the column's row b. -/
theorem bcast_col_apply (p n : ℕ) (h : (⟨2, ![p, 1]⟩ : Shape).BroadcastsInDim ⟨2, ![p, n]⟩ ![0, 1])
    (y : (⟨2, ![p, 1]⟩ : Shape).Idx → α) (b : Fin p) (k : Fin n) :
    broadcastInDim ⟨2, ![p, n]⟩ ![0, 1] h y (ix2 b k) = y (ix2 b (0 : Fin 1)) := by
  have hb := b.isLt
  refine broadcastInDim_apply _ h y _ _ fun a => ?_
  match a with
  | ⟨0, _⟩ =>
    show b.val = if p = 1 then 0 else b.val
    split <;> omega
  | ⟨1, _⟩ =>
    show 0 = if (1 : ℕ) = 1 then 0 else k.val
    rw [if_pos rfl]

/-- A vector [n] broadcast to a row [1, n] reads, at (u, k), the vector's entry k. -/
theorem bcast_row1_apply (n : ℕ) (h : (⟨1, ![n]⟩ : Shape).BroadcastsInDim ⟨2, ![1, n]⟩ ![1])
    (y : (⟨1, ![n]⟩ : Shape).Idx → α) (u : Fin 1) (k : Fin n) :
    broadcastInDim ⟨2, ![1, n]⟩ ![1] h y (ix2 u k) = y (ix1 k) := by
  have hk := k.isLt
  refine broadcastInDim_apply _ h y _ _ fun a => ?_
  match a with
  | ⟨0, _⟩ =>
    show k.val = if n = 1 then 0 else k.val
    split <;> omega

/-- A row [1, n] broadcast to [p, n] reads, at (b, k), the row's entry k. -/
theorem bcast_rows_apply (p n : ℕ) (h : (⟨2, ![1, n]⟩ : Shape).BroadcastsInDim ⟨2, ![p, n]⟩ ![0, 1])
    (y : (⟨2, ![1, n]⟩ : Shape).Idx → α) (b : Fin p) (k : Fin n) :
    broadcastInDim ⟨2, ![p, n]⟩ ![0, 1] h y (ix2 b k) = y (ix2 (0 : Fin 1) k) := by
  have hk := k.isLt
  refine broadcastInDim_apply _ h y _ _ fun a => ?_
  match a with
  | ⟨0, _⟩ =>
    show 0 = if (1 : ℕ) = 1 then 0 else b.val
    rw [if_pos rfl]
  | ⟨1, _⟩ =>
    show k.val = if n = 1 then 0 else k.val
    split <;> omega

/-- A vector [m] broadcast along a new trailing axis to [m, d] reads, at (a, dd), the vector's entry a. -/
theorem bcast_rep_apply (m d : ℕ) (h : (⟨1, ![m]⟩ : Shape).BroadcastsInDim ⟨2, ![m, d]⟩ ![0])
    (y : (⟨1, ![m]⟩ : Shape).Idx → α) (a : Fin m) (dd : Fin d) :
    broadcastInDim ⟨2, ![m, d]⟩ ![0] h y (ix2 a dd) = y (ix1 a) := by
  have ha := a.isLt
  refine broadcastInDim_apply _ h y _ _ fun e => ?_
  match e with
  | ⟨0, _⟩ =>
    show a.val = if m = 1 then 0 else a.val
    split <;> omega

/-- A matrix [m, d] flattened to [N], N = m * d, reads, at k, the matrix's entry (k / d, k % d). -/
theorem flatten_apply (m d N : ℕ) (hN : N = m * d) (hd : 0 < d) (h : (⟨2, ![m, d]⟩ : Shape).ShapeCasts ⟨1, ![N]⟩)
    (y : (⟨2, ![m, d]⟩ : Shape).Idx → α) (k : Fin N) :
    shapeCast ⟨1, ![N]⟩ y h (ix1 k)
      = y (ix2 (⟨k.val / d, Nat.div_lt_of_lt_mul (by rw [Nat.mul_comm, ← hN]; exact k.isLt)⟩ : Fin m)
            (⟨k.val % d, Nat.mod_lt _ hd⟩ : Fin d)) := by
  refine shapeCast_apply y h _ _ ?_
  rw [Shape.rowMajor_val_two, Shape.rowMajor_val_one]
  show k.val / d * d + k.val % d = k.val
  exact Nat.div_add_mod' _ _

/-- A scalar broadcast to [p, n] reads the scalar everywhere. -/
theorem bcast_scalar_apply (p n : ℕ) (h : (⟨0, ![]⟩ : Shape).BroadcastsInDim ⟨2, ![p, n]⟩ ![])
    (y : (⟨0, ![]⟩ : Shape).Idx → α) (b : Fin p) (k : Fin n) :
    broadcastInDim ⟨2, ![p, n]⟩ ![] h y (ix2 b k) = y ix0 :=
  broadcastInDim_apply _ h y _ _ fun a => a.elim0

/-- Column g of a matrix [p, q], sliced out as [p, 1], reads, at (b, u), the matrix's entry (b, g). -/
theorem slice_col_apply (p q g : ℕ) (hg : g < q) (h : (⟨2, ![p, q]⟩ : Shape).Slices ![0, g] ⟨2, ![p, 1]⟩)
    (y : (⟨2, ![p, q]⟩ : Shape).Idx → α) (b : Fin p) (u : Fin 1) :
    extractStridedSlice ⟨2, ![p, 1]⟩ ![0, g] y h (ix2 b u) = y (ix2 b (⟨g, hg⟩ : Fin q)) := by
  have hu := u.isLt
  refine extractStridedSlice_apply _ y h _ _ fun a => ?_
  match a with
  | ⟨0, _⟩ => show b.val = 0 + b.val; omega
  | ⟨1, _⟩ => show g = g + u.val; omega

/-- The stretch of n entries from off of a vector [N] reads, at k, the vector's entry off + k. -/
theorem slice_vec_apply (N n off : ℕ) (hoff : off + n ≤ N) (h : (⟨1, ![N]⟩ : Shape).Slices ![off] ⟨1, ![n]⟩)
    (y : (⟨1, ![N]⟩ : Shape).Idx → α) (k : Fin n) :
    extractStridedSlice ⟨1, ![n]⟩ ![off] y h (ix1 k) = y (ix1 (⟨off + k.val, by have := k.isLt; omega⟩ : Fin N)) := by
  refine extractStridedSlice_apply _ y h _ _ fun a => ?_
  match a with
  | ⟨0, _⟩ => rfl

/-- A matrix [p, n] broadcast to a trailing unit axis [p, n, 1] reads, at (b, k, u), the matrix's entry (b, k). -/
theorem bcast_unit_last_apply (p n : ℕ) (h : (⟨2, ![p, n]⟩ : Shape).BroadcastsInDim ⟨3, ![p, n, 1]⟩ ![0, 1])
    (y : (⟨2, ![p, n]⟩ : Shape).Idx → α) (b : Fin p) (k : Fin n) (u : Fin 1) :
    broadcastInDim ⟨3, ![p, n, 1]⟩ ![0, 1] h y (ix3 b k u) = y (ix2 b k) := by
  have hb := b.isLt; have hk := k.isLt
  refine broadcastInDim_apply _ h y _ _ fun a => ?_
  match a with
  | ⟨0, _⟩ =>
    show b.val = if p = 1 then 0 else b.val
    split <;> omega
  | ⟨1, _⟩ =>
    show k.val = if n = 1 then 0 else k.val
    split <;> omega

section Cat4

variable (p n0 n1 n2 n3 N : ℕ)
  (h : Shape.Concatenates [(⟨2, ![p, n0]⟩ : Shape), ⟨2, ![p, n1]⟩, ⟨2, ![p, n2]⟩, ⟨2, ![p, n3]⟩] ⟨2, ![p, N]⟩ 1)
  (y0 : (⟨2, ![p, n0]⟩ : Shape).Idx → α) (y1 : (⟨2, ![p, n1]⟩ : Shape).Idx → α)
  (y2 : (⟨2, ![p, n2]⟩ : Shape).Idx → α) (y3 : (⟨2, ![p, n3]⟩ : Shape).Idx → α)

/-- Four column blocks side by side, at a column of the first block. -/
theorem cat4_apply0 (b : Fin p) (ch : Fin N) (k : Fin n0) (hk : k.val = ch.val) :
    concatenate ⟨2, ![p, N]⟩ 1 [⟨⟨2, ![p, n0]⟩, y0⟩, ⟨⟨2, ![p, n1]⟩, y1⟩, ⟨⟨2, ![p, n2]⟩, y2⟩, ⟨⟨2, ![p, n3]⟩, y3⟩] h (ix2 b ch)
      = y0 (ix2 b k) := by
  refine concatenate_apply_piece 1 _ _ (ix2 b ch) 0 (by show 0 < 4; decide) ⟨2, ![p, n0]⟩ y0 rfl rfl 0 rfl (ix2 b k)
    (fun a => ?_) (by show 0 + k.val = ch.val; omega)
  match a with
  | ⟨0, _⟩ => exact fun _ => rfl
  | ⟨1, _⟩ => exact fun hne => absurd rfl hne

/-- Four column blocks side by side, at a column of the second block. -/
theorem cat4_apply1 (b : Fin p) (ch : Fin N) (k : Fin n1) (hk : n0 + k.val = ch.val) :
    concatenate ⟨2, ![p, N]⟩ 1 [⟨⟨2, ![p, n0]⟩, y0⟩, ⟨⟨2, ![p, n1]⟩, y1⟩, ⟨⟨2, ![p, n2]⟩, y2⟩, ⟨⟨2, ![p, n3]⟩, y3⟩] h (ix2 b ch)
      = y1 (ix2 b k) := by
  refine concatenate_apply_piece 1 _ _ (ix2 b ch) 1 (by show 1 < 4; decide) ⟨2, ![p, n1]⟩ y1 rfl rfl n0
    (by show n0 + 0 = n0; omega) (ix2 b k) (fun a => ?_) hk
  match a with
  | ⟨0, _⟩ => exact fun _ => rfl
  | ⟨1, _⟩ => exact fun hne => absurd rfl hne

/-- Four column blocks side by side, at a column of the third block. -/
theorem cat4_apply2 (b : Fin p) (ch : Fin N) (k : Fin n2) (hk : n0 + n1 + k.val = ch.val) :
    concatenate ⟨2, ![p, N]⟩ 1 [⟨⟨2, ![p, n0]⟩, y0⟩, ⟨⟨2, ![p, n1]⟩, y1⟩, ⟨⟨2, ![p, n2]⟩, y2⟩, ⟨⟨2, ![p, n3]⟩, y3⟩] h (ix2 b ch)
      = y2 (ix2 b k) := by
  refine concatenate_apply_piece 1 _ _ (ix2 b ch) 2 (by show 2 < 4; decide) ⟨2, ![p, n2]⟩ y2 rfl rfl (n0 + n1)
    (by show n0 + (n1 + 0) = n0 + n1; omega) (ix2 b k) (fun a => ?_) hk
  match a with
  | ⟨0, _⟩ => exact fun _ => rfl
  | ⟨1, _⟩ => exact fun hne => absurd rfl hne

/-- Four column blocks side by side, at a column of the fourth block. -/
theorem cat4_apply3 (b : Fin p) (ch : Fin N) (k : Fin n3) (hk : n0 + n1 + n2 + k.val = ch.val) :
    concatenate ⟨2, ![p, N]⟩ 1 [⟨⟨2, ![p, n0]⟩, y0⟩, ⟨⟨2, ![p, n1]⟩, y1⟩, ⟨⟨2, ![p, n2]⟩, y2⟩, ⟨⟨2, ![p, n3]⟩, y3⟩] h (ix2 b ch)
      = y3 (ix2 b k) := by
  refine concatenate_apply_piece 1 _ _ (ix2 b ch) 3 (by show 3 < 4; decide) ⟨2, ![p, n3]⟩ y3 rfl rfl (n0 + n1 + n2)
    (by show n0 + (n1 + (n2 + 0)) = n0 + n1 + n2; omega) (ix2 b k) (fun a => ?_) hk
  match a with
  | ⟨0, _⟩ => exact fun _ => rfl
  | ⟨1, _⟩ => exact fun hne => absurd rfl hne

end Cat4

end Cert.HostLayout
-- ==== Proof.GlueBase.lean ====
/-
  The host operations between the two regions build, from the two [4, 4] statistics arrays, the weight and the shift,
  three [4, 296, 1] arrays: the per-channel centre, scale and shift. This module holds what the three readings share:
  the channel group of a channel, the entries of a literal family of four, and that the weight and the shift, which
  no host operation writes and which are no window's array, still hold their launch contents after the first region.
-/
import proofs.«181770_j18743237280237_1_alg».proof.Proof.RunIdeal
import proofs.«181770_j18743237280237_1_alg».proof.Proof.LibHostLayout
import proofs.«181770_j18743237280237_1_alg».proof.Proof.Spec

noncomputable section

namespace Cert.KernelIdeal.Glue

open Cert.KernelIdeal Cert.KernelIdeal.Gen Cert.KernelIdeal.Hand Cert.HostLayout
open Idealize.ShloMosaic Idealize.ShloMosaic.ValueIdx Idealize.ShloMosaic.StableHlo Idealize.ShloMosaic.TcCoe Idealize.SL.Sem

variable (m : (ℓ : Loc nD τ sig) → Buf (Elt Ideal) ℓ) (ρ : Dev nD → PrngReg) (c : Dev nD)

/-- The channel group of a channel: 64, 96, 80 and 56 consecutive channels. -/
def grp (ch : Fin 296) : Fin 4 := if ch.val < 64 then 0 else if ch.val < 160 then 1 else if ch.val < 240 then 2 else 3

/-- The entries of a literal family of four. -/
theorem v4_0 {α : Type} (a b c d : α) : (![a, b, c, d] : Fin 4 → α) 0 = a := rfl
theorem v4_1 {α : Type} (a b c d : α) : (![a, b, c, d] : Fin 4 → α) 1 = b := rfl
theorem v4_2 {α : Type} (a b c d : α) : (![a, b, c, d] : Fin 4 → α) 2 = c := rfl
theorem v4_3 {α : Type} (a b c d : α) : (![a, b, c, d] : Fin 4 → α) 3 = d := rfl

/-- The weight holds its launch contents after the first region. -/
theorem W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- The shift holds its launch contents after the first region. -/
theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

end Cert.KernelIdeal.Glue

end
-- ==== Proof.GlueMean.lean ====
/-
  The per-channel centre the host builds between the two regions, read at an index: the [4, 296, 1] array is the
  [4, 296] concatenation of four blocks; the first block is column 0 of the first statistics array broadcast along
  the first group's 64 channels, the other three blocks are the zero word everywhere.
-/
import proofs.«181770_j18743237280237_1_alg».proof.Proof.GlueBase

noncomputable section

namespace Cert.KernelIdeal.Glue

open Cert.KernelIdeal Cert.KernelIdeal.Gen Cert.KernelIdeal.Hand Cert.HostLayout
open Idealize.ShloMosaic Idealize.ShloMosaic.ValueIdx Idealize.ShloMosaic.StableHlo Idealize.ShloMosaic.TcCoe Idealize.SL.Sem

variable (m : (ℓ : Loc nD τ sig) → Buf (Elt Ideal) ℓ) (ρ : Dev nD → PrngReg) (c : Dev nD)

/-- The centre at (b, ch): the first group's centre on its channels, the zero word on every other channel. -/
theorem glue_mean (b : Fin 4) (ch : Fin 296) :
    W3 m ρ c (Proc.devRef .tc main_v47) (ix3 b ch (0 : Fin 1))
      = if ch.val < 64 then W2 m ρ c (Proc.devRef .tc main_v1_0) (ix2 b (0 : Fin 4)) else Ideal.ofBits .f32 0x00000000#32 := by
  have hch := ch.isLt
  show StableHlo.after hostOps1 (W2 m ρ c) (Proc.devRef .tc main_v47) (ix3 b ch (0 : Fin 1)) = _
  after_results_simp
  refine (bcast_unit_last_apply 4 296 _ _ b ch 0).trans ?_
  by_cases c0 : ch.val < 64
  · refine (cat4_apply0 4 64 96 80 56 296 _ _ _ _ _ b ch ⟨ch.val, c0⟩ rfl).trans ?_
    dsimp only [v4_0]
    after_results_simp
    refine (bcast_col_apply 4 64 _ _ b _).trans ?_
    refine (slice_col_apply 4 4 0 (by norm_num) _ _ b 0).trans ?_
    rw [if_pos c0]
    rfl
  · rw [if_neg c0]
    by_cases c1 : ch.val < 160
    · refine (cat4_apply1 4 64 96 80 56 296 _ _ _ _ _ b ch ⟨ch.val - 64, by omega⟩ (by show 64 + (ch.val - 64) = ch.val; omega)).trans ?_
      dsimp only [v4_1]
      after_results_simp
      exact bcast_scalar_apply 4 96 _ _ b _
    · by_cases c2 : ch.val < 240
      · refine (cat4_apply2 4 64 96 80 56 296 _ _ _ _ _ b ch ⟨ch.val - 160, by omega⟩ (by show 64 + 96 + (ch.val - 160) = ch.val; omega)).trans ?_
        dsimp only [v4_2]
        after_results_simp
        exact bcast_scalar_apply 4 80 _ _ b _
      · refine (cat4_apply3 4 64 96 80 56 296 _ _ _ _ _ b ch ⟨ch.val - 240, by omega⟩ (by show 64 + 96 + 80 + (ch.val - 240) = ch.val; omega)).trans ?_
        dsimp only [v4_3]
        after_results_simp
        exact bcast_scalar_apply 4 56 _ _ b _

end Cert.KernelIdeal.Glue

end
-- ==== Proof.GlueScale.lean ====
/-
  The per-channel scale the host builds between the two regions, read at an index: the [4, 296, 1] array is the
  [4, 296] concatenation of four blocks, block g being the product of column g of the second statistics array
  (broadcast along the block's channels) with the block's weights, each weight repeated over the irrep dimension
  (entry k of the repeated stretch is weight k / d of the stretch).
-/
import proofs.«181770_j18743237280237_1_alg».proof.Proof.GlueBase

noncomputable section

namespace Cert.KernelIdeal.Glue

open Cert.KernelIdeal Cert.KernelIdeal.Gen Cert.KernelIdeal.Hand Cert.HostLayout
open Idealize.ShloMosaic Idealize.ShloMosaic.ValueIdx Idealize.ShloMosaic.StableHlo Idealize.ShloMosaic.TcCoe Idealize.SL.Sem

variable (m : (ℓ : Loc nD τ sig) → Buf (Elt Ideal) ℓ) (ρ : Dev nD → PrngReg) (c : Dev nD)

/-- The scale at (b, ch): the reciprocal root of the channel's group times the weight of the channel's multiplicity. -/
theorem glue_scale (b : Fin 4) (ch : Fin 296) :
    W3 m ρ c (Proc.devRef .tc main_v48) (ix3 b ch (0 : Fin 1))
      = HMul.hMul (α := EReal) (β := EReal) (γ := EReal)
          (W2 m ρ c (Proc.devRef .tc main_v1_1) (ix2 b (grp ch)))
          (m ((c : Thread nD τ).loc main_arg1) (ix1 (Cert.Spec.wIdx ch))) := by
  have hch := ch.isLt
  show StableHlo.after hostOps1 (W2 m ρ c) (Proc.devRef .tc main_v48) (ix3 b ch (0 : Fin 1)) = _
  after_results_simp
  refine (bcast_unit_last_apply 4 296 _ _ b ch 0).trans ?_
  by_cases c0 : ch.val < 64
  · refine (cat4_apply0 4 64 96 80 56 296 _ _ _ _ _ b ch ⟨ch.val, c0⟩ rfl).trans ?_
    dsimp only [v4_0]
    after_results_simp
    refine (mulf_apply _ _ _).trans ?_
    refine congrArg₂ (· * ·) ?_ ?_
    · refine (bcast_col_apply 4 64 _ _ b _).trans ?_
      refine (slice_col_apply 4 4 0 (by norm_num) _ _ b 0).trans ?_
      have eg : grp ch = ⟨0, by norm_num⟩ := by unfold grp; rw [if_pos c0]; rfl
      rw [eg]
    · refine (bcast_rows_apply 4 64 _ _ b _).trans ?_
      refine (bcast_row1_apply 64 _ _ 0 _).trans ?_
      refine (flatten_apply 64 1 64 rfl (by norm_num) _ _ _).trans ?_
      refine (bcast_rep_apply 64 1 _ _ _ _).trans ?_
      refine (slice_vec_apply 120 64 0 (by norm_num) _ _ _).trans ?_
      rw [W2_arg1]
      refine congrArg (fun i => m ((c : Thread nD τ).loc main_arg1) (ix1 i)) (Fin.ext ?_)
      unfold Cert.Spec.wIdx
      rw [dif_pos c0]
      show 0 + (ch.val) / 1 = ch.val
      omega
  · by_cases c1 : ch.val < 160
    · refine (cat4_apply1 4 64 96 80 56 296 _ _ _ _ _ b ch ⟨ch.val - 64, by omega⟩ (by show 64 + (ch.val - 64) = ch.val; omega)).trans ?_
      dsimp only [v4_1]
      after_results_simp
      refine (mulf_apply _ _ _).trans ?_
      refine congrArg₂ (· * ·) ?_ ?_
      · refine (bcast_col_apply 4 96 _ _ b _).trans ?_
        refine (slice_col_apply 4 4 1 (by norm_num) _ _ b 0).trans ?_
        have eg : grp ch = ⟨1, by norm_num⟩ := by unfold grp; rw [if_neg c0, if_pos c1]; rfl
        rw [eg]
      · refine (bcast_rows_apply 4 96 _ _ b _).trans ?_
        refine (bcast_row1_apply 96 _ _ 0 _).trans ?_
        refine (flatten_apply 32 3 96 rfl (by norm_num) _ _ _).trans ?_
        refine (bcast_rep_apply 32 3 _ _ _ _).trans ?_
        refine (slice_vec_apply 120 32 64 (by norm_num) _ _ _).trans ?_
        rw [W2_arg1]
        refine congrArg (fun i => m ((c : Thread nD τ).loc main_arg1) (ix1 i)) (Fin.ext ?_)
        unfold Cert.Spec.wIdx
        rw [dif_neg c0, dif_pos c1]
    · by_cases c2 : ch.val < 240
      · refine (cat4_apply2 4 64 96 80 56 296 _ _ _ _ _ b ch ⟨ch.val - 160, by omega⟩ (by show 64 + 96 + (ch.val - 160) = ch.val; omega)).trans ?_
        dsimp only [v4_2]
        after_results_simp
        refine (mulf_apply _ _ _).trans ?_
        refine congrArg₂ (· * ·) ?_ ?_
        · refine (bcast_col_apply 4 80 _ _ b _).trans ?_
          refine (slice_col_apply 4 4 2 (by norm_num) _ _ b 0).trans ?_
          have eg : grp ch = ⟨2, by norm_num⟩ := by unfold grp; rw [if_neg c0, if_neg c1, if_pos c2]; rfl
          rw [eg]
        · refine (bcast_rows_apply 4 80 _ _ b _).trans ?_
          refine (bcast_row1_apply 80 _ _ 0 _).trans ?_
          refine (flatten_apply 16 5 80 rfl (by norm_num) _ _ _).trans ?_
          refine (bcast_rep_apply 16 5 _ _ _ _).trans ?_
          refine (slice_vec_apply 120 16 96 (by norm_num) _ _ _).trans ?_
          rw [W2_arg1]
          refine congrArg (fun i => m ((c : Thread nD τ).loc main_arg1) (ix1 i)) (Fin.ext ?_)
          unfold Cert.Spec.wIdx
          rw [dif_neg c0, dif_neg c1, dif_pos c2]
      · refine (cat4_apply3 4 64 96 80 56 296 _ _ _ _ _ b ch ⟨ch.val - 240, by omega⟩ (by show 64 + 96 + 80 + (ch.val - 240) = ch.val; omega)).trans ?_
        dsimp only [v4_3]
        after_results_simp
        refine (mulf_apply _ _ _).trans ?_
        refine congrArg₂ (· * ·) ?_ ?_
        · refine (bcast_col_apply 4 56 _ _ b _).trans ?_
          refine (slice_col_apply 4 4 3 (by norm_num) _ _ b 0).trans ?_
          have eg : grp ch = ⟨3, by norm_num⟩ := by unfold grp; rw [if_neg c0, if_neg c1, if_neg c2]; rfl
          rw [eg]
        · refine (bcast_rows_apply 4 56 _ _ b _).trans ?_
          refine (bcast_row1_apply 56 _ _ 0 _).trans ?_
          refine (flatten_apply 8 7 56 rfl (by norm_num) _ _ _).trans ?_
          refine (bcast_rep_apply 8 7 _ _ _ _).trans ?_
          refine (slice_vec_apply 120 8 112 (by norm_num) _ _ _).trans ?_
          rw [W2_arg1]
          refine congrArg (fun i => m ((c : Thread nD τ).loc main_arg1) (ix1 i)) (Fin.ext ?_)
          unfold Cert.Spec.wIdx
          rw [dif_neg c0, dif_neg c1, dif_neg c2]

end Cert.KernelIdeal.Glue

end
-- ==== Proof.GlueBias.lean ====
/-
  The per-channel shift the host builds between the two regions, read at an index: the [4, 296, 1] array is the
  [4, 296] concatenation of four blocks; the first block is the 64 shifts broadcast along the batch rows, the other
  three blocks are the zero word everywhere.
-/
import proofs.«181770_j18743237280237_1_alg».proof.Proof.GlueBase

noncomputable section

namespace Cert.KernelIdeal.Glue

open Cert.KernelIdeal Cert.KernelIdeal.Gen Cert.KernelIdeal.Hand Cert.HostLayout
open Idealize.ShloMosaic Idealize.ShloMosaic.ValueIdx Idealize.ShloMosaic.StableHlo Idealize.ShloMosaic.TcCoe Idealize.SL.Sem

variable (m : (ℓ : Loc nD τ sig) → Buf (Elt Ideal) ℓ) (ρ : Dev nD → PrngReg) (c : Dev nD)

/-- The shift at (b, ch): the channel's shift on the first group's channels, the zero word on every other channel. -/
theorem glue_bias (b : Fin 4) (ch : Fin 296) :
    W3 m ρ c (Proc.devRef .tc main_v49) (ix3 b ch (0 : Fin 1))
      = if h : ch.val < 64 then m ((c : Thread nD τ).loc main_arg2) (ix1 ⟨ch.val, h⟩)
        else Ideal.ofBits .f32 0x00000000#32 := by
  have hch := ch.isLt
  show StableHlo.after hostOps1 (W2 m ρ c) (Proc.devRef .tc main_v49) (ix3 b ch (0 : Fin 1)) = _
  after_results_simp
  refine (bcast_unit_last_apply 4 296 _ _ b ch 0).trans ?_
  by_cases c0 : ch.val < 64
  · refine (cat4_apply0 4 64 96 80 56 296 _ _ _ _ _ b ch ⟨ch.val, c0⟩ rfl).trans ?_
    dsimp only [v4_0]
    after_results_simp
    refine (bcast_rows_apply 4 64 _ _ b _).trans ?_
    refine (bcast_row1_apply 64 _ _ 0 _).trans ?_
    rw [dif_pos c0, W2_arg2]
  · rw [dif_neg c0]
    by_cases c1 : ch.val < 160
    · refine (cat4_apply1 4 64 96 80 56 296 _ _ _ _ _ b ch ⟨ch.val - 64, by omega⟩ (by show 64 + (ch.val - 64) = ch.val; omega)).trans ?_
      dsimp only [v4_1]
      after_results_simp
      exact bcast_scalar_apply 4 96 _ _ b _
    · by_cases c2 : ch.val < 240
      · refine (cat4_apply2 4 64 96 80 56 296 _ _ _ _ _ b ch ⟨ch.val - 160, by omega⟩ (by show 64 + 96 + (ch.val - 160) = ch.val; omega)).trans ?_
        dsimp only [v4_2]
        after_results_simp
        exact bcast_scalar_apply 4 80 _ _ b _
      · refine (cat4_apply3 4 64 96 80 56 296 _ _ _ _ _ b ch ⟨ch.val - 240, by omega⟩ (by show 64 + 96 + 80 + (ch.val - 240) = ch.val; omega)).trans ?_
        dsimp only [v4_3]
        after_results_simp
        exact bcast_scalar_apply 4 56 _ _ b _

end Cert.KernelIdeal.Glue

end
-- ==== Proof.GlueValue.lean ====
/-
  The three arrays the host builds between the two regions, read at an index: the per-channel centre, scale and
  shift (glue_mean, glue_scale, glue_bias), each proved in its own module; this module gathers them.
-/
import proofs.«181770_j18743237280237_1_alg».proof.Proof.GlueMean
import proofs.«181770_j18743237280237_1_alg».proof.Proof.GlueScale
import proofs.«181770_j18743237280237_1_alg».proof.Proof.GlueBias
-- ==== Proof.NormLib.lean ====
/-
  A per-row column broadcast along the last axis, read at an index given by coordinates.
  An [a, b, 1] array holds one entry per pair (p, q); broadcast to [a, b, c] it repeats that entry over the c
  positions of the last axis, so read at (p, q, k) it is the operand at (p, q, 0), whatever k is.
-/
import Idealize.ShloMosaic.Lib.ValueIdx
import Idealize.ShloMosaic.Lib.Pipeline.Value

namespace Cert.KernelIdeal.NormV

open Idealize.ShloMosaic Idealize.ShloMosaic.ValueIdx

variable {α : Type}

/-- An `[a, b, 1]` array broadcast over `c` positions of the last axis reads, at `(p, q, k)`, the operand at
    `(p, q, 0)`: the two leading coordinates are kept (an extent-one leading axis has only the coordinate 0), the
    last one is the unit axis' only coordinate. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.KernelIdeal.NormV
-- ==== Proof.NormValue.lean ====
/-
  The value of the normalisation region, index by index. At every grid point t the region's body reads block t of
  the flattened input (positions 1024 t .. 1024 t + 1023 of the last axis) and the three whole per-channel columns,
  and writes back (x - centre) * scale + shift over block t of the output. The 32 blocks tile the last axis, so after
  the region the output array is one function of the four input arrays as the region finds them:
  at (b, ch, s) it is (x (b, ch, s) - centre (b, ch, 0)) * scale (b, ch, 0) + shift (b, ch, 0).
-/
import proofs.«181770_j18743237280237_1_alg».proof.Proof.RunIdeal
import proofs.«181770_j18743237280237_1_alg».proof.Proof.NormLib
import Idealize.ShloMosaic.Lib.Pipeline.Value
import Idealize.ShloMosaic.Lib.ValueIdx

set_option maxRecDepth 16384

noncomputable section

namespace Cert.KernelIdeal.NormV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The function the output array ends holding -/

/-- The column entry that goes with an index: same batch row and channel, the unit axis' only coordinate. -/
abbrev colOf {n : ℕ} (i : (⟨3, ![4, 296, n]⟩ : Shape).Idx) : S4x296x1.Idx := ix3 (i 0 : Fin 4) (i 1 : Fin 296) (0 : Fin 1)

/-- The normalised array: each entry minus its row's centre, times its row's scale, plus its row's shift. -/
abbrev normOf {n : ℕ} (X : (⟨3, ![4, 296, n]⟩ : Shape).Idx → EReal) (MU SC BI : S4x296x1.Idx → EReal) :
    (⟨3, ![4, 296, n]⟩ : Shape).Idx → EReal :=
  fun i => (X i - MU (colOf i)) * SC (colOf i) + BI (colOf i)

/-! ## The body's payload at an index -/

/-- The payload of a block and three columns, read at a position of the block. -/
theorem pay_apply (x0 : Vec Ideal S4x296x1024 .f32) (x1 x2 x3 : Vec Ideal S4x296x1 .f32) (p : Fin 4) (q : Fin 296) (k : Fin 1024) :
    k1_pay1 x0 x1 x2 x3 (ix3 p q k)
      = (x0 (ix3 p q k) - x1 (ix3 p q (0 : Fin 1))) * x2 (ix3 p q (0 : Fin 1)) + x3 (ix3 p q (0 : Fin 1)) := by
  unfold k1_pay1
  simp only [shapeCast_self]
  rw [addf_apply, mulf_apply, subf_apply, broadcastTo_ab1_abc_apply, broadcastTo_ab1_abc_apply, broadcastTo_ab1_abc_apply]

/-- The same at any index of the block: the payload is the normalised block. -/
theorem pay_eq (x0 : Vec Ideal S4x296x1024 .f32) (x1 x2 x3 : Vec Ideal S4x296x1 .f32) (j : S4x296x1024.Idx) :
    k1_pay1 x0 x1 x2 x3 j = normOf x0 x1 x2 x3 j := by
  obtain ⟨p, q, k, rfl⟩ : ∃ (p : Fin 4) (q : Fin 296) (k : Fin 1024), j = ix3 p q k := ⟨j 0, j 1, j 2, eq_ix3 j⟩
  exact pay_apply x0 x1 x2 x3 p q k

/-- Two normalised arrays agree at two indices where their four ingredients agree. -/
theorem normOf_congr {n n' : ℕ} (X : (⟨3, ![4, 296, n]⟩ : Shape).Idx → EReal) (X' : (⟨3, ![4, 296, n']⟩ : Shape).Idx → EReal)
    (MU SC BI MU' SC' BI' : S4x296x1.Idx → EReal) (j : (⟨3, ![4, 296, n]⟩ : Shape).Idx) (j' : (⟨3, ![4, 296, n']⟩ : Shape).Idx)
    (hX : X j = X' j') (hMU : MU (colOf j) = MU' (colOf j')) (hSC : SC (colOf j) = SC' (colOf j')) (hBI : BI (colOf j) = BI' (colOf j')) :
    normOf X MU SC BI j = normOf X' MU' SC' BI' j' := by
  show (X j - MU (colOf j)) * SC (colOf j) + BI (colOf j) = (X' j' - MU' (colOf j')) * SC' (colOf j') + BI' (colOf j')
  rw [hX, hMU, hSC, hBI]

/-! ## From the blocks to the array -/

variable (V : (c : Dev nD) → (b : Ref sig .tc) → Buf (Elt Ideal) ((c : Thread nD τ).loc b))

/-- The zero offsets of a rank-3 whole-buffer access, as a constant function. -/
theorem zeros3 : (![0, 0, 0] : Fin 3 → Nat) = fun _ => 0 := funext fun a => by fin_cases a <;> rfl

/-- The printed index maps, decided over the 32 grid points: the input block and the output block are block t of
    the last axis (and the only block of the two leading axes); each column's block is the whole column. -/
theorem index_facts : ∀ t : Fin cfg1.N,
    win1_0.index t (0 : Fin 3) = 0 ∧ win1_0.index t (1 : Fin 3) = 0 ∧ win1_0.index t (2 : Fin 3) = t.val
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = t.val :=
  (by decide +kernel : ∀ t : Fin grid1.N, _)

/-- What point t writes back is block t of the normalised array of the four input arrays as the region finds them. -/
theorem flushed_eq (c : Dev nD) (t : Fin cfg1.N) :
    (dat1 V c).flushed 4 t
      = ((cfg1.win 4).blk t).view.read (Elt Ideal) (normOf (V c main_v0) (V c main_v47) (V c main_v48) (V c main_v49)) := by
  show (cfg1.win 4).cut (grid1.coords t) ((dat1 V c).after 4 t) = _
  rw [after1_4]
  unfold out1_4
  rw [View.canon_unit_zero zeros3]
  simp only [View.ld_unit_zero (S := S4x296x1024) zeros3, View.ld_unit_zero (S := S4x296x1) zeros3]
  obtain ⟨a00, a01, a02, a10, a11, a12, a20, a21, a22, a30, a31, a32, a40, a41, a42⟩ := index_facts t
  funext j
  show k1_pay1 (iblk1 V c 0 t) (iblk1 V c 1 t) (iblk1 V c 2 t) (iblk1 V c 3 t) j
    = normOf (V c main_v0) (V c main_v47) (V c main_v48) (V c main_v49) (((cfg1.win 4).blk t).view.emb j)
  refine (pay_eq _ _ _ _ j).trans ?_
  have h0 : ((cfg1.win 0).blk t).view.emb j = ((cfg1.win 4).blk t).view.emb j := by
    funext a; apply Fin.ext
    match a with
    | ⟨0, _⟩ => show win1_0.index t (0 : Fin 3) * 4 + 1 * (j 0).val = win1_4.index t (0 : Fin 3) * 4 + 1 * (j 0).val; omega
    | ⟨1, _⟩ => show win1_0.index t (1 : Fin 3) * 296 + 1 * (j 1).val = win1_4.index t (1 : Fin 3) * 296 + 1 * (j 1).val; omega
    | ⟨2, _⟩ => show win1_0.index t (2 : Fin 3) * 1024 + 1 * (j 2).val = win1_4.index t (2 : Fin 3) * 1024 + 1 * (j 2).val; omega
  have h1 : ((cfg1.win 1).blk t).view.emb (colOf j) = colOf (((cfg1.win 4).blk t).view.emb j) := by
    funext a; apply Fin.ext
    match a with
    | ⟨0, _⟩ => show win1_1.index t (0 : Fin 3) * 4 + 1 * (j 0).val = win1_4.index t (0 : Fin 3) * 4 + 1 * (j 0).val; omega
    | ⟨1, _⟩ => show win1_1.index t (1 : Fin 3) * 296 + 1 * (j 1).val = win1_4.index t (1 : Fin 3) * 296 + 1 * (j 1).val; omega
    | ⟨2, _⟩ => show win1_1.index t (2 : Fin 3) * 1 + 1 * 0 = 0; omega
  have h2 : ((cfg1.win 2).blk t).view.emb (colOf j) = colOf (((cfg1.win 4).blk t).view.emb j) := by
    funext a; apply Fin.ext
    match a with
    | ⟨0, _⟩ => show win1_2.index t (0 : Fin 3) * 4 + 1 * (j 0).val = win1_4.index t (0 : Fin 3) * 4 + 1 * (j 0).val; omega
    | ⟨1, _⟩ => show win1_2.index t (1 : Fin 3) * 296 + 1 * (j 1).val = win1_4.index t (1 : Fin 3) * 296 + 1 * (j 1).val; omega
    | ⟨2, _⟩ => show win1_2.index t (2 : Fin 3) * 1 + 1 * 0 = 0; omega
  have h3 : ((cfg1.win 3).blk t).view.emb (colOf j) = colOf (((cfg1.win 4).blk t).view.emb j) := by
    funext a; apply Fin.ext
    match a with
    | ⟨0, _⟩ => show win1_3.index t (0 : Fin 3) * 4 + 1 * (j 0).val = win1_4.index t (0 : Fin 3) * 4 + 1 * (j 0).val; omega
    | ⟨1, _⟩ => show win1_3.index t (1 : Fin 3) * 296 + 1 * (j 1).val = win1_4.index t (1 : Fin 3) * 296 + 1 * (j 1).val; omega
    | ⟨2, _⟩ => show win1_3.index t (2 : Fin 3) * 1 + 1 * 0 = 0; omega
  exact normOf_congr _ _ _ _ _ _ _ _ j _ (congrArg (V c main_v0) h0) (congrArg (V c main_v47) h1) (congrArg (V c main_v48) h2)
    (congrArg (V c main_v49) h3)

/-- An index of the output array is in point t's block iff each coordinate is in the block's range on its axis. -/
theorem mem_blk (t : Fin cfg1.N) (i : S4x296x32768.Idx) :
    i ∈ ((cfg1.win 4).blk t).view.set
      ↔ ∀ a : Fin 3, win1_4.index t a * S4x296x1024.size a ≤ (i a).val ∧ (i a).val < win1_4.index t a * S4x296x1024.size a + S4x296x1024.size a := by
  show i ∈ ((View.whole main_v50).slice (win1_4.rect t)).set ↔ _
  rw [View.set_slice_whole, Rect.mem_set_unit]
  exact Iff.rfl

/-- The 32 blocks tile the array: position s of the last axis is in the block of point s / 1024, and every point
    writes its block back. -/
theorem cover (i : S4x296x32768.Idx) :
    ∃ t : Fin cfg1.N, (cfg1.win 4).flush t = true ∧ i ∈ ((cfg1.win 4).blk t).view.set := by
  have hi0 : (i 0).val < 4 := (i 0).isLt
  have hi1 : (i 1).val < 296 := (i 1).isLt
  have hi2 : (i 2).val < 32768 := (i 2).isLt
  have ht : (i 2).val / 1024 < cfg1.N := by show (i 2).val / 1024 < 32; omega
  obtain ⟨-, -, -, -, -, -, -, -, -, -, -, -, a40, a41, a42⟩ := index_facts ⟨(i 2).val / 1024, ht⟩
  have a42' : win1_4.index ⟨(i 2).val / 1024, ht⟩ (2 : Fin 3) = (i 2).val / 1024 := a42
  refine ⟨⟨(i 2).val / 1024, ht⟩, flush1_4 _, ?_⟩
  rw [mem_blk]
  intro a
  match a with
  | ⟨0, _⟩ =>
    show win1_4.index ⟨(i 2).val / 1024, ht⟩ (0 : Fin 3) * 4 ≤ (i 0).val ∧ (i 0).val < win1_4.index ⟨(i 2).val / 1024, ht⟩ (0 : Fin 3) * 4 + 4
    omega
  | ⟨1, _⟩ =>
    show win1_4.index ⟨(i 2).val / 1024, ht⟩ (1 : Fin 3) * 296 ≤ (i 1).val ∧ (i 1).val < win1_4.index ⟨(i 2).val / 1024, ht⟩ (1 : Fin 3) * 296 + 296
    omega
  | ⟨2, _⟩ =>
    show win1_4.index ⟨(i 2).val / 1024, ht⟩ (2 : Fin 3) * 1024 ≤ (i 2).val ∧ (i 2).val < win1_4.index ⟨(i 2).val / 1024, ht⟩ (2 : Fin 3) * 1024 + 1024
    omega

/-- The output array after the region is the normalised array of the four input arrays as the region finds them. -/
theorem norm_array (c : Dev nD) :
    (dat1 V c).arrAt 4 cfg1.N = normOf (V c main_v0) (V c main_v47) (V c main_v48) (V c main_v49) :=
  (dat1 V c).arrAt_eq_of_cover 4 _ (fun t _ => flushed_eq V c t) cover

/-- The same, read at a batch row, a channel and a position. -/
theorem norm_final (c : Dev nD) (b : Fin 4) (ch : Fin 296) (s : Fin 32768) :
    (dat1 (F := Ideal) V c).arrAt 4 cfg1.N (ix3 b ch s)
      = normOf (V c main_v0) (V c main_v47) (V c main_v48) (V c main_v49) (ix3 b ch s) := by
  rw [norm_array]

/-- The same with the four entries named: if the input holds x at (b, ch, s) and the three columns hold the centre,
    the scale and the shift at (b, ch, 0), the output holds (x - centre) * scale + shift at (b, ch, s). -/
theorem norm_final_of (c : Dev nD) (b : Fin 4) (ch : Fin 296) (s : Fin 32768) (x mu sc bi : EReal)
    (hx : V c main_v0 (ix3 b ch s) = x) (hmu : V c main_v47 (ix3 b ch (0 : Fin 1)) = mu)
    (hsc : V c main_v48 (ix3 b ch (0 : Fin 1)) = sc) (hbi : V c main_v49 (ix3 b ch (0 : Fin 1)) = bi) :
    (dat1 (F := Ideal) V c).arrAt 4 cfg1.N (ix3 b ch s) = (x - mu) * sc + bi := by
  rw [norm_final, ← hx, ← hmu, ← hsc, ← hbi]

end Cert.KernelIdeal.NormV

end
-- ==== Proof.ReshapeValue.lean ====
/-
  The two reshapes at the ends of the program, read at an index. The first host operation reads the
  [4, 296, 32, 32, 32] input as a [4, 296, 32768] array and the last one reads the [4, 296, 32768] result back as a
  [4, 296, 32, 32, 32] array; both keep the row-major position, so position s of the flattened last axis is
  (s / 1024, s / 32 mod 32, s mod 32) and (s1, s2, s3) is position 1024 s1 + 32 s2 + s3. The flattened input is the
  first region's input window array, which no write-back touches, and none of the second host stretch's operations
  writes it: it still holds the flattened input when the normalisation region is entered.
-/
import proofs.«181770_j18743237280237_1_alg».proof.Proof.RunIdeal
import proofs.«181770_j18743237280237_1_alg».proof.Proof.Spec
import Idealize.ShloMosaic.Lib.Pipeline.Value
import Idealize.ShloMosaic.Lib.ValueIdx

set_option maxRecDepth 16384

noncomputable section

namespace Cert.KernelIdeal.Reshape

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The two casts at an index -/

/-- A [4, 296, 32768] array read as [4, 296, 32, 32, 32], at (b, ch, s1, s2, s3): the array at (b, ch, 1024 s1 + 32 s2 + s3). -/
theorem cast_unflatten (y : S4x296x32768.Idx → EReal) (h : S4x296x32768.ShapeCasts S4x296x32x32x32)
    (b : Fin 4) (ch : Fin 296) (s1 s2 s3 : Fin 32) :
    shapeCast S4x296x32x32x32 y h (ix5 b ch s1 s2 s3) = y (ix3 b ch (Cert.Spec.flatS s1 s2 s3)) :=
  shapeCast_apply y h (ix5 b ch s1 s2 s3) (ix3 b ch (Cert.Spec.flatS s1 s2 s3)) (by
    rw [Shape.rowMajor_val_three, Shape.rowMajor_val_five]
    have hb := b.isLt; have hc := ch.isLt; have h1 := s1.isLt; have h2 := s2.isLt; have h3 := s3.isLt
    show (b.val * 296 + ch.val) * 32768 + (1024 * s1.val + 32 * s2.val + s3.val)
      = (((b.val * 296 + ch.val) * 32 + s1.val) * 32 + s2.val) * 32 + s3.val
    omega)

/-- A [4, 296, 32, 32, 32] array read as [4, 296, 32768], at any index: the array read flattened. -/
theorem cast_flatten (x : S4x296x32x32x32.Idx → EReal) (h : S4x296x32x32x32.ShapeCasts S4x296x32768) (i : S4x296x32768.Idx) :
    shapeCast S4x296x32768 x h i = Cert.Spec.flat x i :=
  shapeCast_apply x h i (Cert.Spec.unflat (i 0) (i 1) (i 2)) (by
    rw [Shape.rowMajor_val_five, Shape.rowMajor_val_three]
    have h0 : (i 0).val < 4 := (i 0).isLt
    have h1 : (i 1).val < 296 := (i 1).isLt
    have h2 : (i 2).val < 32768 := (i 2).isLt
    show ((((i 0).val * 296 + (i 1).val) * 32 + (i 2).val / 1024) * 32 + (i 2).val / 32 % 32) * 32 + (i 2).val % 32
      = ((i 0).val * 296 + (i 1).val) * 32768 + (i 2).val
    omega)

/-! ## The boundaries' contents -/

variable (m : (ℓ : Loc nD τ sig) → Buf (Elt Ideal) ℓ) (ρ : Dev nD → PrngReg) (c : Dev nD)

/-- After the last host stretch the result buffer is the cast of the normalisation region's output array. -/
theorem W5_main_v51 :
    (W5 m ρ c (Proc.devRef .tc main_v51) : S4x296x32x32x32.Idx → EReal)
      = shapeCast S4x296x32x32x32 (W4 m ρ c (Proc.devRef .tc main_v50) : S4x296x32768.Idx → EReal) shapeCasts_S4x296x32768_S4x296x32x32x32 := by
  show StableHlo.after hostOps2 (W4 m ρ c) (Proc.devRef .tc main_v51) = _
  after_results
  rfl

/-- THE RESULT at (b, ch, s1, s2, s3) is the normalisation region's output array at (b, ch, 1024 s1 + 32 s2 + s3). -/
theorem out_reshape (b : Fin 4) (ch : Fin 296) (s1 s2 s3 : Fin 32) :
    W5 m ρ c (Proc.devRef .tc main_v51) (ix5 b ch s1 s2 s3)
      = W4 m ρ c (Proc.devRef .tc main_v50) (ix3 b ch (Cert.Spec.flatS s1 s2 s3)) :=
  (congrFun (W5_main_v51 m ρ c) (ix5 b ch s1 s2 s3)).trans (cast_unflatten _ _ b ch s1 s2 s3)

/-- After the first host stretch the flattened-input buffer is the cast of the input. -/
theorem W1_main_v0 :
    (W1 m ρ c (Proc.devRef .tc main_v0) : S4x296x32768.Idx → EReal)
      = shapeCast S4x296x32768 (m ((c : Thread nD τ).loc main_arg0) : S4x296x32x32x32.Idx → EReal) shapeCasts_S4x296x32x32x32_S4x296x32768 := by
  show StableHlo.after hostOps0 (W0 m ρ c) (Proc.devRef .tc main_v0) = _
  after_results
  rfl

/-- The flattened-input buffer after the first host stretch, at an index: the input read flattened. -/
theorem in_flat1 (i : S4x296x32768.Idx) :
    W1 m ρ c (Proc.devRef .tc main_v0) i = Cert.Spec.flat (m ((c : Thread nD τ).loc main_arg0)) i :=
  (congrFun (W1_main_v0 m ρ c) i).trans (cast_flatten _ _ i)

/-- Neither the statistics region (whose input window array it is) nor the second host stretch changes the
    flattened-input buffer. -/
theorem W3_main_v0 : W3 m ρ c (Proc.devRef .tc main_v0) = W1 m ρ c (Proc.devRef .tc main_v0) :=
  calc W3 m ρ c (Proc.devRef .tc main_v0)
    _ = W2 m ρ c (Proc.devRef .tc main_v0) := StableHlo.after_of_writes_sub hostOps1 _ hostOps1_writes (by decide)
    _ = (dat0 (V1 m ρ) c).arrAt 0 cfg0.N := W2_arr m ρ c 0
    _ = (dat0 (V1 m ρ) c).A 0 := (dat0 (V1 m ρ) c).arrAt_in 0 rfl cfg0.N
    _ = W1 m ρ c (Proc.devRef .tc main_v0) := A_eq0 (V1 m ρ) c 0

/-- THE INPUT OF THE NORMALISATION REGION at an index: the program's input read flattened. -/
theorem in_flat (i : S4x296x32768.Idx) :
    W3 m ρ c (Proc.devRef .tc main_v0) i = Cert.Spec.flat (m ((c : Thread nD τ).loc main_arg0)) i :=
  (congrFun (W3_main_v0 m ρ c) i).trans (in_flat1 m ρ c i)

end Cert.KernelIdeal.Reshape

end
-- ==== Proof.KernelValue.lean ====
/-
  The kernel program's result, index by index, is the specification's kernel form. The result array is the reshape
  of the normalisation region's output; that output is (x - centre) * scale + shift of the flattened input and the
  three per-channel columns; the columns are the host operations' arrangement of the two statistics arrays, the
  weights and the shifts; and the statistics arrays are the group means and reciprocal roots of the flattened input.
-/
import proofs.«181770_j18743237280237_1_alg».proof.Proof.StatsArr
import proofs.«181770_j18743237280237_1_alg».proof.Proof.GlueValue
import proofs.«181770_j18743237280237_1_alg».proof.Proof.NormValue
import proofs.«181770_j18743237280237_1_alg».proof.Proof.ReshapeValue

set_option maxRecDepth 16384

noncomputable section

namespace Cert.KernelIdeal.KV

open Cert.KernelIdeal Cert.KernelIdeal.Gen Cert.KernelIdeal.Hand Cert.KernelIdeal.Vals
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The array both regions read is the flattened input. -/
theorem X1_eq : (V1 m ρ c main_v0 : Cert.Spec.SF.Idx → EReal) = Cert.Spec.flat (m ((c : Thread nD τ).loc main_arg0)) :=
  funext fun i => Cert.KernelIdeal.Reshape.in_flat1 m ρ c i

theorem kernel_value (b : Fin 4) (ch : Fin 296) (s1 s2 s3 : Fin 32) :
    W5 m ρ c (Proc.devRef .tc main_v51) (ix5 b ch s1 s2 s3)
      = Cert.Spec.specK (Cert.Spec.flat (m ((c : Thread nD τ).loc main_arg0))) (m ((c : Thread nD τ).loc main_arg1))
          (m ((c : Thread nD τ).loc main_arg2)) b ch (Cert.Spec.flatS s1 s2 s3) := by
  rw [Cert.KernelIdeal.Reshape.out_reshape m ρ c b ch s1 s2 s3,
    show W4 m ρ c (Proc.devRef .tc main_v50) = (dat1 (V3 m ρ) c).arrAt 4 cfg1.N from W4_arr m ρ c 4]
  refine (Cert.KernelIdeal.NormV.norm_final_of (V3 m ρ) c b ch (Cert.Spec.flatS s1 s2 s3) _ _ _ _
    (Cert.KernelIdeal.Reshape.in_flat m ρ c _) (Cert.KernelIdeal.Glue.glue_mean m ρ c b ch) (Cert.KernelIdeal.Glue.glue_scale m ρ c b ch)
    (Cert.KernelIdeal.Glue.glue_bias m ρ c b ch)).trans ?_
  rw [stat1, stat2, X1_eq]
  unfold Cert.Spec.specK
  by_cases c0 : ch.val < 64
  · rw [dif_pos c0, if_pos c0, dif_pos c0, show Cert.KernelIdeal.Glue.grp ch = 0 from by unfold Cert.KernelIdeal.Glue.grp; rw [if_pos c0]]
    rfl
  · by_cases c1 : ch.val < 160
    · rw [dif_neg c0, if_neg c0, dif_neg c0, dif_pos c1, show Cert.KernelIdeal.Glue.grp ch = 1 from by unfold Cert.KernelIdeal.Glue.grp; rw [if_neg c0, if_pos c1]]
      rfl
    · by_cases c2 : ch.val < 240
      · rw [dif_neg c0, if_neg c0, dif_neg c0, dif_neg c1, dif_pos c2, show Cert.KernelIdeal.Glue.grp ch = 2 from by unfold Cert.KernelIdeal.Glue.grp; rw [if_neg c0, if_neg c1, if_pos c2]]
        rfl
      · rw [dif_neg c0, if_neg c0, dif_neg c0, dif_neg c1, dif_neg c2, show Cert.KernelIdeal.Glue.grp ch = 3 from by unfold Cert.KernelIdeal.Glue.grp; rw [if_neg c0, if_neg c1, if_neg c2]]
        rfl

end Cert.KernelIdeal.KV

end
-- ==== Proof.RefG0.lean ====
/-
  The first channel group of the reference (channels 0 to 63, dimension 1), read at an index. The group's entries
  are viewed as [4, 64, 1, 32768]. The centre is the sum over the 64 * 32768 flattened (channel, position) pairs
  divided by N; the entries are centred; the variance statistic is the sum of the squared centred entries over the
  unit axis and then over the flattened pairs; the result is the centred entry times
  (power(variance / N + eps, -1/2) times the channel's weight) plus the channel's shift.
-/
import proofs.«181770_j18743237280237_1_alg».proof.Proof.Gen.ReferenceIdeal.Read
import proofs.«181770_j18743237280237_1_alg».proof.Proof.Spec
import proofs.«181770_j18743237280237_1_alg».proof.Proof.RefSums

noncomputable section

namespace Cert.RefValue

open Cert.ReferenceIdeal Cert.ReferenceIdeal.Read Cert.Spec Idealize.ShloMosaic Idealize.ShloMosaic.ValueIdx

/-- The entry (b, mi, di, s) of the [4, 64, 1, 32768] view is the flattened input at channel mi. -/
theorem g0_entry (x : (⟨S4x296x32x32x32, .f32⟩ : BufTy).Contents (Elt Ideal))
    (b : Fin 4) (mi : Fin 64) (di : Fin 1) (s : Fin 32768) :
    val_main_v1 (F := Ideal) x (ix4 b mi di s) = flat x (ix3 b (chan 0 64 h0 mi) s) := by
  have hb := b.isLt; have hm := mi.isLt; have hd := di.isLt; have hs := s.isLt
  rw [val_main_v1_apply, val_main_v0_apply]
  show x _ = x _
  refine congrArg x (funext fun a => Fin.ext ?_)
  match a with
  | ⟨0, _⟩ => show (((b.val * 64 + mi.val) * 1 + di.val) * 32768 + s.val) / 2097152 = b.val; omega
  | ⟨1, _⟩ => show (((b.val * 64 + mi.val) * 1 + di.val) * 32768 + s.val) / 32768 % 64 = 0 + mi.val; omega
  | ⟨2, _⟩ => show (((b.val * 64 + mi.val) * 1 + di.val) * 32768 + s.val) / 1024 % 32 = s.val / 1024; omega
  | ⟨3, _⟩ => show (((b.val * 64 + mi.val) * 1 + di.val) * 32768 + s.val) / 32 % 32 = s.val / 32 % 32; omega
  | ⟨4, _⟩ => show (((b.val * 64 + mi.val) * 1 + di.val) * 32768 + s.val) % 32 = s.val % 32; omega

/-- Position k = s + 32768 * mi of the flattened [4, 2097152] view. -/
theorem g0_flat (x : (⟨S4x296x32x32x32, .f32⟩ : BufTy).Contents (Elt Ideal))
    (b : Fin 4) (mi : Fin 64) (s : Fin 32768) (k : Fin 2097152) (hk : k.val = s.val + 32768 * mi.val) :
    val_main_v2 (F := Ideal) x (ix2 b k) = flat x (ix3 b (chan 0 64 h0 mi) s) := by
  have hb := b.isLt; have hm := mi.isLt; have hs := s.isLt
  have e : idx_main_v2 (ix2 b k) = ix4 b mi (0 : Fin 1) s := by
    refine funext fun a => Fin.ext ?_
    match a with
    | ⟨0, _⟩ => show (b.val * 2097152 + k.val) / 2097152 = b.val; omega
    | ⟨1, _⟩ => show (b.val * 2097152 + k.val) / 32768 % 64 = mi.val; omega
    | ⟨2, _⟩ => rfl
    | ⟨3, _⟩ => show (b.val * 2097152 + k.val) % 32768 = s.val; omega
  rw [val_main_v2_apply, e, g0_entry]

/-- The sum of the group's entries. -/
theorem g0_sum (x : (⟨S4x296x32x32x32, .f32⟩ : BufTy).Contents (Elt Ideal)) (b : Fin 4) :
    val_main_v3 (F := Ideal) x (ix1 b) = gsum 0 64 h0 (flat x) b := by
  rw [val_main_v3_apply, val_main_cst_apply, Ideal.ofBits_def, Ideal.ofBits_zero_f32, zero_add]
  have e : ∀ k : Fin 2097152, idx_main_v3 (ix1 b) k = ix2 b k := fun k =>
    funext fun a => Fin.ext (by match a with | ⟨0, _⟩ => rfl | ⟨1, _⟩ => rfl)
  unfold gsum
  refine sum_flat 2097152 64 32768 (by norm_num) _ _ (fun mi s k hk => ?_)
  rw [e k]; exact g0_flat x b mi s k hk

/-- The centre. -/
theorem g0_mean (x : (⟨S4x296x32x32x32, .f32⟩ : BufTy).Contents (Elt Ideal)) (b : Fin 4) :
    val_main_v5 (F := Ideal) x (ix1 b) = mean0 (flat x) b := by
  rw [val_main_v5_apply, g0_sum, val_main_v4_apply, val_main_cst_0_apply]
  simp only [Ideal.hostDivf_def, Ideal.ofBits_def]
  rfl

/-- The centred entry. -/
theorem g0_centred (x : (⟨S4x296x32x32x32, .f32⟩ : BufTy).Contents (Elt Ideal))
    (b : Fin 4) (mi : Fin 64) (di : Fin 1) (s : Fin 32768) :
    val_main_v8 (F := Ideal) x (ix4 b mi di s) = centred (flat x) (ix3 b (chan 0 64 h0 mi) s) := by
  have e : idx_main_v6 (idx_main_v7 (ix4 b mi di s)) = ix1 b :=
    funext fun a => Fin.ext (by match a with | ⟨0, _⟩ => rfl)
  rw [val_main_v8_apply, g0_entry, val_main_v7_apply, val_main_v6_apply, e, g0_mean, Ideal.subf_def]
  rfl

/-- Position k = s + 32768 * mi of the flattened [4, 2097152] array of squared centred entries. -/
theorem g0_row (x : (⟨S4x296x32x32x32, .f32⟩ : BufTy).Contents (Elt Ideal))
    (b : Fin 4) (mi : Fin 64) (s : Fin 32768) (k : Fin 2097152) (hk : k.val = s.val + 32768 * mi.val) :
    val_main_v11 (F := Ideal) x (ix2 b k) = sq (centred (flat x)) (ix3 b (chan 0 64 h0 mi) s) := by
  have hb := b.isLt; have hm := mi.isLt; have hs := s.isLt
  have e : idx_main_v10 (idx_main_v11 (ix2 b k)) (0 : Fin 1) = ix4 b mi (0 : Fin 1) s := by
    refine funext fun a => Fin.ext ?_
    match a with
    | ⟨0, _⟩ => show (b.val * 2097152 + k.val) / 2097152 = b.val; omega
    | ⟨1, _⟩ => show (b.val * 2097152 + k.val) / 32768 % 64 = mi.val; omega
    | ⟨2, _⟩ => rfl
    | ⟨3, _⟩ => show (b.val * 2097152 + k.val) % 32768 = s.val; omega
  rw [val_main_v11_apply, val_main_v10_apply, val_main_cst_1_apply, Ideal.ofBits_def, Ideal.ofBits_zero_f32, zero_add,
    Fin.sum_univ_one, val_main_v9_apply, e, g0_centred, Ideal.mulf_def]
  rfl

/-- The variance statistic: the sum of the squared centred entries over the group's channels and all positions. -/
theorem g0_stat (x : (⟨S4x296x32x32x32, .f32⟩ : BufTy).Contents (Elt Ideal)) (b : Fin 4) :
    val_main_v12 (F := Ideal) x (ix1 b) = gsum 0 64 h0 (sq (centred (flat x))) b := by
  rw [val_main_v12_apply, val_main_cst_2_apply, Ideal.ofBits_def, Ideal.ofBits_zero_f32, zero_add]
  have e : ∀ k : Fin 2097152, idx_main_v12 (ix1 b) k = ix2 b k := fun k =>
    funext fun a => Fin.ext (by match a with | ⟨0, _⟩ => rfl | ⟨1, _⟩ => rfl)
  unfold gsum
  refine sum_flat 2097152 64 32768 (by norm_num) _ _ (fun mi s k hk => ?_)
  rw [e k]; exact g0_row x b mi s k hk

/-- The reciprocal root of the group's variance. -/
theorem g0_inv (x : (⟨S4x296x32x32x32, .f32⟩ : BufTy).Contents (Elt Ideal)) (b : Fin 4) :
    val_main_v18 (F := Ideal) x (ix1 b) = invR0 (flat x) b := by
  rw [val_main_v18_apply, val_main_v16_apply, val_main_v14_apply, g0_stat, val_main_v13_apply, val_main_cst_3_apply,
    val_main_v15_apply, val_main_cst_4_apply, val_main_v17_apply, val_main_cst_5_apply]
  simp only [Ideal.hostPowf_def, Ideal.hostDivf_def, Ideal.addf_def, Ideal.ofBits_def]
  rfl

/-- The scale of channel mi: the reciprocal root times the channel's weight. -/
theorem g0_scale (x : (⟨S4x296x32x32x32, .f32⟩ : BufTy).Contents (Elt Ideal)) (w : (⟨S120, .f32⟩ : BufTy).Contents (Elt Ideal))
    (b : Fin 4) (mi : Fin 64) (u v : Fin 1) :
    val_main_v24 (F := Ideal) x w (ix4 b mi u v)
      = invR0 (flat x) b * w (ix1 ⟨mi.val, by have := mi.isLt; omega⟩) := by
  have e1 : idx_main_v19 (idx_main_v22 (ix4 b mi u v)) = ix1 b :=
    funext fun a => Fin.ext (by match a with | ⟨0, _⟩ => rfl)
  have e2 : idx_main_v20 (idx_main_v21 (idx_main_v23 (ix4 b mi u v))) = ix1 ⟨mi.val, by have := mi.isLt; omega⟩ :=
    funext fun a => Fin.ext (by match a with | ⟨0, _⟩ => rfl)
  rw [val_main_v24_apply, val_main_v22_apply, val_main_v19_apply, val_main_v23_apply, val_main_v21_apply, val_main_v20_apply,
    e1, e2, g0_inv, Ideal.mulf_def]

/-- The shift of channel mi. -/
theorem g0_shift (bi : (⟨S64, .f32⟩ : BufTy).Contents (Elt Ideal))
    (b : Fin 4) (mi : Fin 64) (di : Fin 1) (s : Fin 32768) :
    val_main_v28 (F := Ideal) bi (ix4 b mi di s) = bi (ix1 mi) := by
  have e : idx_main_v27 (idx_main_v28 (ix4 b mi di s)) = ix1 mi :=
    funext fun a => Fin.ext (by match a with | ⟨0, _⟩ => rfl)
  rw [val_main_v28_apply, val_main_v27_apply, e]

/-- The group's result at channel k and position (s1, s2, s3). -/
theorem ref_group0 (x : (⟨S4x296x32x32x32, .f32⟩ : BufTy).Contents (Elt Ideal)) (w : (⟨S120, .f32⟩ : BufTy).Contents (Elt Ideal)) (bi : (⟨S64, .f32⟩ : BufTy).Contents (Elt Ideal))
    (b : Fin 4) (k : Fin 64) (s1 s2 s3 : Fin 32) :
    val_main_v30 (F := Ideal) x w bi (ix5 b k s1 s2 s3)
      = (flat x (ix3 b (chan 0 64 h0 k) (flatS s1 s2 s3)) - mean0 (flat x) b)
          * (invR0 (flat x) b * w (ix1 ⟨k.val, by have := k.isLt; omega⟩)) + bi (ix1 k) := by
  have hb := b.isLt; have hk := k.isLt; have hs1 := s1.isLt; have hs2 := s2.isLt; have hs3 := s3.isLt
  have e : idx_main_v30 (ix5 b k s1 s2 s3) = ix4 b k (0 : Fin 1) (flatS s1 s2 s3) := by
    refine funext fun a => Fin.ext ?_
    match a with
    | ⟨0, _⟩ => show ((((b.val * 64 + k.val) * 32 + s1.val) * 32 + s2.val) * 32 + s3.val) / 2097152 = b.val; omega
    | ⟨1, _⟩ => show ((((b.val * 64 + k.val) * 32 + s1.val) * 32 + s2.val) * 32 + s3.val) / 32768 % 64 = k.val; omega
    | ⟨2, _⟩ => rfl
    | ⟨3, _⟩ => show ((((b.val * 64 + k.val) * 32 + s1.val) * 32 + s2.val) * 32 + s3.val) % 32768 = 1024 * s1.val + 32 * s2.val + s3.val; omega
  have e' : idx_main_v25 (ix4 b k (0 : Fin 1) (flatS s1 s2 s3)) = ix4 b k (0 : Fin 1) (0 : Fin 1) :=
    funext fun a => Fin.ext (by match a with | ⟨0, _⟩ => rfl | ⟨1, _⟩ => rfl | ⟨2, _⟩ => rfl | ⟨3, _⟩ => rfl)
  rw [val_main_v30_apply, val_main_v29_apply, val_main_v26_apply, val_main_v25_apply, e, e', g0_centred, g0_scale, g0_shift,
    Ideal.mulf_def, Ideal.addf_def]
  rfl

end Cert.RefValue

end
-- ==== Proof.RefG1.lean ====
/-
  Channel group 1 of the reference (channels 64 to 159: 32 multiplicities of dimension 3), read at an index.
  The group's entries are viewed as [4, 32, 3, 32768]; the variance statistic is the sum of the squares over the
  dimension axis, then over the 32 * 32768 flattened (multiplicity, position) pairs, which is the sum over the
  group's 96 channels and all positions re-grouped; the result is the entry times (power(variance / N + eps, -1/2)
  times the weight of the channel's multiplicity).
-/
import proofs.«181770_j18743237280237_1_alg».proof.Proof.Gen.ReferenceIdeal.Read
import proofs.«181770_j18743237280237_1_alg».proof.Proof.Spec
import proofs.«181770_j18743237280237_1_alg».proof.Proof.RefSums

noncomputable section

namespace Cert.RefValue

open Cert.ReferenceIdeal Cert.ReferenceIdeal.Read Cert.Spec Idealize.ShloMosaic Idealize.ShloMosaic.ValueIdx

/-- The entry (b, mi, di, s) of the [4, 32, 3, 32768] view is the flattened input at channel 64 + 3 * mi + di. -/
theorem g1_entry (x : (⟨S4x296x32x32x32, .f32⟩ : BufTy).Contents (Elt Ideal))
    (b : Fin 4) (mi : Fin 32) (di : Fin 3) (s : Fin 32768) :
    val_main_v32 (F := Ideal) x (ix4 b mi di s)
      = flat x (ix3 b ⟨64 + (3 * mi.val + di.val), by have := mi.isLt; have := di.isLt; omega⟩ s) := by
  have hb := b.isLt; have hm := mi.isLt; have hd := di.isLt; have hs := s.isLt
  rw [val_main_v32_apply, val_main_v31_apply]
  show x _ = x _
  refine congrArg x (funext fun a => Fin.ext ?_)
  match a with
  | ⟨0, _⟩ => show (((b.val * 32 + mi.val) * 3 + di.val) * 32768 + s.val) / 3145728 = b.val; omega
  | ⟨1, _⟩ => show 64 + (((b.val * 32 + mi.val) * 3 + di.val) * 32768 + s.val) / 32768 % 96 = 64 + (3 * mi.val + di.val); omega
  | ⟨2, _⟩ => show (((b.val * 32 + mi.val) * 3 + di.val) * 32768 + s.val) / 1024 % 32 = s.val / 1024; omega
  | ⟨3, _⟩ => show (((b.val * 32 + mi.val) * 3 + di.val) * 32768 + s.val) / 32 % 32 = s.val / 32 % 32; omega
  | ⟨4, _⟩ => show (((b.val * 32 + mi.val) * 3 + di.val) * 32768 + s.val) % 32 = s.val % 32; omega

/-- Position k = s + 32768 * mi of the flattened [4, 1048576] array of per-(multiplicity, position) sums of squares. -/
theorem g1_row (x : (⟨S4x296x32x32x32, .f32⟩ : BufTy).Contents (Elt Ideal))
    (b : Fin 4) (mi : Fin 32) (s : Fin 32768) (k : Fin 1048576) (hk : k.val = s.val + 32768 * mi.val) :
    val_main_v35 (F := Ideal) x (ix2 b k)
      = ∑ di : Fin 3, sq (flat x) (ix3 b ⟨64 + (3 * mi.val + di.val), by have := mi.isLt; have := di.isLt; omega⟩ s) := by
  have hb := b.isLt; have hm := mi.isLt; have hs := s.isLt
  rw [val_main_v35_apply, val_main_v34_apply, val_main_cst_6_apply, Ideal.ofBits_def, Ideal.ofBits_zero_f32, zero_add]
  refine Finset.sum_congr rfl fun di _ => ?_
  have e : idx_main_v34 (idx_main_v35 (ix2 b k)) di = ix4 b mi di s := by
    refine funext fun a => Fin.ext ?_
    match a with
    | ⟨0, _⟩ => show (b.val * 1048576 + k.val) / 1048576 = b.val; omega
    | ⟨1, _⟩ => show (b.val * 1048576 + k.val) / 32768 % 32 = mi.val; omega
    | ⟨2, _⟩ => rfl
    | ⟨3, _⟩ => show (b.val * 1048576 + k.val) % 32768 = s.val; omega
  rw [val_main_v33_apply, e, g1_entry]
  rfl

/-- The variance statistic: the sum of the squares over the group's channels and all positions. -/
theorem g1_stat (x : (⟨S4x296x32x32x32, .f32⟩ : BufTy).Contents (Elt Ideal)) (b : Fin 4) :
    val_main_v36 (F := Ideal) x (ix1 b) = gsum 64 96 h1 (sq (flat x)) b := by
  rw [val_main_v36_apply, val_main_cst_7_apply, Ideal.ofBits_def, Ideal.ofBits_zero_f32, zero_add]
  have e : ∀ k : Fin 1048576, idx_main_v36 (ix1 b) k = ix2 b k := fun k =>
    funext fun a => Fin.ext (by match a with | ⟨0, _⟩ => rfl | ⟨1, _⟩ => rfl)
  unfold gsum
  refine sum_regroup 32 3 32768 1048576 96 (by norm_num) (by norm_num)
    (fun mi di s => sq (flat x) (ix3 b ⟨64 + (3 * mi.val + di.val), by have := mi.isLt; have := di.isLt; omega⟩ s))
    _ _ (fun mi s k hk => ?_) (fun mi di s c hc => ?_)
  · rw [e k]; exact g1_row x b mi s k hk
  · have ec : chan 64 96 h1 c = ⟨64 + (3 * mi.val + di.val), by have := mi.isLt; have := di.isLt; omega⟩ :=
      Fin.ext (by show 64 + c.val = 64 + (3 * mi.val + di.val); omega)
    rw [ec]

/-- The reciprocal root of the group's variance. -/
theorem g1_inv (x : (⟨S4x296x32x32x32, .f32⟩ : BufTy).Contents (Elt Ideal)) (b : Fin 4) :
    val_main_v42 (F := Ideal) x (ix1 b) = invR1 (flat x) b := by
  rw [val_main_v42_apply, val_main_v40_apply, val_main_v38_apply, g1_stat, val_main_v37_apply, val_main_cst_8_apply,
    val_main_v39_apply, val_main_cst_9_apply, val_main_v41_apply, val_main_cst_10_apply]
  simp only [Ideal.hostPowf_def, Ideal.hostDivf_def, Ideal.addf_def, Ideal.ofBits_def]
  rfl

/-- The scale of multiplicity mi: the reciprocal root times the multiplicity's weight. -/
theorem g1_scale (x : (⟨S4x296x32x32x32, .f32⟩ : BufTy).Contents (Elt Ideal)) (w : (⟨S120, .f32⟩ : BufTy).Contents (Elt Ideal))
    (b : Fin 4) (mi : Fin 32) (u v : Fin 1) :
    val_main_v48 (F := Ideal) x w (ix4 b mi u v)
      = invR1 (flat x) b * w (ix1 ⟨64 + mi.val, by have := mi.isLt; omega⟩) := by
  rw [val_main_v48_apply, val_main_v46_apply, val_main_v43_apply, val_main_v47_apply, val_main_v45_apply, val_main_v44_apply]
  have e1 : idx_main_v43 (idx_main_v46 (ix4 b mi u v)) = ix1 b :=
    funext fun a => Fin.ext (by match a with | ⟨0, _⟩ => rfl)
  have e2 : idx_main_v44 (idx_main_v45 (idx_main_v47 (ix4 b mi u v))) = ix1 ⟨64 + mi.val, by have := mi.isLt; omega⟩ :=
    funext fun a => Fin.ext (by match a with | ⟨0, _⟩ => rfl)
  rw [e1, e2, g1_inv, Ideal.mulf_def]

/-- The group's result at channel k of the group and position (s1, s2, s3). -/
theorem ref_group1 (x : (⟨S4x296x32x32x32, .f32⟩ : BufTy).Contents (Elt Ideal)) (w : (⟨S120, .f32⟩ : BufTy).Contents (Elt Ideal))
    (b : Fin 4) (k : Fin 96) (s1 s2 s3 : Fin 32) :
    val_main_v51 (F := Ideal) x w (ix5 b k s1 s2 s3)
      = flat x (ix3 b (chan 64 96 h1 k) (flatS s1 s2 s3))
          * (invR1 (flat x) b * w (ix1 ⟨64 + k.val / 3, by have := k.isLt; omega⟩)) := by
  have hb := b.isLt; have hk := k.isLt; have hs1 := s1.isLt; have hs2 := s2.isLt; have hs3 := s3.isLt
  have e : idx_main_v51 (ix5 b k s1 s2 s3)
      = ix4 b ⟨k.val / 3, by omega⟩ ⟨k.val % 3, Nat.mod_lt _ (by decide)⟩ (flatS s1 s2 s3) := by
    refine funext fun a => Fin.ext ?_
    match a with
    | ⟨0, _⟩ => show ((((b.val * 96 + k.val) * 32 + s1.val) * 32 + s2.val) * 32 + s3.val) / 3145728 = b.val; omega
    | ⟨1, _⟩ => show ((((b.val * 96 + k.val) * 32 + s1.val) * 32 + s2.val) * 32 + s3.val) / 98304 % 32 = k.val / 3; omega
    | ⟨2, _⟩ => show ((((b.val * 96 + k.val) * 32 + s1.val) * 32 + s2.val) * 32 + s3.val) / 32768 % 3 = k.val % 3; omega
    | ⟨3, _⟩ => show ((((b.val * 96 + k.val) * 32 + s1.val) * 32 + s2.val) * 32 + s3.val) % 32768 = 1024 * s1.val + 32 * s2.val + s3.val; omega
  have e' : idx_main_v49 (ix4 b (⟨k.val / 3, by omega⟩ : Fin 32) (⟨k.val % 3, Nat.mod_lt _ (by decide)⟩ : Fin 3) (flatS s1 s2 s3))
      = ix4 b (⟨k.val / 3, by omega⟩ : Fin 32) (0 : Fin 1) (0 : Fin 1) :=
    funext fun a => Fin.ext (by match a with | ⟨0, _⟩ => rfl | ⟨1, _⟩ => rfl | ⟨2, _⟩ => rfl | ⟨3, _⟩ => rfl)
  have ec : (⟨64 + (3 * (k.val / 3) + k.val % 3), by omega⟩ : Fin 296) = chan 64 96 h1 k :=
    Fin.ext (by show 64 + (3 * (k.val / 3) + k.val % 3) = 64 + k.val; omega)
  rw [val_main_v51_apply, val_main_v50_apply, val_main_v49_apply, e, e', g1_entry, g1_scale, Ideal.mulf_def]
  show flat x (ix3 b ⟨64 + (3 * (k.val / 3) + k.val % 3), _⟩ (flatS s1 s2 s3)) * _ = _
  rw [ec]

end Cert.RefValue

end
-- ==== Proof.RefG2.lean ====
/-
  Channel group 2 of the reference (channels 160 to 239: 16 multiplicities of dimension 5), read at an index.
  The group's entries are viewed as [4, 16, 5, 32768]; the variance statistic is the sum of the squares over the
  dimension axis, then over the 16 * 32768 flattened (multiplicity, position) pairs, which is the sum over the
  group's 80 channels and all positions re-grouped; the result is the entry times (power(variance / N + eps, -1/2)
  times the weight of the channel's multiplicity).
-/
import proofs.«181770_j18743237280237_1_alg».proof.Proof.Gen.ReferenceIdeal.Read
import proofs.«181770_j18743237280237_1_alg».proof.Proof.Spec
import proofs.«181770_j18743237280237_1_alg».proof.Proof.RefSums

noncomputable section

namespace Cert.RefValue

open Cert.ReferenceIdeal Cert.ReferenceIdeal.Read Cert.Spec Idealize.ShloMosaic Idealize.ShloMosaic.ValueIdx

/-- The entry (b, mi, di, s) of the [4, 16, 5, 32768] view is the flattened input at channel 160 + 5 * mi + di. -/
theorem g2_entry (x : (⟨S4x296x32x32x32, .f32⟩ : BufTy).Contents (Elt Ideal))
    (b : Fin 4) (mi : Fin 16) (di : Fin 5) (s : Fin 32768) :
    val_main_v53 (F := Ideal) x (ix4 b mi di s)
      = flat x (ix3 b ⟨160 + (5 * mi.val + di.val), by have := mi.isLt; have := di.isLt; omega⟩ s) := by
  have hb := b.isLt; have hm := mi.isLt; have hd := di.isLt; have hs := s.isLt
  rw [val_main_v53_apply, val_main_v52_apply]
  show x _ = x _
  refine congrArg x (funext fun a => Fin.ext ?_)
  match a with
  | ⟨0, _⟩ => show (((b.val * 16 + mi.val) * 5 + di.val) * 32768 + s.val) / 2621440 = b.val; omega
  | ⟨1, _⟩ => show 160 + (((b.val * 16 + mi.val) * 5 + di.val) * 32768 + s.val) / 32768 % 80 = 160 + (5 * mi.val + di.val); omega
  | ⟨2, _⟩ => show (((b.val * 16 + mi.val) * 5 + di.val) * 32768 + s.val) / 1024 % 32 = s.val / 1024; omega
  | ⟨3, _⟩ => show (((b.val * 16 + mi.val) * 5 + di.val) * 32768 + s.val) / 32 % 32 = s.val / 32 % 32; omega
  | ⟨4, _⟩ => show (((b.val * 16 + mi.val) * 5 + di.val) * 32768 + s.val) % 32 = s.val % 32; omega

/-- Position k = s + 32768 * mi of the flattened [4, 524288] array of per-(multiplicity, position) sums of squares. -/
theorem g2_row (x : (⟨S4x296x32x32x32, .f32⟩ : BufTy).Contents (Elt Ideal))
    (b : Fin 4) (mi : Fin 16) (s : Fin 32768) (k : Fin 524288) (hk : k.val = s.val + 32768 * mi.val) :
    val_main_v56 (F := Ideal) x (ix2 b k)
      = ∑ di : Fin 5, sq (flat x) (ix3 b ⟨160 + (5 * mi.val + di.val), by have := mi.isLt; have := di.isLt; omega⟩ s) := by
  have hb := b.isLt; have hm := mi.isLt; have hs := s.isLt
  rw [val_main_v56_apply, val_main_v55_apply, val_main_cst_11_apply, Ideal.ofBits_def, Ideal.ofBits_zero_f32, zero_add]
  refine Finset.sum_congr rfl fun di _ => ?_
  have e : idx_main_v55 (idx_main_v56 (ix2 b k)) di = ix4 b mi di s := by
    refine funext fun a => Fin.ext ?_
    match a with
    | ⟨0, _⟩ => show (b.val * 524288 + k.val) / 524288 = b.val; omega
    | ⟨1, _⟩ => show (b.val * 524288 + k.val) / 32768 % 16 = mi.val; omega
    | ⟨2, _⟩ => rfl
    | ⟨3, _⟩ => show (b.val * 524288 + k.val) % 32768 = s.val; omega
  rw [val_main_v54_apply, e, g2_entry]
  rfl

/-- The variance statistic: the sum of the squares over the group's channels and all positions. -/
theorem g2_stat (x : (⟨S4x296x32x32x32, .f32⟩ : BufTy).Contents (Elt Ideal)) (b : Fin 4) :
    val_main_v57 (F := Ideal) x (ix1 b) = gsum 160 80 h2 (sq (flat x)) b := by
  rw [val_main_v57_apply, val_main_cst_12_apply, Ideal.ofBits_def, Ideal.ofBits_zero_f32, zero_add]
  have e : ∀ k : Fin 524288, idx_main_v57 (ix1 b) k = ix2 b k := fun k =>
    funext fun a => Fin.ext (by match a with | ⟨0, _⟩ => rfl | ⟨1, _⟩ => rfl)
  unfold gsum
  refine sum_regroup 16 5 32768 524288 80 (by norm_num) (by norm_num)
    (fun mi di s => sq (flat x) (ix3 b ⟨160 + (5 * mi.val + di.val), by have := mi.isLt; have := di.isLt; omega⟩ s))
    _ _ (fun mi s k hk => ?_) (fun mi di s c hc => ?_)
  · rw [e k]; exact g2_row x b mi s k hk
  · have ec : chan 160 80 h2 c = ⟨160 + (5 * mi.val + di.val), by have := mi.isLt; have := di.isLt; omega⟩ :=
      Fin.ext (by show 160 + c.val = 160 + (5 * mi.val + di.val); omega)
    rw [ec]

/-- The reciprocal root of the group's variance. -/
theorem g2_inv (x : (⟨S4x296x32x32x32, .f32⟩ : BufTy).Contents (Elt Ideal)) (b : Fin 4) :
    val_main_v63 (F := Ideal) x (ix1 b) = invR2 (flat x) b := by
  rw [val_main_v63_apply, val_main_v61_apply, val_main_v59_apply, g2_stat, val_main_v58_apply, val_main_cst_13_apply,
    val_main_v60_apply, val_main_cst_14_apply, val_main_v62_apply, val_main_cst_15_apply]
  simp only [Ideal.hostPowf_def, Ideal.hostDivf_def, Ideal.addf_def, Ideal.ofBits_def]
  rfl

/-- The scale of multiplicity mi: the reciprocal root times the multiplicity's weight. -/
theorem g2_scale (x : (⟨S4x296x32x32x32, .f32⟩ : BufTy).Contents (Elt Ideal)) (w : (⟨S120, .f32⟩ : BufTy).Contents (Elt Ideal))
    (b : Fin 4) (mi : Fin 16) (u v : Fin 1) :
    val_main_v69 (F := Ideal) x w (ix4 b mi u v)
      = invR2 (flat x) b * w (ix1 ⟨96 + mi.val, by have := mi.isLt; omega⟩) := by
  rw [val_main_v69_apply, val_main_v67_apply, val_main_v64_apply, val_main_v68_apply, val_main_v66_apply, val_main_v65_apply]
  have e1 : idx_main_v64 (idx_main_v67 (ix4 b mi u v)) = ix1 b :=
    funext fun a => Fin.ext (by match a with | ⟨0, _⟩ => rfl)
  have e2 : idx_main_v65 (idx_main_v66 (idx_main_v68 (ix4 b mi u v))) = ix1 ⟨96 + mi.val, by have := mi.isLt; omega⟩ :=
    funext fun a => Fin.ext (by match a with | ⟨0, _⟩ => rfl)
  rw [e1, e2, g2_inv, Ideal.mulf_def]

/-- The group's result at channel k of the group and position (s1, s2, s3). -/
theorem ref_group2 (x : (⟨S4x296x32x32x32, .f32⟩ : BufTy).Contents (Elt Ideal)) (w : (⟨S120, .f32⟩ : BufTy).Contents (Elt Ideal))
    (b : Fin 4) (k : Fin 80) (s1 s2 s3 : Fin 32) :
    val_main_v72 (F := Ideal) x w (ix5 b k s1 s2 s3)
      = flat x (ix3 b (chan 160 80 h2 k) (flatS s1 s2 s3))
          * (invR2 (flat x) b * w (ix1 ⟨96 + k.val / 5, by have := k.isLt; omega⟩)) := by
  have hb := b.isLt; have hk := k.isLt; have hs1 := s1.isLt; have hs2 := s2.isLt; have hs3 := s3.isLt
  have e : idx_main_v72 (ix5 b k s1 s2 s3)
      = ix4 b ⟨k.val / 5, by omega⟩ ⟨k.val % 5, Nat.mod_lt _ (by decide)⟩ (flatS s1 s2 s3) := by
    refine funext fun a => Fin.ext ?_
    match a with
    | ⟨0, _⟩ => show ((((b.val * 80 + k.val) * 32 + s1.val) * 32 + s2.val) * 32 + s3.val) / 2621440 = b.val; omega
    | ⟨1, _⟩ => show ((((b.val * 80 + k.val) * 32 + s1.val) * 32 + s2.val) * 32 + s3.val) / 163840 % 16 = k.val / 5; omega
    | ⟨2, _⟩ => show ((((b.val * 80 + k.val) * 32 + s1.val) * 32 + s2.val) * 32 + s3.val) / 32768 % 5 = k.val % 5; omega
    | ⟨3, _⟩ => show ((((b.val * 80 + k.val) * 32 + s1.val) * 32 + s2.val) * 32 + s3.val) % 32768 = 1024 * s1.val + 32 * s2.val + s3.val; omega
  have e' : idx_main_v70 (ix4 b (⟨k.val / 5, by omega⟩ : Fin 16) (⟨k.val % 5, Nat.mod_lt _ (by decide)⟩ : Fin 5) (flatS s1 s2 s3))
      = ix4 b (⟨k.val / 5, by omega⟩ : Fin 16) (0 : Fin 1) (0 : Fin 1) :=
    funext fun a => Fin.ext (by match a with | ⟨0, _⟩ => rfl | ⟨1, _⟩ => rfl | ⟨2, _⟩ => rfl | ⟨3, _⟩ => rfl)
  have ec : (⟨160 + (5 * (k.val / 5) + k.val % 5), by omega⟩ : Fin 296) = chan 160 80 h2 k :=
    Fin.ext (by show 160 + (5 * (k.val / 5) + k.val % 5) = 160 + k.val; omega)
  rw [val_main_v72_apply, val_main_v71_apply, val_main_v70_apply, e, e', g2_entry, g2_scale, Ideal.mulf_def]
  show flat x (ix3 b ⟨160 + (5 * (k.val / 5) + k.val % 5), _⟩ (flatS s1 s2 s3)) * _ = _
  rw [ec]

end Cert.RefValue

end
-- ==== Proof.RefG3.lean ====
/-
  Channel group 3 of the reference (channels 240 to 295: 8 multiplicities of dimension 7), read at an index.
  The group's entries are viewed as [4, 8, 7, 32768]; the variance statistic is the sum of the squares over the
  dimension axis, then over the 8 * 32768 flattened (multiplicity, position) pairs, which is the sum over the
  group's 56 channels and all positions re-grouped; the result is the entry times (power(variance / N + eps, -1/2)
  times the weight of the channel's multiplicity).
-/
import proofs.«181770_j18743237280237_1_alg».proof.Proof.Gen.ReferenceIdeal.Read
import proofs.«181770_j18743237280237_1_alg».proof.Proof.Spec
import proofs.«181770_j18743237280237_1_alg».proof.Proof.RefSums

noncomputable section

namespace Cert.RefValue

open Cert.ReferenceIdeal Cert.ReferenceIdeal.Read Cert.Spec Idealize.ShloMosaic Idealize.ShloMosaic.ValueIdx

/-- The entry (b, mi, di, s) of the [4, 8, 7, 32768] view is the flattened input at channel 240 + 7 * mi + di. -/
theorem g3_entry (x : (⟨S4x296x32x32x32, .f32⟩ : BufTy).Contents (Elt Ideal))
    (b : Fin 4) (mi : Fin 8) (di : Fin 7) (s : Fin 32768) :
    val_main_v74 (F := Ideal) x (ix4 b mi di s)
      = flat x (ix3 b ⟨240 + (7 * mi.val + di.val), by have := mi.isLt; have := di.isLt; omega⟩ s) := by
  have hb := b.isLt; have hm := mi.isLt; have hd := di.isLt; have hs := s.isLt
  rw [val_main_v74_apply, val_main_v73_apply]
  show x _ = x _
  refine congrArg x (funext fun a => Fin.ext ?_)
  match a with
  | ⟨0, _⟩ => show (((b.val * 8 + mi.val) * 7 + di.val) * 32768 + s.val) / 1835008 = b.val; omega
  | ⟨1, _⟩ => show 240 + (((b.val * 8 + mi.val) * 7 + di.val) * 32768 + s.val) / 32768 % 56 = 240 + (7 * mi.val + di.val); omega
  | ⟨2, _⟩ => show (((b.val * 8 + mi.val) * 7 + di.val) * 32768 + s.val) / 1024 % 32 = s.val / 1024; omega
  | ⟨3, _⟩ => show (((b.val * 8 + mi.val) * 7 + di.val) * 32768 + s.val) / 32 % 32 = s.val / 32 % 32; omega
  | ⟨4, _⟩ => show (((b.val * 8 + mi.val) * 7 + di.val) * 32768 + s.val) % 32 = s.val % 32; omega

/-- Position k = s + 32768 * mi of the flattened [4, 262144] array of per-(multiplicity, position) sums of squares. -/
theorem g3_row (x : (⟨S4x296x32x32x32, .f32⟩ : BufTy).Contents (Elt Ideal))
    (b : Fin 4) (mi : Fin 8) (s : Fin 32768) (k : Fin 262144) (hk : k.val = s.val + 32768 * mi.val) :
    val_main_v77 (F := Ideal) x (ix2 b k)
      = ∑ di : Fin 7, sq (flat x) (ix3 b ⟨240 + (7 * mi.val + di.val), by have := mi.isLt; have := di.isLt; omega⟩ s) := by
  have hb := b.isLt; have hm := mi.isLt; have hs := s.isLt
  rw [val_main_v77_apply, val_main_v76_apply, val_main_cst_16_apply, Ideal.ofBits_def, Ideal.ofBits_zero_f32, zero_add]
  refine Finset.sum_congr rfl fun di _ => ?_
  have e : idx_main_v76 (idx_main_v77 (ix2 b k)) di = ix4 b mi di s := by
    refine funext fun a => Fin.ext ?_
    match a with
    | ⟨0, _⟩ => show (b.val * 262144 + k.val) / 262144 = b.val; omega
    | ⟨1, _⟩ => show (b.val * 262144 + k.val) / 32768 % 8 = mi.val; omega
    | ⟨2, _⟩ => rfl
    | ⟨3, _⟩ => show (b.val * 262144 + k.val) % 32768 = s.val; omega
  rw [val_main_v75_apply, e, g3_entry]
  rfl

/-- The variance statistic: the sum of the squares over the group's channels and all positions. -/
theorem g3_stat (x : (⟨S4x296x32x32x32, .f32⟩ : BufTy).Contents (Elt Ideal)) (b : Fin 4) :
    val_main_v78 (F := Ideal) x (ix1 b) = gsum 240 56 h3 (sq (flat x)) b := by
  rw [val_main_v78_apply, val_main_cst_17_apply, Ideal.ofBits_def, Ideal.ofBits_zero_f32, zero_add]
  have e : ∀ k : Fin 262144, idx_main_v78 (ix1 b) k = ix2 b k := fun k =>
    funext fun a => Fin.ext (by match a with | ⟨0, _⟩ => rfl | ⟨1, _⟩ => rfl)
  unfold gsum
  refine sum_regroup 8 7 32768 262144 56 (by norm_num) (by norm_num)
    (fun mi di s => sq (flat x) (ix3 b ⟨240 + (7 * mi.val + di.val), by have := mi.isLt; have := di.isLt; omega⟩ s))
    _ _ (fun mi s k hk => ?_) (fun mi di s c hc => ?_)
  · rw [e k]; exact g3_row x b mi s k hk
  · have ec : chan 240 56 h3 c = ⟨240 + (7 * mi.val + di.val), by have := mi.isLt; have := di.isLt; omega⟩ :=
      Fin.ext (by show 240 + c.val = 240 + (7 * mi.val + di.val); omega)
    rw [ec]

/-- The reciprocal root of the group's variance. -/
theorem g3_inv (x : (⟨S4x296x32x32x32, .f32⟩ : BufTy).Contents (Elt Ideal)) (b : Fin 4) :
    val_main_v84 (F := Ideal) x (ix1 b) = invR3 (flat x) b := by
  rw [val_main_v84_apply, val_main_v82_apply, val_main_v80_apply, g3_stat, val_main_v79_apply, val_main_cst_18_apply,
    val_main_v81_apply, val_main_cst_19_apply, val_main_v83_apply, val_main_cst_20_apply]
  simp only [Ideal.hostPowf_def, Ideal.hostDivf_def, Ideal.addf_def, Ideal.ofBits_def]
  rfl

/-- The scale of multiplicity mi: the reciprocal root times the multiplicity's weight. -/
theorem g3_scale (x : (⟨S4x296x32x32x32, .f32⟩ : BufTy).Contents (Elt Ideal)) (w : (⟨S120, .f32⟩ : BufTy).Contents (Elt Ideal))
    (b : Fin 4) (mi : Fin 8) (u v : Fin 1) :
    val_main_v90 (F := Ideal) x w (ix4 b mi u v)
      = invR3 (flat x) b * w (ix1 ⟨112 + mi.val, by have := mi.isLt; omega⟩) := by
  rw [val_main_v90_apply, val_main_v88_apply, val_main_v85_apply, val_main_v89_apply, val_main_v87_apply, val_main_v86_apply]
  have e1 : idx_main_v85 (idx_main_v88 (ix4 b mi u v)) = ix1 b :=
    funext fun a => Fin.ext (by match a with | ⟨0, _⟩ => rfl)
  have e2 : idx_main_v86 (idx_main_v87 (idx_main_v89 (ix4 b mi u v))) = ix1 ⟨112 + mi.val, by have := mi.isLt; omega⟩ :=
    funext fun a => Fin.ext (by match a with | ⟨0, _⟩ => rfl)
  rw [e1, e2, g3_inv, Ideal.mulf_def]

/-- The group's result at channel k of the group and position (s1, s2, s3). -/
theorem ref_group3 (x : (⟨S4x296x32x32x32, .f32⟩ : BufTy).Contents (Elt Ideal)) (w : (⟨S120, .f32⟩ : BufTy).Contents (Elt Ideal))
    (b : Fin 4) (k : Fin 56) (s1 s2 s3 : Fin 32) :
    val_main_v93 (F := Ideal) x w (ix5 b k s1 s2 s3)
      = flat x (ix3 b (chan 240 56 h3 k) (flatS s1 s2 s3))
          * (invR3 (flat x) b * w (ix1 ⟨112 + k.val / 7, by have := k.isLt; omega⟩)) := by
  have hb := b.isLt; have hk := k.isLt; have hs1 := s1.isLt; have hs2 := s2.isLt; have hs3 := s3.isLt
  have e : idx_main_v93 (ix5 b k s1 s2 s3)
      = ix4 b ⟨k.val / 7, by omega⟩ ⟨k.val % 7, Nat.mod_lt _ (by decide)⟩ (flatS s1 s2 s3) := by
    refine funext fun a => Fin.ext ?_
    match a with
    | ⟨0, _⟩ => show ((((b.val * 56 + k.val) * 32 + s1.val) * 32 + s2.val) * 32 + s3.val) / 1835008 = b.val; omega
    | ⟨1, _⟩ => show ((((b.val * 56 + k.val) * 32 + s1.val) * 32 + s2.val) * 32 + s3.val) / 229376 % 8 = k.val / 7; omega
    | ⟨2, _⟩ => show ((((b.val * 56 + k.val) * 32 + s1.val) * 32 + s2.val) * 32 + s3.val) / 32768 % 7 = k.val % 7; omega
    | ⟨3, _⟩ => show ((((b.val * 56 + k.val) * 32 + s1.val) * 32 + s2.val) * 32 + s3.val) % 32768 = 1024 * s1.val + 32 * s2.val + s3.val; omega
  have e' : idx_main_v91 (ix4 b (⟨k.val / 7, by omega⟩ : Fin 8) (⟨k.val % 7, Nat.mod_lt _ (by decide)⟩ : Fin 7) (flatS s1 s2 s3))
      = ix4 b (⟨k.val / 7, by omega⟩ : Fin 8) (0 : Fin 1) (0 : Fin 1) :=
    funext fun a => Fin.ext (by match a with | ⟨0, _⟩ => rfl | ⟨1, _⟩ => rfl | ⟨2, _⟩ => rfl | ⟨3, _⟩ => rfl)
  have ec : (⟨240 + (7 * (k.val / 7) + k.val % 7), by omega⟩ : Fin 296) = chan 240 56 h3 k :=
    Fin.ext (by show 240 + (7 * (k.val / 7) + k.val % 7) = 240 + k.val; omega)
  rw [val_main_v93_apply, val_main_v92_apply, val_main_v91_apply, e, e', g3_entry, g3_scale, Ideal.mulf_def]
  show flat x (ix3 b ⟨240 + (7 * (k.val / 7) + k.val % 7), _⟩ (flatS s1 s2 s3)) * _ = _
  rw [ec]

end Cert.RefValue

end
-- ==== Proof.RefValue.lean ====
/-
  The reference's result at an index is the specification. The result is the concatenation, along the channel
  axis, of the four channel groups' results (64, 96, 80 and 56 channels): the element at channel ch comes from the
  group whose span holds ch, at channel ch less the channels before that group; each group's result at an index is
  the specification's branch for that group.
-/
import proofs.«181770_j18743237280237_1_alg».proof.Proof.RefG0
import proofs.«181770_j18743237280237_1_alg».proof.Proof.RefG1
import proofs.«181770_j18743237280237_1_alg».proof.Proof.RefG2
import proofs.«181770_j18743237280237_1_alg».proof.Proof.RefG3

noncomputable section

namespace Cert.RefValue

open Cert.ReferenceIdeal Cert.ReferenceIdeal.Gen Cert.ReferenceIdeal.Read Cert.Spec Idealize.ShloMosaic Idealize.ShloMosaic.ValueIdx

/-- Channels below 64 read the first group's result. -/
theorem cat0 (x : (⟨S4x296x32x32x32, .f32⟩ : BufTy).Contents (Elt Ideal)) (w : (⟨S120, .f32⟩ : BufTy).Contents (Elt Ideal)) (bi : (⟨S64, .f32⟩ : BufTy).Contents (Elt Ideal))
    (b : Fin 4) (ch : Fin 296) (k : Fin 64) (hk : 0 + k.val = ch.val) (s1 s2 s3 : Fin 32) :
    val_main_v94 (F := Ideal) x w bi (ix5 b ch s1 s2 s3) = val_main_v30 (F := Ideal) x w bi (ix5 b k s1 s2 s3) := by
  unfold val_main_v94
  refine concatenate_apply_piece 1 _ _ (ix5 b ch s1 s2 s3) 0 (by show 0 < 4; decide) S4x64x32x32x32 _ rfl rfl 0 rfl
    (ix5 b k s1 s2 s3) (fun a => ?_) hk
  match a with
  | ⟨0, _⟩ => exact fun _ => rfl
  | ⟨1, _⟩ => exact fun h => absurd rfl h
  | ⟨2, _⟩ => exact fun _ => rfl
  | ⟨3, _⟩ => exact fun _ => rfl
  | ⟨4, _⟩ => exact fun _ => rfl

/-- Channels 64 to 159 read the second group's result. -/
theorem cat1 (x : (⟨S4x296x32x32x32, .f32⟩ : BufTy).Contents (Elt Ideal)) (w : (⟨S120, .f32⟩ : BufTy).Contents (Elt Ideal)) (bi : (⟨S64, .f32⟩ : BufTy).Contents (Elt Ideal))
    (b : Fin 4) (ch : Fin 296) (k : Fin 96) (hk : 64 + k.val = ch.val) (s1 s2 s3 : Fin 32) :
    val_main_v94 (F := Ideal) x w bi (ix5 b ch s1 s2 s3) = val_main_v51 (F := Ideal) x w (ix5 b k s1 s2 s3) := by
  unfold val_main_v94
  refine concatenate_apply_piece 1 _ _ (ix5 b ch s1 s2 s3) 1 (by show 1 < 4; decide) S4x96x32x32x32 _ rfl rfl 64 rfl
    (ix5 b k s1 s2 s3) (fun a => ?_) hk
  match a with
  | ⟨0, _⟩ => exact fun _ => rfl
  | ⟨1, _⟩ => exact fun h => absurd rfl h
  | ⟨2, _⟩ => exact fun _ => rfl
  | ⟨3, _⟩ => exact fun _ => rfl
  | ⟨4, _⟩ => exact fun _ => rfl

/-- Channels 160 to 239 read the third group's result. -/
theorem cat2 (x : (⟨S4x296x32x32x32, .f32⟩ : BufTy).Contents (Elt Ideal)) (w : (⟨S120, .f32⟩ : BufTy).Contents (Elt Ideal)) (bi : (⟨S64, .f32⟩ : BufTy).Contents (Elt Ideal))
    (b : Fin 4) (ch : Fin 296) (k : Fin 80) (hk : 160 + k.val = ch.val) (s1 s2 s3 : Fin 32) :
    val_main_v94 (F := Ideal) x w bi (ix5 b ch s1 s2 s3) = val_main_v72 (F := Ideal) x w (ix5 b k s1 s2 s3) := by
  unfold val_main_v94
  refine concatenate_apply_piece 1 _ _ (ix5 b ch s1 s2 s3) 2 (by show 2 < 4; decide) S4x80x32x32x32 _ rfl rfl 160 rfl
    (ix5 b k s1 s2 s3) (fun a => ?_) hk
  match a with
  | ⟨0, _⟩ => exact fun _ => rfl
  | ⟨1, _⟩ => exact fun h => absurd rfl h
  | ⟨2, _⟩ => exact fun _ => rfl
  | ⟨3, _⟩ => exact fun _ => rfl
  | ⟨4, _⟩ => exact fun _ => rfl

/-- Channels 240 to 295 read the fourth group's result. -/
theorem cat3 (x : (⟨S4x296x32x32x32, .f32⟩ : BufTy).Contents (Elt Ideal)) (w : (⟨S120, .f32⟩ : BufTy).Contents (Elt Ideal)) (bi : (⟨S64, .f32⟩ : BufTy).Contents (Elt Ideal))
    (b : Fin 4) (ch : Fin 296) (k : Fin 56) (hk : 240 + k.val = ch.val) (s1 s2 s3 : Fin 32) :
    val_main_v94 (F := Ideal) x w bi (ix5 b ch s1 s2 s3) = val_main_v93 (F := Ideal) x w (ix5 b k s1 s2 s3) := by
  unfold val_main_v94
  refine concatenate_apply_piece 1 _ _ (ix5 b ch s1 s2 s3) 3 (by show 3 < 4; decide) S4x56x32x32x32 _ rfl rfl 240 rfl
    (ix5 b k s1 s2 s3) (fun a => ?_) hk
  match a with
  | ⟨0, _⟩ => exact fun _ => rfl
  | ⟨1, _⟩ => exact fun h => absurd rfl h
  | ⟨2, _⟩ => exact fun _ => rfl
  | ⟨3, _⟩ => exact fun _ => rfl
  | ⟨4, _⟩ => exact fun _ => rfl

/-- The reference's result at an index is the specification. -/
theorem ref_value (x : (⟨S4x296x32x32x32, .f32⟩ : BufTy).Contents (Elt Ideal)) (w : (⟨S120, .f32⟩ : BufTy).Contents (Elt Ideal)) (bi : (⟨S64, .f32⟩ : BufTy).Contents (Elt Ideal))
    (b : Fin 4) (ch : Fin 296) (s1 s2 s3 : Fin 32) :
    val_main_v94 (F := Ideal) x w bi (ix5 b ch s1 s2 s3)
      = specR (flat x) w bi b ch (flatS s1 s2 s3) := by
  have hch := ch.isLt
  unfold specR
  by_cases c0 : ch.val < 64
  · have ek : chan 0 64 h0 ⟨ch.val, c0⟩ = ch := Fin.ext (by show 0 + ch.val = ch.val; omega)
    have ew : (⟨ch.val, by omega⟩ : Fin 120) = wIdx ch := by unfold wIdx; rw [dif_pos c0]
    rw [dif_pos c0, cat0 x w bi b ch ⟨ch.val, c0⟩ (by show 0 + ch.val = ch.val; omega), ref_group0, ek, ew]
  · rw [dif_neg c0]
    by_cases c1 : ch.val < 160
    · have ek : chan 64 96 h1 ⟨ch.val - 64, by omega⟩ = ch := Fin.ext (by show 64 + (ch.val - 64) = ch.val; omega)
      have ew : (⟨64 + (ch.val - 64) / 3, by omega⟩ : Fin 120) = wIdx ch := by unfold wIdx; rw [dif_neg c0, dif_pos c1]
      rw [dif_pos c1, cat1 x w bi b ch ⟨ch.val - 64, by omega⟩ (by show 64 + (ch.val - 64) = ch.val; omega), ref_group1, ek]
      show _ * (_ * w (ix1 ⟨64 + (ch.val - 64) / 3, _⟩)) = _
      rw [ew]
    · rw [dif_neg c1]
      by_cases c2 : ch.val < 240
      · have ek : chan 160 80 h2 ⟨ch.val - 160, by omega⟩ = ch := Fin.ext (by show 160 + (ch.val - 160) = ch.val; omega)
        have ew : (⟨96 + (ch.val - 160) / 5, by omega⟩ : Fin 120) = wIdx ch := by unfold wIdx; rw [dif_neg c0, dif_neg c1, dif_pos c2]
        rw [dif_pos c2, cat2 x w bi b ch ⟨ch.val - 160, by omega⟩ (by show 160 + (ch.val - 160) = ch.val; omega), ref_group2, ek]
        show _ * (_ * w (ix1 ⟨96 + (ch.val - 160) / 5, _⟩)) = _
        rw [ew]
      · have ek : chan 240 56 h3 ⟨ch.val - 240, by omega⟩ = ch := Fin.ext (by show 240 + (ch.val - 240) = ch.val; omega)
        have ew : (⟨112 + (ch.val - 240) / 7, by omega⟩ : Fin 120) = wIdx ch := by unfold wIdx; rw [dif_neg c0, dif_neg c1, dif_neg c2]
        rw [dif_neg c2, cat3 x w bi b ch ⟨ch.val - 240, by omega⟩ (by show 240 + (ch.val - 240) = ch.val; omega), ref_group3, ek]
        show _ * (_ * w (ix1 ⟨112 + (ch.val - 240) / 7, _⟩)) = _
        rw [ew]

end Cert.RefValue

end
-- ==== Proof.Algebra.lean ====
/-
  The one law that joins the two forms: for finitely many REAL numbers f_i with mean mu = (sum f) / n, n their number,
  the mean of the squared deviations (sum (f_i - mu)^2) / n equals (sum f_i^2) / n - mu^2. On the extended reals it
  fails at infinities, which is where the precondition (finite inputs) is used. Beside it: a reciprocal root of a
  positive real is its power with exponent -1/2; subtracting and adding the zero word changes nothing. With these the
  kernel's form of the result and the reference's are one function of finite arguments.
-/
import proofs.«181770_j18743237280237_1_alg».proof.Proof.Spec
import proofs.«181770_j18743237280237_1_alg».proof.Proof.Consts

noncomputable section

namespace Cert.Algebra

open Idealize.ShloMosaic Idealize.ShloMosaic.ValueIdx Cert.Spec

/-- A finite sum of reals, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A group sum of real entries is the real double sum. -/
theorem gsum_coe (off md : ℕ) (h : off + md ≤ 296) (f : SF.Idx → EReal) (r : SF.Idx → ℝ) (hf : ∀ i, f i = (r i : EReal)) (b : Fin 4) :
    gsum off md h f b = ((∑ k : Fin md, ∑ s : Fin 32768, r (ix3 b (chan off md h k) s) : ℝ) : EReal) := by
  unfold gsum
  rw [coe_sum]
  refine Finset.sum_congr rfl fun k _ => ?_
  rw [coe_sum]
  exact Finset.sum_congr rfl fun s _ => hf _

/-- THE LAW, over any finite index type. -/
theorem var_identity {ι : Type*} [Fintype ι] (f : ι → ℝ) (n : ℝ) (hn : (Fintype.card ι : ℝ) = n) (hn0 : n ≠ 0) :
    (∑ i, (f i - (∑ j, f j) * (1 / n)) * (f i - (∑ j, f j) * (1 / n))) * (1 / n)
      = (∑ i, f i * f i) * (1 / n) - ((∑ j, f j) * (1 / n)) * ((∑ j, f j) * (1 / n)) := by
  have h1 : ∀ i, (f i - (∑ j, f j) * (1 / n)) * (f i - (∑ j, f j) * (1 / n))
      = f i * f i - 2 * ((∑ j, f j) * (1 / n)) * f i + ((∑ j, f j) * (1 / n)) * ((∑ j, f j) * (1 / n)) := fun i => by ring
  rw [Finset.sum_congr rfl fun i _ => h1 i, Finset.sum_add_distrib, Finset.sum_sub_distrib, ← Finset.mul_sum,
    Finset.sum_const, Finset.card_univ, nsmul_eq_mul, hn]
  field_simp
  ring

/-- The same over a group: channels times positions. -/
theorem var_group (md : ℕ) (g : Fin md → Fin 32768 → ℝ) (n : ℝ) (hn : ((md * 32768 : ℕ) : ℝ) = n) (hn0 : n ≠ 0) :
    (∑ k : Fin md, ∑ s : Fin 32768, (g k s - (∑ k', ∑ s', g k' s') * (1 / n)) * (g k s - (∑ k', ∑ s', g k' s') * (1 / n))) * (1 / n)
      = (∑ k : Fin md, ∑ s : Fin 32768, g k s * g k s) * (1 / n)
        - ((∑ k', ∑ s', g k' s') * (1 / n)) * ((∑ k', ∑ s', g k' s') * (1 / n)) := by
  have e := var_identity (ι := Fin md × Fin 32768) (fun p => g p.1 p.2) n (by rw [← hn]; simp [Fintype.card_prod]) hn0
  simpa only [Fintype.sum_prod_type] using e

/-- A sum of squares of reals is not negative. -/
theorem sumsq_nonneg (md : ℕ) (g : Fin md → Fin 32768 → ℝ) : 0 ≤ ∑ k : Fin md, ∑ s : Fin 32768, g k s * g k s :=
  Finset.sum_nonneg fun k _ => Finset.sum_nonneg fun s _ => mul_self_nonneg _

/-- On a positive real the reciprocal root is the power with exponent -1/2. -/
theorem rsqrt_eq_pow (A : ℝ) (hA : 0 < A) : Ideal.rsqrt (A : EReal) = Ideal.pow (A : EReal) ((-(1 / 2) : ℝ) : EReal) := by
  rw [Ideal.rsqrt_coe, Ideal.pow_coe_coe, if_neg (not_lt.mpr hA.le), if_neg hA.ne']
  congr 1
  rw [Real.rpow_eq_pow, Real.rpow_neg hA.le, Real.sqrt_eq_rpow]

/-- The scale of a group that is not centred: both forms. -/
theorem inv_plain (xf : SF.Idx → EReal) (r : SF.Idx → ℝ) (hf : ∀ i, xf i = (r i : EReal)) (off md : ℕ) (h : off + md ≤ 296) (N : EReal) (n : ℝ) (hN : N = (n : EReal)) (hn : 0 < n) (b : Fin 4) :
    Ideal.rsqrt (Ideal.div (gsum off md h (Spec.sq xf) b) N + eps) = Ideal.pow (Ideal.div (gsum off md h (Spec.sq xf) b) N + eps) mhalf := by
  obtain ⟨e, he, hE⟩ := Cert.Consts.eps_pos
  have hE' : eps = (e : EReal) := hE
  have hM : mhalf = ((-(1 / 2) : ℝ) : EReal) := Cert.Consts.mhalf_eq
  have hs := gsum_coe off md h (Spec.sq xf) (fun i => r i * r i) (fun i => by unfold Spec.sq; rw [hf, ← EReal.coe_mul]) b
  rw [hs, hN, Ideal.div_coe hn.ne', ← EReal.coe_mul, hE', ← EReal.coe_add, hM]
  refine rsqrt_eq_pow _ ?_
  have h0 := sumsq_nonneg md (fun k s => r (ix3 b (chan off md h k) s))
  have h1 : 0 ≤ (∑ k : Fin md, ∑ s : Fin 32768, r (ix3 b (chan off md h k) s) * r (ix3 b (chan off md h k) s)) * (1 / n) :=
    mul_nonneg h0 (by positivity)
  linarith

/-- The first group's centre is a real. -/
theorem mean0_coe (xf : SF.Idx → EReal) (r : SF.Idx → ℝ) (hf : ∀ i, xf i = (r i : EReal)) (b : Fin 4) :
    mean0 xf b = (((∑ k : Fin 64, ∑ s : Fin 32768, r (ix3 b (chan 0 64 h0 k) s)) * (1 / 2097152) : ℝ) : EReal) := by
  unfold mean0
  rw [gsum_coe 0 64 h0 xf r hf b, show N0 = ((2097152 : ℝ) : EReal) from Cert.Consts.N0_eq, Ideal.div_coe (by norm_num), ← EReal.coe_mul]

/-- The scale of the first group: both forms. -/
theorem inv_first (xf : SF.Idx → EReal) (r : SF.Idx → ℝ) (hf : ∀ i, xf i = (r i : EReal)) (b : Fin 4) : invK0 xf b = invR0 xf b := by
  obtain ⟨e, he, hE⟩ := Cert.Consts.eps_pos
  have hE' : eps = (e : EReal) := hE
  have hM : mhalf = ((-(1 / 2) : ℝ) : EReal) := Cert.Consts.mhalf_eq
  have hN : N0 = ((2097152 : ℝ) : EReal) := Cert.Consts.N0_eq
  let g : Fin 64 → Fin 32768 → ℝ := fun k s => r (ix3 b (chan 0 64 h0 k) s)
  let mu : ℝ := (∑ k, ∑ s, g k s) * (1 / 2097152)
  have hs2 := gsum_coe 0 64 h0 (Spec.sq xf) (fun i => r i * r i) (fun i => by unfold Spec.sq; rw [hf, ← EReal.coe_mul]) b
  have hc : ∀ i : SF.Idx, Spec.sq (centred xf) i
      = (((r i - (∑ k : Fin 64, ∑ s : Fin 32768, r (ix3 (i 0) (chan 0 64 h0 k) s)) * (1 / 2097152))
          * (r i - (∑ k : Fin 64, ∑ s : Fin 32768, r (ix3 (i 0) (chan 0 64 h0 k) s)) * (1 / 2097152)) : ℝ) : EReal) := fun i => by
    unfold Spec.sq centred
    rw [mean0_coe xf r hf (i 0), hf i, ← EReal.coe_sub, ← EReal.coe_mul]
  have hsc := gsum_coe 0 64 h0 (Spec.sq (centred xf)) _ hc b
  unfold invK0 invR0
  rw [hs2, hsc, mean0_coe xf r hf b, hN, Ideal.div_coe (by norm_num), Ideal.div_coe (by norm_num), ← EReal.coe_mul, ← EReal.coe_mul, ← EReal.coe_mul,
    ← EReal.coe_sub, hE', ← EReal.coe_add, ← EReal.coe_add, hM]
  have hv := var_group 64 g 2097152 (by norm_num) (by norm_num)
  have harg : (∑ k : Fin 64, ∑ s : Fin 32768, r (ix3 b (chan 0 64 h0 k) s) * r (ix3 b (chan 0 64 h0 k) s)) * (1 / 2097152)
        - (∑ k : Fin 64, ∑ s : Fin 32768, r (ix3 b (chan 0 64 h0 k) s)) * (1 / 2097152) * ((∑ k : Fin 64, ∑ s : Fin 32768, r (ix3 b (chan 0 64 h0 k) s)) * (1 / 2097152)) + e
      = (∑ k : Fin 64, ∑ s : Fin 32768,
          (r (ix3 b (chan 0 64 h0 k) s) - (∑ k' : Fin 64, ∑ s' : Fin 32768, r (ix3 ((ix3 b (chan 0 64 h0 k) s : SF.Idx) 0) (chan 0 64 h0 k') s')) * (1 / 2097152))
          * (r (ix3 b (chan 0 64 h0 k) s) - (∑ k' : Fin 64, ∑ s' : Fin 32768, r (ix3 ((ix3 b (chan 0 64 h0 k) s : SF.Idx) 0) (chan 0 64 h0 k') s')) * (1 / 2097152))) * (1 / 2097152) + e := by
    rw [← hv]
  rw [harg]
  refine rsqrt_eq_pow _ ?_
  have h0' : 0 ≤ (∑ k : Fin 64, ∑ s : Fin 32768,
          (r (ix3 b (chan 0 64 h0 k) s) - (∑ k' : Fin 64, ∑ s' : Fin 32768, r (ix3 ((ix3 b (chan 0 64 h0 k) s : SF.Idx) 0) (chan 0 64 h0 k') s')) * (1 / 2097152))
          * (r (ix3 b (chan 0 64 h0 k) s) - (∑ k' : Fin 64, ∑ s' : Fin 32768, r (ix3 ((ix3 b (chan 0 64 h0 k) s : SF.Idx) 0) (chan 0 64 h0 k') s')) * (1 / 2097152))) * (1 / 2097152) :=
    mul_nonneg (Finset.sum_nonneg fun k _ => Finset.sum_nonneg fun s _ => mul_self_nonneg _) (by norm_num)
  linarith

/-- The two forms agree on finite arguments. -/
theorem specK_eq_specR (xf : SF.Idx → EReal) (r : SF.Idx → ℝ) (hf : ∀ i, xf i = (r i : EReal)) (w : SW.Idx → EReal) (bi : SB.Idx → EReal) (b : Fin 4) (ch : Fin 296) (s : Fin 32768) :
    specK xf w bi b ch s = specR xf w bi b ch s := by
  have hz : zero = 0 := Cert.Consts.zero_eq
  unfold specK specR
  split_ifs with c0 c1 c2
  · rw [inv_first xf r hf b]
  · unfold invK1 invR1
    rw [inv_plain xf r hf 64 96 h1 N1 1048576 Cert.Consts.N1_eq (by norm_num) b, hz, sub_zero, add_zero]
  · unfold invK2 invR2
    rw [inv_plain xf r hf 160 80 h2 N2 524288 Cert.Consts.N2_eq (by norm_num) b, hz, sub_zero, add_zero]
  · unfold invK3 invR3
    rw [inv_plain xf r hf 240 56 h3 N3 262144 Cert.Consts.N3_eq (by norm_num) b, hz, sub_zero, add_zero]

end Cert.Algebra

end
-- ==== Proof.Finite.lean ====
/-
  Finiteness of the three arguments, from the precondition. The printed predicate tests, for each argument array,
  that the absolute value of every entry is below +infinity, folds each test by "and" into one bit, and joins the
  three bits by "and"; the precondition says the result is 1. So each of the three folds is 1, so each tested bit is
  1, so each entry's absolute value max x (-x) is below +infinity in the extended reals, which leaves only the reals:
  at either infinity the absolute value is +infinity itself.
-/
import proofs.«181770_j18743237280237_1_alg».proof.Defs
import proofs.«181770_j18743237280237_1_alg».proof.Proof.Consts
import Idealize.ShloMosaic.Lib.ReduceAll
import Idealize.ShloMosaic.Lib.ValueIdx

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The word 0x7F800000 denotes +infinity. -/
theorem inf_word : Ideal.ofBits .f32 0x7F800000#32 = (⊤ : EReal) := by
  simp [Ideal.ofBits, Ideal.ieee]

/-- A one-bit word made from a truth value is 1 exactly when the value is true. -/
theorem ofBool_eq_one {b : Bool} : BitVec.ofBool b = 1#1 ↔ b = true := by cases b <;> decide

/-- An extended real whose absolute value is below +infinity is a real. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One element of a printed "absolute value below +infinity" test that came out 1: that entry is a real. -/
theorem real_of_test {s : Shape} (x : FVec Ideal s .f32)
    (hb : Cert.Pre_finite_inputs.S_.BroadcastsInDim s (![] : Fin 0 → Fin s.rank)) (i : s.Idx)
    (h : cmpf .olt (Host.absf x) (broadcastInDim s ![] hb (constant (F := Ideal) Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [inf_word] at h'
  have h'' : decide (max (x i) (-(x i)) < (⊤ : EReal)) = true := ofBool_eq_one.1 h'
  exact real_of_abs_lt_top (x i) (of_decide_eq_true h'')

/-- THE PRECONDITION, READ: every entry of each of the three argument arrays is a real. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn] at h0
  obtain ⟨h8, h12⟩ := IntOp.andi_eq_one.1 h0
  obtain ⟨h3, h7⟩ := IntOp.andi_eq_one.1 h8
  refine ⟨fun i => ?_, fun i => ?_, fun i => ?_⟩
  · exact real_of_test _ _ i (Host.reduce_andi_all _ _ _ _ _ h3 i)
  · exact real_of_test _ _ i (Host.reduce_andi_all _ _ _ _ _ h7 i)
  · exact real_of_test _ _ i (Host.reduce_andi_all _ _ _ _ _ h12 i)

end Cert.Finite

end
-- ==== Proof.Alg.lean ====
/-
  The two idealized programs, run from memories that agree on the three arguments, end with equal results. The kernel
  program's run ends with every unscoped buffer at the last boundary's contents, so its result is the reshape of the
  normalisation output and its arguments are untouched; the reference's run ends with its result at the composed term
  of its operations. Index by index the first is the specification's kernel form and the second its reference form
  of the flattened input, and on finite inputs (the precondition) the two forms are one function.
-/
import proofs.«181770_j18743237280237_1_alg».proof.Defs
import proofs.«181770_j18743237280237_1_alg».proof.Proof.KernelValue
import proofs.«181770_j18743237280237_1_alg».proof.Proof.RefValue
import proofs.«181770_j18743237280237_1_alg».proof.Proof.Algebra
import proofs.«181770_j18743237280237_1_alg».proof.Proof.Finite
import proofs.«181770_j18743237280237_1_alg».proof.Proof.Gen.KernelIdeal
import proofs.«181770_j18743237280237_1_alg».proof.Proof.Gen.ReferenceIdeal
import proofs.«181770_j18743237280237_1_alg».proof.Proof.Gen.Pre_finite_inputs

set_option maxRecDepth 16384

noncomputable section

namespace Cert.Proof.Alg

open Idealize.ShloMosaic Idealize.ShloMosaic.TcCoe Idealize.ShloMosaic.ValueIdx Idealize.SL.Sem
open Cert.KernelIdeal.Hand

theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' hpre hagree
  refine ⟨fun c => W5 (F := Ideal) m ρ c (Proc.devRef .tc Cert.KernelIdeal.main_v51), ?_, ?_⟩
  · exact (θ_run Cert.KernelIdeal.defs _ _).mono (fun r h c =>
      ⟨h c _ (mem_uc Cert.KernelIdeal.main_v51 (by decide)),
       (h c _ (mem_uc Cert.KernelIdeal.main_arg0 (by decide))).trans (W5_main_arg0 m ρ c),
       (h c _ (mem_uc Cert.KernelIdeal.main_arg1 (by decide))).trans (W5_main_arg1 m ρ c),
       (h c _ (mem_uc Cert.KernelIdeal.main_arg2 (by decide))).trans (W5_main_arg2 m ρ c)⟩) (run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v94_eq, (hagree c).1, (hagree c).2.1, (hagree c).2.2]
    funext i
    rw [eq_ix5 i]
    obtain ⟨hx, -, -⟩ := Cert.Finite.finite_of_pre m hpre c
    choose r hr using hx
    refine (Cert.RefValue.ref_value _ _ _ _ _ _ _ _).trans ?_
    refine Eq.trans ?_ (Cert.KernelIdeal.KV.kernel_value m ρ c _ _ _ _ _).symm
    exact (Cert.Algebra.specK_eq_specR _ (fun j => r (Cert.Spec.unflat (j 0) (j 1) (j 2))) (fun j => hr _) _ _ _ _ _).symm

end Cert.Proof.Alg

end
-- ==== Proof.lean ====
/-
  The certificate of the group normalisation over ragged irrep groups: a two-pass kernel (per-batch, per-group sums
  and sums of squares accumulated over 32 spatial tiles, then a pointwise centre-scale-shift) against the plain
  reference (per group: centre the scalar group, mean of squares, reciprocal root as a power, weight, bias).
  The three frames: each program runs to the end, faults nowhere and leaves its three arguments untouched; for the
  two kernel programs this is the run of the five segments of the entry function (two host stretches around and one
  between the two kernel regions), for the reference its straight line of host operations. The idealization rewrote
  nothing. Over the extended reals, under finite inputs, the two results are equal index by index.
-/
import proofs.«181770_j18743237280237_1_alg».proof.Defs
import proofs.«181770_j18743237280237_1_alg».proof.Proof.Gen.Kernel
import proofs.«181770_j18743237280237_1_alg».proof.Proof.Gen.KernelIdeal
import proofs.«181770_j18743237280237_1_alg».proof.Proof.Gen.ReferenceIdeal
import proofs.«181770_j18743237280237_1_alg».proof.Proof.Gen.Pre_finite_inputs
import proofs.«181770_j18743237280237_1_alg».proof.Proof.RefFrame
import proofs.«181770_j18743237280237_1_alg».proof.Proof.RunBits
import proofs.«181770_j18743237280237_1_alg».proof.Proof.RunIdeal
import proofs.«181770_j18743237280237_1_alg».proof.Proof.Alg

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.Proof.RefFrame.frame_ri,
  trivial,
  Cert.Proof.Alg.algebraic⟩

end Cert.Proof

end
